-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59_1)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_1) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128 .f32) (main_arg12 : FVec F S64x128 .f32) (main_arg13 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S64x128 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : FVec F S1600000x128 .f32) (main_arg2 : IVec S2x1600000 32) (main_arg3 : IVec S100000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S64x128 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000x128 : Shape := ⟨2, ![1600000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S20x1x128 : Shape := ⟨3, ![20, 1, 128]⟩
abbrev S5000x128 : Shape := ⟨2, ![5000, 128]⟩
abbrev S5000x1 : Shape := ⟨2, ![5000, 1]⟩
abbrev S1x1x128 : Shape := ⟨3, ![1, 1, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S128x1 : Shape := ⟨2, ![128, 1]⟩

abbrev nBuf : Space → Nat
  | .hbm => 115
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x128, .f32⟩
  | .hbm, ⟨53, _⟩ => ⟨S20x1x128, .f32⟩
  | .hbm, ⟨54, _⟩ => ⟨S20x1x128, .f32⟩
  | .hbm, ⟨55, _⟩ => ⟨S_, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S128x128, .f32⟩
  | .hbm, ⟨92, _⟩ => ⟨S128x128, .f32⟩
  | .hbm, ⟨93, _⟩ => ⟨S1x128, .f32⟩
  | .hbm, ⟨94, _⟩ => ⟨S128x64, .f32⟩
  | .hbm, ⟨95, _⟩ => ⟨S1x64, .f32⟩
  | .hbm, ⟨96, _⟩ => ⟨S100000x128, .f32⟩
  | .hbm, ⟨97, _⟩ => ⟨S100000x64, .f32⟩
  | .hbm, ⟨98, _⟩ => ⟨S_, .f32⟩
  | .hbm, ⟨99, _⟩ => ⟨S128x128, .f32⟩
  | .hbm, ⟨100, _⟩ => ⟨S100000x1, .i32⟩
  | .hbm, ⟨101, _⟩ => ⟨S128x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S128, .f32⟩
  | .hbm, ⟨106, _⟩ => ⟨S100000x1, .i32⟩
  | .hbm, ⟨107, _⟩ => ⟨S128, .f32⟩
  | .hbm, ⟨108, _⟩ => ⟨S_, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S128x1, .f32⟩
  | .hbm, ⟨113, _⟩ => ⟨S128x128, .f32⟩
  | .hbm, ⟨114, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S5000x128, .f32⟩
  | .local _ .vmem, ⟨35, _⟩ => ⟨S5000x128, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_cst : Ref sig .tc := ⟨.hbm, 42, rfl⟩
abbrev main_call1_v0 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev main_cst_5 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call2_cst : Ref sig .tc := ⟨.hbm, 84, rfl⟩
abbrev main_call2_v0 : Ref sig .tc := ⟨.hbm, 85, rfl⟩
abbrev main_v50 : Ref sig .tc := ⟨.hbm, 86, rfl⟩
abbrev main_cst_12 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59_0 : Ref sig .tc := ⟨.hbm, 96, rfl⟩
abbrev main_v59_1 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_14 : Ref sig .tc := ⟨.hbm, 102, rfl⟩
abbrev main_v63 : Ref sig .tc := ⟨.hbm, 103, rfl⟩
abbrev main_cst_15 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_16 : Ref sig .tc := ⟨.hbm, 108, rfl⟩
abbrev main_call3_v0 : Ref sig .tc := ⟨.hbm, 109, rfl⟩
abbrev main_call3_v1 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x128 : S_.BroadcastsInDim S1600000x128 (![] : Fin 0 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S20x1x128.size a
  hwx0_7 : ∀ i : grid0.Coords, EltTy.bits .f32 = 32 ∨ (Rect.block (s := S20x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S20x1x128.size a
  hwx0_8 : ∀ i : grid0.Coords, EltTy.bits .f32 = 32 ∨ (Rect.block (s := S20x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S100000x64.size a
  hwx2_9 : ∀ i : grid2.Coords, EltTy.bits .f32 = 32 ∨ (Rect.block (s := S100000x64) S5000x64.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v59_1) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S128x1 : Shape := ⟨2, ![128, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S1600000x128, .f32⟩
  | 2 => ⟨S2x1600000, .i32⟩
  | 3 => ⟨S100000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128, .f32⟩
  | 12 => ⟨S64x128, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x128, .f32⟩
  | 28 => ⟨S_, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S128x128, .f32⟩
  | 49 => ⟨S100000x128, .f32⟩
  | 50 => ⟨S1x128, .f32⟩
  | 51 => ⟨S100000x128, .f32⟩
  | 52 => ⟨S100000x128, .f32⟩
  | 53 => ⟨S128x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x128, .f32⟩
  | 113 => ⟨S_, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S128x128, .f32⟩
  | 6 => ⟨S100000x128, .f32⟩
  | 7 => ⟨S1x128, .f32⟩
  | 8 => ⟨S100000x128, .f32⟩
  | 9 => ⟨S100000x128, .f32⟩
  | 10 => ⟨S128x128, .f32⟩
  | 11 => ⟨S100000x128, .f32⟩
  | 12 => ⟨S100000x128, .f32⟩
  | 13 => ⟨S_, .f32⟩
  | 14 => ⟨S128x128, .f32⟩
  | 15 => ⟨S100000x1, .i32⟩
  | 16 => ⟨S128x128, .f32⟩
  | 17 => ⟨S_, .f32⟩
  | 18 => ⟨S100000, .f32⟩
  | 19 => ⟨S_, .f32⟩
  | 20 => ⟨S128, .f32⟩
  | 21 => ⟨S100000x1, .i32⟩
  | 22 => ⟨S128, .f32⟩
  | 23 => ⟨S_, .f32⟩
  | 24 => ⟨S_, .f32⟩
  | 25 => ⟨S128, .f32⟩
  | 26 => ⟨S128, .f32⟩
  | 27 => ⟨S128x1, .f32⟩
  | 28 => ⟨S128x128, .f32⟩
  | 29 => ⟨S128x128, .f32⟩
  | 30 => ⟨S_, .f32⟩
  | 31 => ⟨S100000x128, .f32⟩
  | 32 => ⟨S100000x128, .f32⟩
  | 33 => ⟨S128x64, .f32⟩
  | 34 => ⟨S100000x64, .f32⟩
  | 35 => ⟨S1x64, .f32⟩
  | 36 => ⟨S100000x64, .f32⟩
  | 37 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_cst_2 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_cst_3 : Ref sig .tc := ⟨.hbm, 78, rfl⟩
abbrev main_call2_v12 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_7 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_call3_cst : Ref sig .tc := ⟨.hbm, 100, rfl⟩
abbrev main_call3_v0 : Ref sig .tc := ⟨.hbm, 101, rfl⟩
abbrev main_v51 : Ref sig .tc := ⟨.hbm, 102, rfl⟩
abbrev main_c_8 : Ref sig .tc := ⟨.hbm, 103, rfl⟩
abbrev main_v52 : Ref sig .tc := ⟨.hbm, 104, rfl⟩
abbrev main_v53 : Ref sig .tc := ⟨.hbm, 105, rfl⟩
abbrev main_c_9 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call4_cst : Ref sig .tc := ⟨.hbm, 113, rfl⟩
abbrev main_call4_v0 : Ref sig .tc := ⟨.hbm, 114, rfl⟩
abbrev main_v60 : Ref sig .tc := ⟨.hbm, 115, rfl⟩
abbrev main_cst_10 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_11 : Ref sig .tc := ⟨.hbm, 120, rfl⟩
abbrev main_v64 : Ref sig .tc := ⟨.hbm, 121, rfl⟩
abbrev main_cst_12 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_13 : Ref sig .tc := ⟨.hbm, 126, rfl⟩
abbrev main_call5_v0 : Ref sig .tc := ⟨.hbm, 127, rfl⟩
abbrev main_call5_v1 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_14 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_15 : Ref sig .tc := ⟨.hbm, 145, rfl⟩
abbrev main_v83 : Ref sig .tc := ⟨.hbm, 146, rfl⟩
abbrev main_cst_16 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_17 : Ref sig .tc := ⟨.hbm, 151, rfl⟩
abbrev main_call6_v0 : Ref sig .tc := ⟨.hbm, 152, rfl⟩
abbrev main_call6_v1 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_call7_cst : Ref sig .tc := ⟨.hbm, 158, rfl⟩
abbrev main_call7_v0 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefRun.lean ====
/-
  The run of the reference program's @main, read operation by operation.

  @main is a straight line of 152 host operations once each call is replaced by its callee's body over that
  call's buffers (a call means its callee's body on the operands; @_var's body itself calls @_where, whose
  three operations follow @_var's nineteen). The line is cut into eight consecutive windows, one per stage of
  the computation: the index columns, the first convolution, the column statistics, the normalization (two
  windows: the cut of @main into its two printed parts falls inside it), the second convolution, the segment
  mean, and the projection. `valK V` is the device's contents after the first K windows from contents `V`;
  a buffer a window does not write keeps its contents through it, and a buffer a window writes holds the
  window's composition of the pure operations, stated over named stage functions.
-/
import proofs.«168042_j17549236371683_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window -/

/-- The two rows of the edge table as index columns: `%0` … `%9`. -/
abbrev wA : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)) ]
/-- The buffers the operations of `wA` write. -/
abbrev wA_W : List (Ref sig .tc) :=
  [main_v0, main_v1, main_v2, main_v3, main_c, main_v4, main_v5, main_c_0, main_v6, main_v7, main_v8, main_v9]

/-- The first convolution: `%10` … `%31` (with the calls of @relu and @clip). -/
abbrev wB : List (HloOp τ sig (Elt F)) :=
  [ StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_v10 main_arg1 main_v11 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call0.cst (constant S_ .f32 0x00000000#32),
    StableHlo.TRef.unary main_call0.cst main_call0.v0 (broadcastInDim S1600000x128 ![] bcast_S_S1600000x128),
    StableHlo.TRef.binary (.of main_v11 : StableHlo.TRef sig ⟨S1600000x128, .f32⟩) main_call0.v0 main_call0.v1 maximumf,
    StableHlo.nullary main_cst (constant S_ .f32 0x00000000#32),
    StableHlo.unary main_cst main_v13 (broadcastInDim S100000x128 ![] bcast_S_S100000x128 : (⟨S_, .f32⟩ : BufTy).Contents (Elt F) → (⟨S100000x128, .f32⟩ : BufTy).Contents (Elt F)),
    StableHlo.unary main_v3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v16 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v17 (broadcastInDim S100000 ![] bcast_S_S100000 : (⟨S_, .f32⟩ : BufTy).Contents (Elt F) → (⟨S100000, .f32⟩ : BufTy).Contents (Elt F)),
    StableHlo.unary main_v3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S100000 ![] bcast_S_S100000),
    StableHlo.TRef.binary main_call1.v1 (.of main_v19 : StableHlo.TRef sig ⟨S100000, .f32⟩) main_call1.v2 maximumf,
    StableHlo.unary main_v20 main_v21 (broadcastInDim S100000x1 ![0] bcast_S100000_S100000x1_0 : (⟨S100000, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v15 main_v22 main_v23 (Host.divf : (⟨S100000x128, .f32⟩ : BufTy).Contents (Elt F) → (⟨S100000x128, .f32⟩ : BufTy).Contents (Elt F) → (⟨S100000x128, .f32⟩ : BufTy).Contents (Elt F)),
    StableHlo.unary main_arg4 main_v24 ((transpose S128x128 [1, 0] · transposes_S128x128_S128x128_1_0) : (⟨S128x128, .f32⟩ : BufTy).Contents (Elt F) → (⟨S128x128, .f32⟩ : BufTy).Contents (Elt F)),
    StableHlo.binary main_v23 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.unary main_arg6 main_v29 ((transpose S128x128 [1, 0] · transposes_S128x128_S128x128_1_0) : (⟨S128x128, .f32⟩ : BufTy).Contents (Elt F) → (⟨S128x128, .f32⟩ : BufTy).Contents (Elt F)),
    StableHlo.binary main_arg0 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v28 main_v30 main_v31 (addf : (⟨S100000x128, .f32⟩ : BufTy).Contents (Elt F) → (⟨S100000x128, .f32⟩ : BufTy).Contents (Elt F) → (⟨S100000x128, .f32⟩ : BufTy).Contents (Elt F)) ]
/-- The buffers the operations of `wB` write. -/
abbrev wB_W : List (Ref sig .tc) :=
  [main_v10, main_v11, main_call0.cst.ref, main_call0.v0.ref, main_call0.v1.ref, main_cst, main_v13, main_v14, main_v15, main_cst_1, main_v16, main_cst_2, main_v17, main_v18, main_v19, main_cst_3, main_call1.v0.ref, main_call1.v1.ref, main_call1.v2.ref, main_v21, main_v22, main_v23, main_v24, main_v25, main_v26, main_v27, main_v28, main_v29, main_v30, main_v31]

/-- The column statistics of `%31`: `%32` … `%35` (with the call of @_var and its @_where). -/
abbrev wC : List (HloOp τ sig (Elt F)) :=
  [ StableHlo.nullary main_cst_4 (constant S_ .f32 0x00000000#32),
    StableHlo.binary main_v31 main_cst_4 main_v32 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call2.cst (constant S_ .f32 0x00000000#32),
    StableHlo.TRef.binary (.of main_v31 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v31 : StableHlo.TRef sig ⟨S100000x128, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
/-- The buffers the operations of `wC` write. -/
abbrev wC_W : List (Ref sig .tc) :=
  [main_cst_4, main_v32, main_cst_5, main_v33, main_v34, main_c_6, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]

/-- The normalization of `%31`, first part: `%36` … `%49`. -/
abbrev wD1 : List (HloOp τ sig (Elt F)) :=
  [ StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v37 main_v38 (subf : (⟨S100000x128, .f32⟩ : BufTy).Contents (Elt F) → (⟨S100000x128, .f32⟩ : BufTy).Contents (Elt F) → (⟨S100000x128, .f32⟩ : BufTy).Contents (Elt F)),
    StableHlo.unary main_arg10 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v38 main_v41 (mulf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v42 (broadcastInDim S128 ![] bcast_S_S128 : (⟨S_, .f32⟩ : BufTy).Contents (Elt F) → (⟨S128, .f32⟩ : BufTy).Contents (Elt F)),
    StableHlo.binary main_v35 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v46 main_v47 (mulf : (⟨S100000x128, .f32⟩ : BufTy).Contents (Elt F) → (⟨S100000x128, .f32⟩ : BufTy).Contents (Elt F) → (⟨S100000x128, .f32⟩ : BufTy).Contents (Elt F)),
    StableHlo.unary main_arg11 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)) ]
/-- The buffers the operations of `wD1` write. -/
abbrev wD1_W : List (Ref sig .tc) :=
  [main_v36, main_v37, main_v38, main_v39, main_v40, main_v41, main_cst_7, main_v42, main_v43, main_v44, main_v45, main_v46, main_v47, main_v48, main_v49]

/-- The normalization, last part: `%50`, `%51` (the call of @relu_0). -/
abbrev wD2 : List (HloOp τ sig (Elt F)) :=
  [ StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v50 : StableHlo.TRef sig ⟨S100000x128, .f32⟩) main_call3.v0 main_call3.v1 maximumf ]
/-- The buffers the operations of `wD2` write. -/
abbrev wD2_W : List (Ref sig .tc) :=
  [main_v50, main_call3.cst.ref, main_call3.v0.ref, main_call3.v1.ref]

/-- The second convolution: `%52` … `%79` (with the calls of @relu and @clip). -/
abbrev wE : List (HloOp τ sig (Elt F)) :=
  [ StableHlo.nullary main_c_8 (constantI S_ 32 0#32),
    StableHlo.unary main_c_8 main_v52 (broadcastInDim S1600000 ![] bcast_S_S1600000 : (⟨S_, .i32⟩ : BufTy).Contents (Elt F) → (⟨S1600000, .i32⟩ : BufTy).Contents (Elt F)),
    StableHlo.binary main_v1 main_v52 main_v53 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v54 (broadcastInDim S1600000 ![] bcast_S_S1600000 : (⟨S_, .i32⟩ : BufTy).Contents (Elt F) → (⟨S1600000, .i32⟩ : BufTy).Contents (Elt F)),
    StableHlo.binary main_v1 main_v54 main_v55 (addi : (⟨S1600000, .i32⟩ : BufTy).Contents (Elt F) → (⟨S1600000, .i32⟩ : BufTy).Contents (Elt F) → (⟨S1600000, .i32⟩ : BufTy).Contents (Elt F)),
    StableHlo.ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v56 main_v57 (broadcastInDim S1600000x1 ![0] bcast_S1600000_S1600000x1_0 : (⟨S1600000, .i32⟩ : BufTy).Contents (Elt F) → (⟨S1600000x1, .i32⟩ : BufTy).Contents (Elt F)),
    StableHlo.binary main_v51 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_v58 main_arg1 main_v59 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call4.cst (constant S_ .f32 0x00000000#32),
    StableHlo.TRef.unary main_call4.cst main_call4.v0 (broadcastInDim S1600000x128 ![] bcast_S_S1600000x128),
    StableHlo.TRef.binary (.of main_v59 : StableHlo.TRef sig ⟨S1600000x128, .f32⟩) main_call4.v0 main_call4.v1 maximumf,
    StableHlo.nullary main_cst_10 (constant S_ .f32 0x00000000#32),
    StableHlo.unary main_cst_10 main_v61 (broadcastInDim S100000x128 ![] bcast_S_S100000x128 : (⟨S_, .f32⟩ : BufTy).Contents (Elt F) → (⟨S100000x128, .f32⟩ : BufTy).Contents (Elt F)),
    StableHlo.unary main_v3 main_v62 (broadcastInDim S1600000x1 ![0] bcast_S1600000_S1600000x1_0 : (⟨S1600000, .i32⟩ : BufTy).Contents (Elt F) → (⟨S1600000x1, .i32⟩ : BufTy).Contents (Elt F)),
    StableHlo.ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_11 (constant S_ .f32 0x3F800000#32),
    StableHlo.unary main_cst_11 main_v64 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v65 (broadcastInDim S100000 ![] bcast_S_S100000 : (⟨S_, .f32⟩ : BufTy).Contents (Elt F) → (⟨S100000, .f32⟩ : BufTy).Contents (Elt F)),
    StableHlo.unary main_v3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.TRef.unary (.of main_cst_13 : StableHlo.TRef sig ⟨S_, .f32⟩) main_call5.v0 id,
    StableHlo.TRef.unary main_call5.v0 main_call5.v1 (broadcastInDim S100000 ![] bcast_S_S100000),
    StableHlo.TRef.binary main_call5.v1 (.of main_v67 : StableHlo.TRef sig ⟨S100000, .f32⟩) main_call5.v2 maximumf,
    StableHlo.unary main_v68 main_v69 (broadcastInDim S100000x1 ![0] bcast_S100000_S100000x1_0 : (⟨S100000, .f32⟩ : BufTy).Contents (Elt F) → (⟨S100000x1, .f32⟩ : BufTy).Contents (Elt F)),
    StableHlo.unary main_v69 main_v70 (broadcastInDim S100000x128 ![0, 1] bcast_S100000x1_S100000x128_0_1 : (⟨S100000x1, .f32⟩ : BufTy).Contents (Elt F) → (⟨S100000x128, .f32⟩ : BufTy).Contents (Elt F)),
    StableHlo.binary main_v63 main_v70 main_v71 (Host.divf : (⟨S100000x128, .f32⟩ : BufTy).Contents (Elt F) → (⟨S100000x128, .f32⟩ : BufTy).Contents (Elt F) → (⟨S100000x128, .f32⟩ : BufTy).Contents (Elt F)),
    StableHlo.unary main_arg7 main_v72 ((transpose S128x128 [1, 0] · transposes_S128x128_S128x128_1_0) : (⟨S128x128, .f32⟩ : BufTy).Contents (Elt F) → (⟨S128x128, .f32⟩ : BufTy).Contents (Elt F)),
    StableHlo.binary main_v71 main_v72 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.unary main_arg9 main_v77 ((transpose S128x128 [1, 0] · transposes_S128x128_S128x128_1_0) : (⟨S128x128, .f32⟩ : BufTy).Contents (Elt F) → (⟨S128x128, .f32⟩ : BufTy).Contents (Elt F)),
    StableHlo.binary main_v51 main_v77 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v76 main_v78 main_v79 (addf : (⟨S100000x128, .f32⟩ : BufTy).Contents (Elt F) → (⟨S100000x128, .f32⟩ : BufTy).Contents (Elt F) → (⟨S100000x128, .f32⟩ : BufTy).Contents (Elt F)) ]
/-- The buffers the operations of `wE` write. -/
abbrev wE_W : List (Ref sig .tc) :=
  [main_c_8, main_v52, main_v53, main_c_9, main_v54, main_v55, main_v56, main_v57, main_v58, main_v59, main_call4.cst.ref, main_call4.v0.ref, main_call4.v1.ref, main_cst_10, main_v61, main_v62, main_v63, main_cst_11, main_v64, main_cst_12, main_v65, main_v66, main_v67, main_cst_13, main_call5.v0.ref, main_call5.v1.ref, main_call5.v2.ref, main_v69, main_v70, main_v71, main_v72, main_v73, main_v74, main_v75, main_v76, main_v77, main_v78, main_v79]

/-- The mean over the segments: `%80` … `%90` (with the call of @clip_1). -/
abbrev wG : List (HloOp τ sig (Elt F)) :=
  [ StableHlo.nullary main_cst_14 (constant S_ .f32 0x00000000#32),
    StableHlo.unary main_cst_14 main_v80 (broadcastInDim S128x128 ![] bcast_S_S128x128 : (⟨S_, .f32⟩ : BufTy).Contents (Elt F) → (⟨S128x128, .f32⟩ : BufTy).Contents (Elt F)),
    StableHlo.unary main_arg3 main_v81 (broadcastInDim S100000x1 ![0] bcast_S100000_S100000x1_0 : (⟨S100000, .i32⟩ : BufTy).Contents (Elt F) → (⟨S100000x1, .i32⟩ : BufTy).Contents (Elt F)),
    StableHlo.ternary main_v80 main_v81 main_v79 main_v82 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_15 (constant S_ .f32 0x3F800000#32),
    StableHlo.unary main_cst_15 main_v83 (broadcastInDim S100000 ![] bcast_S_S100000 : (⟨S_, .f32⟩ : BufTy).Contents (Elt F) → (⟨S100000, .f32⟩ : BufTy).Contents (Elt F)),
    StableHlo.nullary main_cst_16 (constant S_ .f32 0x00000000#32),
    StableHlo.unary main_cst_16 main_v84 (broadcastInDim S128 ![] bcast_S_S128 : (⟨S_, .f32⟩ : BufTy).Contents (Elt F) → (⟨S128, .f32⟩ : BufTy).Contents (Elt F)),
    StableHlo.unary main_arg3 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v83 main_v86 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    StableHlo.nullary main_cst_17 (constant S_ .f32 0x3F800000#32),
    StableHlo.TRef.unary (.of main_cst_17 : StableHlo.TRef sig ⟨S_, .f32⟩) main_call6.v0 id,
    StableHlo.TRef.unary main_call6.v0 main_call6.v1 (broadcastInDim S128 ![] bcast_S_S128),
    StableHlo.TRef.binary main_call6.v1 (.of main_v86 : StableHlo.TRef sig ⟨S128, .f32⟩) main_call6.v2 maximumf,
    StableHlo.unary main_v87 main_v88 (broadcastInDim S128x1 ![0] bcast_S128_S128x1_0 : (⟨S128, .f32⟩ : BufTy).Contents (Elt F) → (⟨S128x1, .f32⟩ : BufTy).Contents (Elt F)),
    StableHlo.unary main_v88 main_v89 (broadcastInDim S128x128 ![0, 1] bcast_S128x1_S128x128_0_1 : (⟨S128x1, .f32⟩ : BufTy).Contents (Elt F) → (⟨S128x128, .f32⟩ : BufTy).Contents (Elt F)),
    StableHlo.binary main_v82 main_v89 main_v90 (Host.divf : (⟨S128x128, .f32⟩ : BufTy).Contents (Elt F) → (⟨S128x128, .f32⟩ : BufTy).Contents (Elt F) → (⟨S128x128, .f32⟩ : BufTy).Contents (Elt F)) ]
/-- The buffers the operations of `wG` write. -/
abbrev wG_W : List (Ref sig .tc) :=
  [main_cst_14, main_v80, main_v81, main_v82, main_cst_15, main_v83, main_cst_16, main_v84, main_v85, main_v86, main_cst_17, main_call6.v0.ref, main_call6.v1.ref, main_call6.v2.ref, main_v88, main_v89, main_v90]

/-- The projection: `%91` … `%96` (with the call of @relu_0). -/
abbrev wH : List (HloOp τ sig (Elt F)) :=
  [ StableHlo.TRef.nullary main_call7.cst (constant S_ .f32 0x00000000#32),
    StableHlo.TRef.unary main_call7.cst main_call7.v0 (broadcastInDim S100000x128 ![] bcast_S_S100000x128),
    StableHlo.TRef.binary (.of main_v79 : StableHlo.TRef sig ⟨S100000x128, .f32⟩) main_call7.v0 main_call7.v1 maximumf,
    StableHlo.unary main_arg12 main_v92 ((transpose S128x64 [1, 0] · transposes_S64x128_S128x64_1_0) : (⟨S64x128, .f32⟩ : BufTy).Contents (Elt F) → (⟨S128x64, .f32⟩ : BufTy).Contents (Elt F)),
    StableHlo.binary main_v91 main_v92 main_v93 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg13 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)) ]
/-- The buffers the operations of `wH` write. -/
abbrev wH_W : List (Ref sig .tc) :=
  [main_call7.cst.ref, main_call7.v0.ref, main_call7.v1.ref, main_v92, main_v93, main_v94, main_v95, main_v96]

/-- The operations of @main's first printed part. -/
abbrev opsP0 : List (HloOp τ sig (Elt F)) := wA ++ (wB ++ (wC ++ wD1))
/-- The operations of @main's second printed part. -/
abbrev opsP1 : List (HloOp τ sig (Elt F)) := wD2 ++ (wE ++ (wG ++ wH))
/-- @main's 152 operations, in order. -/
abbrev ops : List (HloOp τ sig (Elt F)) := opsP0 ++ opsP1

/-! ## @main is that line -/

set_option maxRecDepth 8192 in
set_option maxHeartbeats 4000000 in
theorem main_part0_eq (c : Dev nD) : main_part0 (F := F) c = seq opsP0 := rfl

set_option maxRecDepth 8192 in
set_option maxHeartbeats 4000000 in
theorem main_part1_eq (c : Dev nD) : main_part1 (F := F) c = seq opsP1 := rfl

/-- @main is the straight line of its operations: each printed part is the line of its own (the callees'
    bodies unfold at their calls), and one line after another is the line of the concatenation. -/
theorem main_eq (c : Dev nD) : main (F := F) c = seq ops := by
  rw [show (ops : List (HloOp τ sig (Elt F))) = opsP0 ++ opsP1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem wA_sub : (wA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

set_option maxRecDepth 8192 in
theorem wB_sub : (wB : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

set_option maxRecDepth 8192 in
theorem wC_sub : (wC : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem wD1_sub : (wD1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

set_option maxRecDepth 8192 in
theorem wD2_sub : (wD2 : List (HloOp τ sig (Elt F))).Forall fun op => op.bufs ⊆ tcRefs τ sig :=
  ⟨binary_bufs_sub .., nullary_bufs_sub .., unary_bufs_sub .., binary_bufs_sub ..⟩

set_option maxRecDepth 8192 in
theorem wE_sub : (wE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

set_option maxRecDepth 8192 in
theorem wG_sub : (wG : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩

set_option maxRecDepth 8192 in
theorem wH_sub : (wH : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, opsP0, opsP1, List.mem_append] at h
    rcases h with (h | h | h | h) | (h | h | h | h)
    exacts [List.forall_iff_forall_mem.mp wA_sub op h, List.forall_iff_forall_mem.mp wB_sub op h,
      List.forall_iff_forall_mem.mp wC_sub op h, List.forall_iff_forall_mem.mp wD1_sub op h,
      List.forall_iff_forall_mem.mp wD2_sub op h, List.forall_iff_forall_mem.mp wE_sub op h,
      List.forall_iff_forall_mem.mp wG_sub op h, List.forall_iff_forall_mem.mp wH_sub op h]

set_option maxRecDepth 8192 in
set_option maxHeartbeats 4000000 in
/-- From any memory with zero counters every weakly fair execution of @main terminates, and every TensorCore
    buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The contents after each window -/

/-- The device's contents before the first window. -/
def val0 (V : Valuation τ sig (Elt F)) : Valuation τ sig (Elt F) := V

/-- The device's contents after the first 1 window. -/
def val1 (V : Valuation τ sig (Elt F)) : Valuation τ sig (Elt F) := after wA (val0 V)
set_option maxRecDepth 8192 in
theorem wA_writes : (wA : List (HloOp τ sig (Elt F))).Forall fun op => op.writes ⊆ (wA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wA` does not write keeps its contents through it. -/
theorem val1_keep (V : Valuation τ sig (Elt F)) (r : Ref sig .tc) (h : r ∉ wA_W) :
    val1 V (Proc.devRef .tc r) = val0 V (Proc.devRef .tc r) :=
  after_of_writes_sub wA _ wA_writes h

/-- The device's contents after the first 2 windows. -/
def val2 (V : Valuation τ sig (Elt F)) : Valuation τ sig (Elt F) := after wB (val1 V)
set_option maxRecDepth 8192 in
theorem wB_writes : (wB : List (HloOp τ sig (Elt F))).Forall fun op => op.writes ⊆ (wB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wB` does not write keeps its contents through it. -/
theorem val2_keep (V : Valuation τ sig (Elt F)) (r : Ref sig .tc) (h : r ∉ wB_W) :
    val2 V (Proc.devRef .tc r) = val1 V (Proc.devRef .tc r) :=
  after_of_writes_sub wB _ wB_writes h

/-- The device's contents after the first 3 windows. -/
def val3 (V : Valuation τ sig (Elt F)) : Valuation τ sig (Elt F) := after wC (val2 V)
set_option maxRecDepth 8192 in
theorem wC_writes : (wC : List (HloOp τ sig (Elt F))).Forall fun op => op.writes ⊆ (wC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wC` does not write keeps its contents through it. -/
theorem val3_keep (V : Valuation τ sig (Elt F)) (r : Ref sig .tc) (h : r ∉ wC_W) :
    val3 V (Proc.devRef .tc r) = val2 V (Proc.devRef .tc r) :=
  after_of_writes_sub wC _ wC_writes h

/-- The device's contents after the first 4 windows. -/
def val4 (V : Valuation τ sig (Elt F)) : Valuation τ sig (Elt F) := after wD1 (val3 V)
set_option maxRecDepth 8192 in
theorem wD1_writes : (wD1 : List (HloOp τ sig (Elt F))).Forall fun op => op.writes ⊆ (wD1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wD1` does not write keeps its contents through it. -/
theorem val4_keep (V : Valuation τ sig (Elt F)) (r : Ref sig .tc) (h : r ∉ wD1_W) :
    val4 V (Proc.devRef .tc r) = val3 V (Proc.devRef .tc r) :=
  after_of_writes_sub wD1 _ wD1_writes h

/-- The device's contents after the first 5 windows. -/
def val5 (V : Valuation τ sig (Elt F)) : Valuation τ sig (Elt F) := after wD2 (val4 V)
set_option maxRecDepth 8192 in
theorem wD2_writes : (wD2 : List (HloOp τ sig (Elt F))).Forall fun op => op.writes ⊆ (wD2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wD2` does not write keeps its contents through it. -/
theorem val5_keep (V : Valuation τ sig (Elt F)) (r : Ref sig .tc) (h : r ∉ wD2_W) :
    val5 V (Proc.devRef .tc r) = val4 V (Proc.devRef .tc r) :=
  after_of_writes_sub wD2 _ wD2_writes h

/-- The device's contents after the first 6 windows. -/
def val6 (V : Valuation τ sig (Elt F)) : Valuation τ sig (Elt F) := after wE (val5 V)
set_option maxRecDepth 8192 in
theorem wE_writes : (wE : List (HloOp τ sig (Elt F))).Forall fun op => op.writes ⊆ (wE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wE` does not write keeps its contents through it. -/
theorem val6_keep (V : Valuation τ sig (Elt F)) (r : Ref sig .tc) (h : r ∉ wE_W) :
    val6 V (Proc.devRef .tc r) = val5 V (Proc.devRef .tc r) :=
  after_of_writes_sub wE _ wE_writes h

/-- The device's contents after the first 7 windows. -/
def val7 (V : Valuation τ sig (Elt F)) : Valuation τ sig (Elt F) := after wG (val6 V)
set_option maxRecDepth 8192 in
theorem wG_writes : (wG : List (HloOp τ sig (Elt F))).Forall fun op => op.writes ⊆ (wG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wG` does not write keeps its contents through it. -/
theorem val7_keep (V : Valuation τ sig (Elt F)) (r : Ref sig .tc) (h : r ∉ wG_W) :
    val7 V (Proc.devRef .tc r) = val6 V (Proc.devRef .tc r) :=
  after_of_writes_sub wG _ wG_writes h

/-- The device's contents after the first 8 windows. -/
def val8 (V : Valuation τ sig (Elt F)) : Valuation τ sig (Elt F) := after wH (val7 V)
set_option maxRecDepth 8192 in
theorem wH_writes : (wH : List (HloOp τ sig (Elt F))).Forall fun op => op.writes ⊆ (wH_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window `wH` does not write keeps its contents through it. -/
theorem val8_keep (V : Valuation τ sig (Elt F)) (r : Ref sig .tc) (h : r ∉ wH_W) :
    val8 V (Proc.devRef .tc r) = val7 V (Proc.devRef .tc r) :=
  after_of_writes_sub wH _ wH_writes h

/-- The fold over two lines in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line's fold is the last window's contents. -/
theorem after_ops (V : Valuation τ sig (Elt F)) : after ops V = val8 V := by
  simp only [ops, opsP0, opsP1, after_app]
  rfl

/-- A buffer no window writes holds at the end what it held at the start. -/
theorem val8_of_not_written (V : Valuation τ sig (Elt F)) (r : Ref sig .tc) (h1 : r ∉ wA_W) (h2 : r ∉ wB_W) (h3 : r ∉ wC_W)
    (h4 : r ∉ wD1_W) (h5 : r ∉ wD2_W) (h6 : r ∉ wE_W) (h7 : r ∉ wG_W) (h8 : r ∉ wH_W) :
    val8 V (Proc.devRef .tc r) = V (Proc.devRef .tc r) :=
  (val8_keep V r h8).trans <| (val7_keep V r h7).trans <| (val6_keep V r h6).trans <| (val5_keep V r h5).trans <|
    (val4_keep V r h4).trans <| (val3_keep V r h3).trans <| (val2_keep V r h2).trans (val1_keep V r h1)

/-- No operation writes an argument. -/
theorem after_ops_arg (V : Valuation τ sig (Elt F)) (r : Ref sig .tc) (h1 : r ∉ wA_W) (h2 : r ∉ wB_W) (h3 : r ∉ wC_W)
    (h4 : r ∉ wD1_W) (h5 : r ∉ wD2_W) (h6 : r ∉ wE_W) (h7 : r ∉ wG_W) (h8 : r ∉ wH_W) :
    after ops V (Proc.devRef .tc r) = V (Proc.devRef .tc r) := by
  rw [after_ops]; exact val8_of_not_written V r h1 h2 h3 h4 h5 h6 h7 h8

/-- The reference's frame: from any memory with zero counters every weakly fair execution of @main terminates
    with the fourteen arguments unchanged. -/
theorem frame_only (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_arg0).trans (after_ops_arg _ main_arg0 (by decide) (by decide) (by decide) (by decide) (by decide) (by decide) (by decide) (by decide)),
      (h c main_arg1).trans (after_ops_arg _ main_arg1 (by decide) (by decide) (by decide) (by decide) (by decide) (by decide) (by decide) (by decide)),
      (h c main_arg2).trans (after_ops_arg _ main_arg2 (by decide) (by decide) (by decide) (by decide) (by decide) (by decide) (by decide) (by decide)),
      (h c main_arg3).trans (after_ops_arg _ main_arg3 (by decide) (by decide) (by decide) (by decide) (by decide) (by decide) (by decide) (by decide)),
      (h c main_arg4).trans (after_ops_arg _ main_arg4 (by decide) (by decide) (by decide) (by decide) (by decide) (by decide) (by decide) (by decide)),
      (h c main_arg5).trans (after_ops_arg _ main_arg5 (by decide) (by decide) (by decide) (by decide) (by decide) (by decide) (by decide) (by decide)),
      (h c main_arg6).trans (after_ops_arg _ main_arg6 (by decide) (by decide) (by decide) (by decide) (by decide) (by decide) (by decide) (by decide)),
      (h c main_arg7).trans (after_ops_arg _ main_arg7 (by decide) (by decide) (by decide) (by decide) (by decide) (by decide) (by decide) (by decide)),
      (h c main_arg8).trans (after_ops_arg _ main_arg8 (by decide) (by decide) (by decide) (by decide) (by decide) (by decide) (by decide) (by decide)),
      (h c main_arg9).trans (after_ops_arg _ main_arg9 (by decide) (by decide) (by decide) (by decide) (by decide) (by decide) (by decide) (by decide)),
      (h c main_arg10).trans (after_ops_arg _ main_arg10 (by decide) (by decide) (by decide) (by decide) (by decide) (by decide) (by decide) (by decide)),
      (h c main_arg11).trans (after_ops_arg _ main_arg11 (by decide) (by decide) (by decide) (by decide) (by decide) (by decide) (by decide) (by decide)),
      (h c main_arg12).trans (after_ops_arg _ main_arg12 (by decide) (by decide) (by decide) (by decide) (by decide) (by decide) (by decide) (by decide)),
      (h c main_arg13).trans (after_ops_arg _ main_arg13 (by decide) (by decide) (by decide) (by decide) (by decide) (by decide) (by decide) (by decide))⟩)
    (run_after m ρ)

/-! ## The stages, as compositions of the pure operations

Each definition applies the library's pure operations exactly as the printed statements do: the same operation,
the same operand order, the same dimension record and the same literal word. A sub-chain the program repeats is
one definition used at each place. The arguments are contents of the named shapes: `h` a node array, `xe` the
edge features (`%arg1`), `ei` the edge table (`%arg2`), `bt` the segment ids (`%arg3`). -/

/-- Row 0 of the edge table, flattened (`%1`: the slice `%0`, reshaped). -/
def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge table, flattened (`%3`: the slice `%2`, reshaped). -/
def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The gather's index column (`%9`, and again `%57`): row 0 with a negative index wrapped by the node count
    (`select (row0 < 0) (row0 + 100000) row0`), as a column. -/
def srcIx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (row0 ei) (broadcastInDim S1600000 ![] bcast_S_S1600000 (constantI S_ 32 0#32)))
      (addi (row0 ei) (broadcastInDim S1600000 ![] bcast_S_S1600000 (constantI S_ 32 100000#32)))
      (row0 ei))

/-- The scatters' index column (`%14`, `%18`, `%62`, `%66`): row 1 as a column. -/
def dstIx (ei : (⟨S2x1600000, .i32⟩ : BufTy).Contents (Elt F)) : (⟨S1600000x1, .i32⟩ : BufTy).Contents (Elt F) :=
  broadcastInDim S1600000x1 ![0] bcast_S1600000_S1600000x1_0 (row1 ei)

/-- The messages (`%12`, `%60`): @relu of the gathered source rows plus the edge features. -/
def msg (h : (⟨S100000x128, .f32⟩ : BufTy).Contents (Elt F)) (xe : (⟨S1600000x128, .f32⟩ : BufTy).Contents (Elt F))
    (ei : (⟨S2x1600000, .i32⟩ : BufTy).Contents (Elt F)) : (⟨S1600000x128, .f32⟩ : BufTy).Contents (Elt F) :=
  maximumf (addf (Host.gather gather_S100000x128_S1600000x1_S1600000x128_1_0_n_n_0_1_1128 h (srcIx ei)) xe)
    (broadcastInDim S1600000x128 ![] bcast_S_S1600000x128 (constant S_ .f32 0x00000000#32))

/-- The messages summed at their destination rows (`%15`, `%63`): the scatter-add onto zeros. -/
def aggSum (h : (⟨S100000x128, .f32⟩ : BufTy).Contents (Elt F)) (xe : (⟨S1600000x128, .f32⟩ : BufTy).Contents (Elt F))
    (ei : (⟨S2x1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIx ei) (msg h xe ei)

/-- The number of messages at each destination (`%19`, `%67`): the scatter-add of ones onto zeros. -/
def cnt (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstIx ei)
    (broadcastInDim S1600000 ![] bcast_S_S1600000 (constant S_ .f32 0x3F800000#32))

/-- That count clipped below at one (`%20`, `%68`: @clip of it and `1.0`; the callee converts the bound to
    its own type, the identity, and broadcasts it). -/
def clipCnt (ei : (⟨S2x1600000, .i32⟩ : BufTy).Contents (Elt F)) : (⟨S100000, .f32⟩ : BufTy).Contents (Elt F) :=
  maximumf (broadcastInDim S100000 ![] bcast_S_S100000 (id (constant S_ .f32 0x3F800000#32))) (cnt ei)

/-- A row vector repeated down the 100000 rows (the two broadcasts `[1]` then `[0, 1]`). -/
def rowB (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- One convolution (`%31` from `%arg0`, `%arg4`, `%arg5`, `%arg6`; `%79` from `%51`, `%arg7`, `%arg8`, `%arg9`): the
    mean message times `Wlᵀ`, plus the bias row, plus `h` times `Wrᵀ`. -/
def conv (h : (⟨S100000x128, .f32⟩ : BufTy).Contents (Elt F)) (xe : (⟨S1600000x128, .f32⟩ : BufTy).Contents (Elt F))
    (ei : (⟨S2x1600000, .i32⟩ : BufTy).Contents (Elt F)) (Wl : (⟨S128x128, .f32⟩ : BufTy).Contents (Elt F))
    (bl : (⟨S128, .f32⟩ : BufTy).Contents (Elt F)) (Wr : (⟨S128x128, .f32⟩ : BufTy).Contents (Elt F)) :
    (⟨S100000x128, .f32⟩ : BufTy).Contents (Elt F) :=
  addf
    (addf
      (Host.dotGeneral dot_S100000x128_S128x128_S100000x128_1_0_0_1_n_n none
        (Host.divf (aggSum h xe ei)
          (broadcastInDim S100000x128 ![0, 1] bcast_S100000x1_S100000x128_0_1
            (broadcastInDim S100000x1 ![0] bcast_S100000_S100000x1_0 (clipCnt ei))))
        (transpose S128x128 [1, 0] Wl transposes_S128x128_S128x128_1_0))
      (rowB bl))
    (Host.dotGeneral dot_S100000x128_S128x128_S100000x128_1_0_0_1_n_n none h
      (transpose S128x128 [1, 0] Wr transposes_S128x128_S128x128_1_0))

/-- The column sums (the reduce over axis 0 from `0.0`: `%32`, and @_var's `%0` and `%9`). -/
def colSum (h : (⟨S100000x128, .f32⟩ : BufTy).Contents (Elt F)) : (⟨S128, .f32⟩ : BufTy).Contents (Elt F) :=
  Host.reduceAdd h (constant S_ .f32 0x00000000#32) reducesTo_S100000x128_S128_d0 h_S_

/-- The column means (`%34`): the column sums over `100000.0`. -/
def meanCol (h : (⟨S100000x128, .f32⟩ : BufTy).Contents (Elt F)) : (⟨S128, .f32⟩ : BufTy).Contents (Elt F) :=
  Host.divf (colSum h) (broadcastInDim S128 ![] bcast_S_S128 (constant S_ .f32 0x47C35000#32))

/-- @_var's centered array (its `%5`): `h` minus its column means, those computed on the `1 × 128` row. -/
def centered (h : (⟨S100000x128, .f32⟩ : BufTy).Contents (Elt F)) : (⟨S100000x128, .f32⟩ : BufTy).Contents (Elt F) :=
  subf h
    (broadcastInDim S100000x128 ![0, 1] bcast_S1x128_S100000x128_0_1
      (Host.divf (broadcastInDim S1x128 ![1] bcast_S128_S1x128_1 (colSum h))
        (broadcastInDim S1x128 ![] bcast_S_S1x128 (constant S_ .f32 0x47C35000#32))))

/-- @_var's divisor (its `%8`): `100000.0` minus the degrees of freedom `0`, converted from the integer. -/
def ddofDen : (⟨S_, .f32⟩ : BufTy).Contents (Elt F) :=
  subf (constant S_ .f32 0x47C35000#32) (sitofp .f32 (constantI S_ 32 0#32))

/-- The column variances (`%35`, the call of @_var with its @_where): the column sums of the squared centered
    array over the divisor where the divisor is positive, else NaN. -/
def varCol (h : (⟨S100000x128, .f32⟩ : BufTy).Contents (Elt F)) : (⟨S128, .f32⟩ : BufTy).Contents (Elt F) :=
  select (broadcastInDim S128 ![] bcast_S_S128 (cmpf .ogt (ddofDen (F := F)) (constant S_ .f32 0x00000000#32)))
    (Host.divf (colSum (mulf (centered h) (centered h))) (broadcastInDim S128 ![] bcast_S_S128 (ddofDen (F := F))))
    (broadcastInDim S128 ![] bcast_S_S128 (id (constant S_ .f32 0x7FC00000#32)))

/-- The normalization with scale `g` and shift `b`, then @relu_0 (`%51` from `%31`, `%arg10`, `%arg11`). -/
def bnRelu (h : (⟨S100000x128, .f32⟩ : BufTy).Contents (Elt F)) (g b : (⟨S128, .f32⟩ : BufTy).Contents (Elt F)) :
    (⟨S100000x128, .f32⟩ : BufTy).Contents (Elt F) :=
  maximumf
    (addf
      (mulf (mulf (rowB g) (subf h (rowB (meanCol h))))
        (rowB (Host.rsqrt (addf (varCol h) (broadcastInDim S128 ![] bcast_S_S128 (constant S_ .f32 0x3727C5AC#32))))))
      (rowB b))
    (broadcastInDim S100000x128 ![] bcast_S_S100000x128 (constant S_ .f32 0x00000000#32))

/-- The mean of the rows of each segment (`%90` from `%79` and `%arg3`): the rows summed at their segment ids over
    the segment sizes clipped below at one (@clip_1). -/
def segMean (h : (⟨S100000x128, .f32⟩ : BufTy).Contents (Elt F)) (bt : (⟨S100000, .i32⟩ : BufTy).Contents (Elt F)) :
    (⟨S128x128, .f32⟩ : BufTy).Contents (Elt F) :=
  Host.divf
    (Host.scatterAdd scatter_S128x128_S100000x1_S100000x128_1_0_0_1
      (broadcastInDim S128x128 ![] bcast_S_S128x128 (constant S_ .f32 0x00000000#32))
      (broadcastInDim S100000x1 ![0] bcast_S100000_S100000x1_0 bt) h)
    (broadcastInDim S128x128 ![0, 1] bcast_S128x1_S128x128_0_1
      (broadcastInDim S128x1 ![0] bcast_S128_S128x1_0
        (maximumf (broadcastInDim S128 ![] bcast_S_S128 (id (constant S_ .f32 0x3F800000#32)))
          (Host.scatterAdd scatter_S128_S100000x1_S100000_n_0_0_1
            (broadcastInDim S128 ![] bcast_S_S128 (constant S_ .f32 0x00000000#32))
            (broadcastInDim S100000x1 ![0] bcast_S100000_S100000x1_0 bt)
            (broadcastInDim S100000 ![] bcast_S_S100000 (constant S_ .f32 0x3F800000#32))))))

/-- The projection (`%96` from `%79`, `%arg12`, `%arg13`): @relu_0 of `h`, times `Wpᵀ`, plus the bias row. -/
def proj (h : (⟨S100000x128, .f32⟩ : BufTy).Contents (Elt F)) (Wp : (⟨S64x128, .f32⟩ : BufTy).Contents (Elt F))
    (bp : (⟨S64, .f32⟩ : BufTy).Contents (Elt F)) : (⟨S100000x64, .f32⟩ : BufTy).Contents (Elt F) :=
  addf
    (Host.dotGeneral dot_S100000x128_S128x64_S100000x64_1_0_0_1_n_n none
      (maximumf h (broadcastInDim S100000x128 ![] bcast_S_S100000x128 (constant S_ .f32 0x00000000#32)))
      (transpose S128x64 [1, 0] Wp transposes_S64x128_S128x64_1_0))
    (broadcastInDim S100000x64 ![0, 1] bcast_S1x64_S100000x64_0_1 (broadcastInDim S1x64 ![1] bcast_S64_S1x64_1 bp))

/-- The first convolution's result (`%31`). -/
def layer1 (x : (⟨S100000x128, .f32⟩ : BufTy).Contents (Elt F)) (xe : (⟨S1600000x128, .f32⟩ : BufTy).Contents (Elt F))
    (ei : (⟨S2x1600000, .i32⟩ : BufTy).Contents (Elt F)) (W1l : (⟨S128x128, .f32⟩ : BufTy).Contents (Elt F))
    (b1l : (⟨S128, .f32⟩ : BufTy).Contents (Elt F)) (W1r : (⟨S128x128, .f32⟩ : BufTy).Contents (Elt F)) :
    (⟨S100000x128, .f32⟩ : BufTy).Contents (Elt F) :=
  conv x xe ei W1l b1l W1r

/-- The normalized, rectified first layer (`%51`). -/
def act1 (x : (⟨S100000x128, .f32⟩ : BufTy).Contents (Elt F)) (xe : (⟨S1600000x128, .f32⟩ : BufTy).Contents (Elt F))
    (ei : (⟨S2x1600000, .i32⟩ : BufTy).Contents (Elt F)) (W1l : (⟨S128x128, .f32⟩ : BufTy).Contents (Elt F))
    (b1l : (⟨S128, .f32⟩ : BufTy).Contents (Elt F)) (W1r : (⟨S128x128, .f32⟩ : BufTy).Contents (Elt F))
    (g b : (⟨S128, .f32⟩ : BufTy).Contents (Elt F)) : (⟨S100000x128, .f32⟩ : BufTy).Contents (Elt F) :=
  bnRelu (layer1 x xe ei W1l b1l W1r) g b

/-- The second convolution's result (`%79`). -/
def layer2 (x : (⟨S100000x128, .f32⟩ : BufTy).Contents (Elt F)) (xe : (⟨S1600000x128, .f32⟩ : BufTy).Contents (Elt F))
    (ei : (⟨S2x1600000, .i32⟩ : BufTy).Contents (Elt F)) (W1l : (⟨S128x128, .f32⟩ : BufTy).Contents (Elt F))
    (b1l : (⟨S128, .f32⟩ : BufTy).Contents (Elt F)) (W1r : (⟨S128x128, .f32⟩ : BufTy).Contents (Elt F))
    (W2l : (⟨S128x128, .f32⟩ : BufTy).Contents (Elt F)) (b2l : (⟨S128, .f32⟩ : BufTy).Contents (Elt F))
    (W2r : (⟨S128x128, .f32⟩ : BufTy).Contents (Elt F)) (g b : (⟨S128, .f32⟩ : BufTy).Contents (Elt F)) :
    (⟨S100000x128, .f32⟩ : BufTy).Contents (Elt F) :=
  conv (act1 x xe ei W1l b1l W1r g b) xe ei W2l b2l W2r

/-- @main's first result (`%96`), of the arguments `%arg0`, `%arg1`, `%arg2`, `%arg4` … `%arg13` in that order. -/
def out96 (x : (⟨S100000x128, .f32⟩ : BufTy).Contents (Elt F)) (xe : (⟨S1600000x128, .f32⟩ : BufTy).Contents (Elt F))
    (ei : (⟨S2x1600000, .i32⟩ : BufTy).Contents (Elt F)) (W1l : (⟨S128x128, .f32⟩ : BufTy).Contents (Elt F))
    (b1l : (⟨S128, .f32⟩ : BufTy).Contents (Elt F)) (W1r : (⟨S128x128, .f32⟩ : BufTy).Contents (Elt F))
    (W2l : (⟨S128x128, .f32⟩ : BufTy).Contents (Elt F)) (b2l : (⟨S128, .f32⟩ : BufTy).Contents (Elt F))
    (W2r : (⟨S128x128, .f32⟩ : BufTy).Contents (Elt F)) (g b : (⟨S128, .f32⟩ : BufTy).Contents (Elt F))
    (Wp : (⟨S64x128, .f32⟩ : BufTy).Contents (Elt F)) (bp : (⟨S64, .f32⟩ : BufTy).Contents (Elt F)) :
    (⟨S100000x64, .f32⟩ : BufTy).Contents (Elt F) :=
  proj (layer2 x xe ei W1l b1l W1r W2l b2l W2r g b) Wp bp

/-- @main's second result (`%90`), of the arguments `%arg0` … `%arg11` in that order. -/
def out90 (x : (⟨S100000x128, .f32⟩ : BufTy).Contents (Elt F)) (xe : (⟨S1600000x128, .f32⟩ : BufTy).Contents (Elt F))
    (ei : (⟨S2x1600000, .i32⟩ : BufTy).Contents (Elt F)) (bt : (⟨S100000, .i32⟩ : BufTy).Contents (Elt F))
    (W1l : (⟨S128x128, .f32⟩ : BufTy).Contents (Elt F))
    (b1l : (⟨S128, .f32⟩ : BufTy).Contents (Elt F)) (W1r : (⟨S128x128, .f32⟩ : BufTy).Contents (Elt F))
    (W2l : (⟨S128x128, .f32⟩ : BufTy).Contents (Elt F)) (b2l : (⟨S128, .f32⟩ : BufTy).Contents (Elt F))
    (W2r : (⟨S128x128, .f32⟩ : BufTy).Contents (Elt F)) (g b : (⟨S128, .f32⟩ : BufTy).Contents (Elt F)) :
    (⟨S128x128, .f32⟩ : BufTy).Contents (Elt F) :=
  segMean (layer2 x xe ei W1l b1l W1r W2l b2l W2r g b) bt

/-! ## What each window leaves in the buffers read after it -/

theorem val1_keep' (V : Valuation τ sig (Elt F)) (r : Ref sig .tc) (h : r ∉ wA_W) :
    val1 V (no_index (Proc.devRef .tc r)) = val0 V (Proc.devRef .tc r) := val1_keep V r h

theorem val2_keep' (V : Valuation τ sig (Elt F)) (r : Ref sig .tc) (h : r ∉ wB_W) :
    val2 V (no_index (Proc.devRef .tc r)) = val1 V (Proc.devRef .tc r) := val2_keep V r h

theorem val3_keep' (V : Valuation τ sig (Elt F)) (r : Ref sig .tc) (h : r ∉ wC_W) :
    val3 V (no_index (Proc.devRef .tc r)) = val2 V (Proc.devRef .tc r) := val3_keep V r h

theorem val4_keep' (V : Valuation τ sig (Elt F)) (r : Ref sig .tc) (h : r ∉ wD1_W) :
    val4 V (no_index (Proc.devRef .tc r)) = val3 V (Proc.devRef .tc r) := val4_keep V r h

theorem val5_keep' (V : Valuation τ sig (Elt F)) (r : Ref sig .tc) (h : r ∉ wD2_W) :
    val5 V (no_index (Proc.devRef .tc r)) = val4 V (Proc.devRef .tc r) := val5_keep V r h

theorem val6_keep' (V : Valuation τ sig (Elt F)) (r : Ref sig .tc) (h : r ∉ wE_W) :
    val6 V (no_index (Proc.devRef .tc r)) = val5 V (Proc.devRef .tc r) := val6_keep V r h

theorem val7_keep' (V : Valuation τ sig (Elt F)) (r : Ref sig .tc) (h : r ∉ wG_W) :
    val7 V (no_index (Proc.devRef .tc r)) = val6 V (Proc.devRef .tc r) := val7_keep V r h

theorem val8_keep' (V : Valuation τ sig (Elt F)) (r : Ref sig .tc) (h : r ∉ wH_W) :
    val8 V (no_index (Proc.devRef .tc r)) = val7 V (Proc.devRef .tc r) := val8_keep V r h

attribute [local irreducible] Host.gather Host.scatterAdd Host.reduceAdd

theorem val1_main_v1 (V : Valuation τ sig (Elt F)) :
    val1 V (no_index (Proc.devRef .tc main_v1)) = row0 (V (Proc.devRef .tc main_arg2)) := by
  unfold val1
  simp only [wA]
  after_results_simp
  rfl

theorem val1_main_v3 (V : Valuation τ sig (Elt F)) :
    val1 V (no_index (Proc.devRef .tc main_v3)) = row1 (V (Proc.devRef .tc main_arg2)) := by
  unfold val1
  simp only [wA]
  after_results_simp
  rfl

theorem val1_main_v9 (V : Valuation τ sig (Elt F)) :
    val1 V (no_index (Proc.devRef .tc main_v9)) = srcIx (V (Proc.devRef .tc main_arg2)) := by
  unfold val1
  simp only [wA]
  after_results_simp
  rfl

set_option maxRecDepth 8192 in
set_option maxHeartbeats 3000000 in
theorem val2_main_v31 (V : Valuation τ sig (Elt F)) :
    val2 V (no_index (Proc.devRef .tc main_v31)) = layer1 (V (Proc.devRef .tc main_arg0)) (V (Proc.devRef .tc main_arg1)) (V (Proc.devRef .tc main_arg2)) (V (Proc.devRef .tc main_arg4)) (V (Proc.devRef .tc main_arg5)) (V (Proc.devRef .tc main_arg6)) := by
  unfold val2
  simp only [wB]
  after_results_simp
  simp (disch := decide) only [val1_keep', val1_main_v9, val1_main_v3, val0]
  rfl

set_option maxRecDepth 8192 in
set_option maxHeartbeats 3000000 in
theorem val3_main_v34 (V : Valuation τ sig (Elt F)) :
    val3 V (no_index (Proc.devRef .tc main_v34)) = meanCol (layer1 (V (Proc.devRef .tc main_arg0)) (V (Proc.devRef .tc main_arg1)) (V (Proc.devRef .tc main_arg2)) (V (Proc.devRef .tc main_arg4)) (V (Proc.devRef .tc main_arg5)) (V (Proc.devRef .tc main_arg6))) := by
  unfold val3
  simp only [wC]
  after_results_simp
  simp (disch := decide) only [val2_keep', val2_main_v31, val1_keep', val0]
  rfl

set_option maxRecDepth 8192 in
set_option maxHeartbeats 3000000 in
theorem val3_main_v35 (V : Valuation τ sig (Elt F)) :
    val3 V (no_index (Proc.devRef .tc main_v35)) = varCol (layer1 (V (Proc.devRef .tc main_arg0)) (V (Proc.devRef .tc main_arg1)) (V (Proc.devRef .tc main_arg2)) (V (Proc.devRef .tc main_arg4)) (V (Proc.devRef .tc main_arg5)) (V (Proc.devRef .tc main_arg6))) := by
  unfold val3
  simp only [wC]
  after_results_simp
  simp (disch := decide) only [val2_keep', val2_main_v31, val1_keep', val0]
  rfl

set_option maxRecDepth 8192 in
set_option maxHeartbeats 3000000 in
theorem val5_main_v51 (V : Valuation τ sig (Elt F)) :
    val5 V (no_index (Proc.devRef .tc main_v51)) = act1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg10)) (V (Proc.devRef .tc main_arg11)) := by
  unfold val5 val4
  simp only [wD1, wD2]
  after_results_simp
  simp (disch := decide) only [val3_keep', val3_main_v34, val3_main_v35, val2_keep', val2_main_v31, val1_keep', val0]
  rfl

set_option maxRecDepth 8192 in
set_option maxHeartbeats 4000000 in
theorem val6_main_v79 (V : Valuation τ sig (Elt F)) :
    val6 V (no_index (Proc.devRef .tc main_v79)) = layer2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val6
  simp only [wE]
  after_results_simp
  simp (disch := decide) only [val5_keep', val5_main_v51, val4_keep', val3_keep', val2_keep', val1_keep', val1_main_v1, val1_main_v3, val0]
  rfl

set_option maxRecDepth 8192 in
set_option maxHeartbeats 3000000 in
theorem val7_main_v90 (V : Valuation τ sig (Elt F)) :
    val7 V (no_index (Proc.devRef .tc main_v90)) = out90 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val7
  simp only [wG]
  after_results_simp
  simp (disch := decide) only [val6_keep', val6_main_v79, val5_keep', val4_keep', val3_keep', val2_keep', val1_keep', val0]
  rfl

set_option maxRecDepth 8192 in
set_option maxHeartbeats 3000000 in
theorem val8_main_v96 (V : Valuation τ sig (Elt F)) :
    val8 V (no_index (Proc.devRef .tc main_v96)) = out96 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold val8
  simp only [wH]
  after_results_simp
  simp (disch := decide) only [val7_keep', val6_keep', val6_main_v79, val5_keep', val4_keep', val3_keep', val2_keep', val1_keep', val0]
  rfl

theorem val8_main_v90 (V : Valuation τ sig (Elt F)) :
    val8 V (no_index (Proc.devRef .tc main_v90)) = out90 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (val8_keep V main_v90 (by decide)).trans (val7_main_v90 V)

/-! ## The run -/

/-- From any memory with zero counters every weakly fair execution of @main terminates with the two results at
    the stages' composition of the arguments' launch contents and the fourteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = out96 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v90) = out90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v96).trans (by rw [after_ops]; exact val8_main_v96 (launchContents m c)),
      (h c main_v90).trans (by rw [after_ops]; exact val8_main_v90 (launchContents m c)),
      (h c main_arg0).trans (after_ops_arg _ main_arg0 (by decide) (by decide) (by decide) (by decide) (by decide) (by decide) (by decide) (by decide)),
      (h c main_arg1).trans (after_ops_arg _ main_arg1 (by decide) (by decide) (by decide) (by decide) (by decide) (by decide) (by decide) (by decide)),
      (h c main_arg2).trans (after_ops_arg _ main_arg2 (by decide) (by decide) (by decide) (by decide) (by decide) (by decide) (by decide) (by decide)),
      (h c main_arg3).trans (after_ops_arg _ main_arg3 (by decide) (by decide) (by decide) (by decide) (by decide) (by decide) (by decide) (by decide)),
      (h c main_arg4).trans (after_ops_arg _ main_arg4 (by decide) (by decide) (by decide) (by decide) (by decide) (by decide) (by decide) (by decide)),
      (h c main_arg5).trans (after_ops_arg _ main_arg5 (by decide) (by decide) (by decide) (by decide) (by decide) (by decide) (by decide) (by decide)),
      (h c main_arg6).trans (after_ops_arg _ main_arg6 (by decide) (by decide) (by decide) (by decide) (by decide) (by decide) (by decide) (by decide)),
      (h c main_arg7).trans (after_ops_arg _ main_arg7 (by decide) (by decide) (by decide) (by decide) (by decide) (by decide) (by decide) (by decide)),
      (h c main_arg8).trans (after_ops_arg _ main_arg8 (by decide) (by decide) (by decide) (by decide) (by decide) (by decide) (by decide) (by decide)),
      (h c main_arg9).trans (after_ops_arg _ main_arg9 (by decide) (by decide) (by decide) (by decide) (by decide) (by decide) (by decide) (by decide)),
      (h c main_arg10).trans (after_ops_arg _ main_arg10 (by decide) (by decide) (by decide) (by decide) (by decide) (by decide) (by decide) (by decide)),
      (h c main_arg11).trans (after_ops_arg _ main_arg11 (by decide) (by decide) (by decide) (by decide) (by decide) (by decide) (by decide) (by decide)),
      (h c main_arg12).trans (after_ops_arg _ main_arg12 (by decide) (by decide) (by decide) (by decide) (by decide) (by decide) (by decide) (by decide)),
      (h c main_arg13).trans (after_ops_arg _ main_arg13 (by decide) (by decide) (by decide) (by decide) (by decide) (by decide) (by decide) (by decide))⟩)
    (run_after m ρ)

end Cert.ReferenceIdeal.RefRun

end
-- ==== Proof.KRun.lean ====
/-
  The idealized kernel program's run with its two results named. Every weakly fair execution of @main — five stretches of
  host operations, the first pallas_call over its 20 row tiles, one stretch, the second pallas_call, three stretches, the
  third pallas_call, three stretches — terminates, and in the final state every unscoped buffer holds what the fold of the
  segments leaves there: the contents at the last boundary. Read at the two result buffers this names the projection
  output (100000 × 64) and the pooled graph features (128 × 128) as that fold's values; the fourteen arguments are as
  launched. What those two values ARE, as functions of the arguments, is read off the fold in the modules that import this
  one: a host stretch is the composition of its operations, a pallas_call's arrays are what its write-backs leave.
-/
import proofs.«168042_j17549236371683_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the idealized kernel program terminates without a
    fault; its first result (the projection) and its second (the pooled features) end at the last boundary's contents of
    their buffers, and every argument array ends as launched. -/
theorem run_named : θ_run defs (onTc (τ := τ) (main (F := F))) ⟨m, fun _ => 0, ρ⟩ (fun r => ∀ c : Dev nD,
      r.2.mem ((c.tc : Thread nD τ).loc main_v59_1) = W15 m ρ c (Proc.devRef .tc main_v59_1)
      ∧ r.2.mem ((c.tc : Thread nD τ).loc main_v70) = W15 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v59_1 (by decide)),
       h c _ (mem_uc main_v70 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernelIdeal.KRun

end
-- ==== Proof.Tiles.lean ====
import proofs.«168042_j17549236371683_2_alg».proof.Proof.Gen.KernelIdeal.Frame
import Idealize.ShloMosaic.Lib.Pipeline.Value
import Idealize.ShloMosaic.Lib.ValueIdx

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! The three pallas_calls all walk a matrix of 100000 rows in 20 tiles of 5000 consecutive rows. This module fixes
    that vocabulary once: the rows of tile `t`, and the arithmetic that places a row in its tile. -/

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `5000·t … 5000·t + 4999` of a matrix of 100000 rows and `n` columns, as a matrix of 5000 rows (the row number is
    taken modulo 100000 so that the definition needs no bound on `t`; for `t < 20` nothing wraps). -/
def rowTile {α : Type} {n : Nat} (A : (⟨2, ![100000, n]⟩ : Shape).Idx → α) (t : Nat) : (⟨2, ![5000, n]⟩ : Shape).Idx → α :=
  fun y => A (ix2 ⟨(t * 5000 + (y 0).val) % 100000, Nat.mod_lt _ (by norm_num)⟩ (y 1))

/-- Row `r` of tile `t` is row `5000·t + r` of the matrix. -/
theorem rowTile_apply {α : Type} {n : Nat} (A : (⟨2, ![100000, n]⟩ : Shape).Idx → α) (t : Nat) (ht : t < 20)
    (r : Fin 5000) (q : Fin n) : rowTile A t (ix2 r q) = A (ix2 ⟨t * 5000 + r.val, by omega⟩ q) := by
  unfold rowTile
  congr 1
  funext a
  match a with
  | ⟨0, _⟩ => exact Fin.ext (by show (t * 5000 + r.val) % 100000 = t * 5000 + r.val; have := r.isLt; omega)
  | ⟨1, _⟩ => rfl

/-- The position of a row inside its tile, as an index of a 5000-row block with the same column. -/
def inTile {n : Nat} (i : (⟨2, ![100000, n]⟩ : Shape).Idx) : (⟨2, ![5000, n]⟩ : Shape).Idx :=
  ix2 ⟨(i 0).val % 5000, Nat.mod_lt _ (by norm_num)⟩ (i 1)

/-- An index whose row is `5000·t + (y 0)` and whose column is `y 1` sits in tile `t` at position `y`. -/
theorem tile_of_index {n : Nat} (i : (⟨2, ![100000, n]⟩ : Shape).Idx) (y : (⟨2, ![5000, n]⟩ : Shape).Idx) (t : Nat)
    (h0 : (i 0).val = t * 5000 + (y 0).val) (h1 : (i 1).val = (y 1).val) : (i 0).val / 5000 = t ∧ inTile i = y := by
  have hy : (y 0).val < 5000 := idx2_lt0 y
  refine ⟨by omega, ?_⟩
  unfold inTile
  funext a
  match a with
  | ⟨0, _⟩ => exact Fin.ext (by show (i 0).val % 5000 = (y 0).val; omega)
  | ⟨1, _⟩ => exact Fin.ext h1

end Cert.KernelIdeal.Tiles

end
-- ==== Proof.R0Val.lean ====
import proofs.«168042_j17549236371683_2_alg».proof.Proof.Tiles

set_option maxRecDepth 16384

noncomputable section

namespace Cert.KernelIdeal.R0

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! # The first pallas_call, read as whole arrays

Its grid has 20 points; point `t` reads tile `t` (5000 rows) of the aggregated messages, of the reciprocal in-degrees and of
the node features, and the two weight matrices and the bias whole; it writes tile `t` of the linear layer's output and
row `t` of two 20-row tables: the column sums of that tile and the column sums of its squares. So each output array is ONE
function of the arrays the call finds — at an index, the body's value on the tile that holds the index. -/

/-- The linear layer's output: at row `i 0`, column `i 1`, the body's first stored value computed from the tile that
    holds the row, read at the row's position in the tile. -/
def lin (A : Vec F S100000x128 .f32) (inv : Vec F S100000x1 .f32) (X : Vec F S100000x128 .f32) (Wl Wr : Vec F S128x128 .f32)
    (bl : Vec F S1x128 .f32) : Vec F S100000x128 .f32 :=
  fun i => k0_pay1 (rowTile A ((i 0).val / 5000)) (rowTile inv ((i 0).val / 5000)) (rowTile X ((i 0).val / 5000)) Wl Wr bl (inTile i)

/-- The table of per-tile column sums: row `t` is the body's second stored value on tile `t`. -/
def colSums (A : Vec F S100000x128 .f32) (inv : Vec F S100000x1 .f32) (X : Vec F S100000x128 .f32) (Wl Wr : Vec F S128x128 .f32)
    (bl : Vec F S1x128 .f32) : Vec F S20x1x128 .f32 :=
  fun i => k0_pay2 (rowTile A (i 0).val) (rowTile inv (i 0).val) (rowTile X (i 0).val) Wl Wr bl (ix3 ⟨0, by norm_num⟩ ⟨0, by norm_num⟩ (i 2))

/-- The table of per-tile column sums of squares: row `t` is the body's third stored value on tile `t`. -/
def colSqSums (A : Vec F S100000x128 .f32) (inv : Vec F S100000x1 .f32) (X : Vec F S100000x128 .f32) (Wl Wr : Vec F S128x128 .f32)
    (bl : Vec F S1x128 .f32) : Vec F S20x1x128 .f32 :=
  fun i => k0_pay3 (rowTile A (i 0).val) (rowTile inv (i 0).val) (rowTile X (i 0).val) Wl Wr bl (ix3 ⟨0, by norm_num⟩ ⟨0, by norm_num⟩ (i 2))

/-- At an index of tile `t`, position `y`, the linear layer's output is the body's value on tile `t` at `y`. -/
theorem lin_at (A : Vec F S100000x128 .f32) (inv : Vec F S100000x1 .f32) (X : Vec F S100000x128 .f32) (Wl Wr : Vec F S128x128 .f32)
    (bl : Vec F S1x128 .f32) (i : S100000x128.Idx) (y : S5000x128.Idx) (t : Nat)
    (h0 : (i 0).val = t * 5000 + (y 0).val) (h1 : (i 1).val = (y 1).val) :
    lin A inv X Wl Wr bl i = k0_pay1 (rowTile A t) (rowTile inv t) (rowTile X t) Wl Wr bl y := by
  obtain ⟨hq, hy⟩ := tile_of_index i y t h0 h1
  unfold lin
  rw [hq, hy]

/-- Row `t` of the column-sum table, at position `y` of a one-row block. -/
theorem colSums_at (A : Vec F S100000x128 .f32) (inv : Vec F S100000x1 .f32) (X : Vec F S100000x128 .f32) (Wl Wr : Vec F S128x128 .f32)
    (bl : Vec F S1x128 .f32) (i : S20x1x128.Idx) (y : S1x1x128.Idx) (t : Nat)
    (h0 : (i 0).val = t) (h2 : (i 2).val = (y 2).val) :
    colSums A inv X Wl Wr bl i = k0_pay2 (rowTile A t) (rowTile inv t) (rowTile X t) Wl Wr bl y := by
  have hy : (ix3 ⟨0, by norm_num⟩ ⟨0, by norm_num⟩ (i 2) : S1x1x128.Idx) = y := by
    funext a
    match a with
    | ⟨0, _⟩ => exact Fin.ext (by show 0 = (y 0).val; have : (y 0).val < 1 := (y 0).isLt; omega)
    | ⟨1, _⟩ => exact Fin.ext (by show 0 = (y 1).val; have : (y 1).val < 1 := (y 1).isLt; omega)
    | ⟨2, _⟩ => exact Fin.ext h2
  unfold colSums
  rw [h0, hy]

/-- Row `t` of the table of sums of squares, at position `y` of a one-row block. -/
theorem colSqSums_at (A : Vec F S100000x128 .f32) (inv : Vec F S100000x1 .f32) (X : Vec F S100000x128 .f32) (Wl Wr : Vec F S128x128 .f32)
    (bl : Vec F S1x128 .f32) (i : S20x1x128.Idx) (y : S1x1x128.Idx) (t : Nat)
    (h0 : (i 0).val = t) (h2 : (i 2).val = (y 2).val) :
    colSqSums A inv X Wl Wr bl i = k0_pay3 (rowTile A t) (rowTile inv t) (rowTile X t) Wl Wr bl y := by
  have hy : (ix3 ⟨0, by norm_num⟩ ⟨0, by norm_num⟩ (i 2) : S1x1x128.Idx) = y := by
    funext a
    match a with
    | ⟨0, _⟩ => exact Fin.ext (by show 0 = (y 0).val; have : (y 0).val < 1 := (y 0).isLt; omega)
    | ⟨1, _⟩ => exact Fin.ext (by show 0 = (y 1).val; have : (y 1).val < 1 := (y 1).isLt; omega)
    | ⟨2, _⟩ => exact Fin.ext h2
  unfold colSqSums
  rw [h0, hy]

/-- The same three facts with the six loaded blocks as variables, each known to be the tile or the whole array it is. -/
theorem lin_of_blocks (A : Vec F S100000x128 .f32) (inv : Vec F S100000x1 .f32) (X : Vec F S100000x128 .f32) (Wl Wr : Vec F S128x128 .f32)
    (bl : Vec F S1x128 .f32) (b0 : Vec F S5000x128 .f32) (b1 : Vec F S5000x1 .f32) (b2 : Vec F S5000x128 .f32) (b3 b4 : Vec F S128x128 .f32)
    (b5 : Vec F S1x128 .f32) (t : Nat) (hb0 : b0 = rowTile A t) (hb1 : b1 = rowTile inv t) (hb2 : b2 = rowTile X t) (hb3 : b3 = Wl)
    (hb4 : b4 = Wr) (hb5 : b5 = bl) (i : S100000x128.Idx) (y : S5000x128.Idx)
    (h0 : (i 0).val = t * 5000 + (y 0).val) (h1 : (i 1).val = (y 1).val) :
    k0_pay1 b0 b1 b2 b3 b4 b5 y = lin A inv X Wl Wr bl i := by
  subst hb0 hb1 hb2 hb3 hb4 hb5
  exact (lin_at _ _ _ _ _ _ i y t h0 h1).symm

theorem colSums_of_blocks (A : Vec F S100000x128 .f32) (inv : Vec F S100000x1 .f32) (X : Vec F S100000x128 .f32) (Wl Wr : Vec F S128x128 .f32)
    (bl : Vec F S1x128 .f32) (b0 : Vec F S5000x128 .f32) (b1 : Vec F S5000x1 .f32) (b2 : Vec F S5000x128 .f32) (b3 b4 : Vec F S128x128 .f32)
    (b5 : Vec F S1x128 .f32) (t : Nat) (hb0 : b0 = rowTile A t) (hb1 : b1 = rowTile inv t) (hb2 : b2 = rowTile X t) (hb3 : b3 = Wl)
    (hb4 : b4 = Wr) (hb5 : b5 = bl) (i : S20x1x128.Idx) (y : S1x1x128.Idx)
    (h0 : (i 0).val = t) (h2 : (i 2).val = (y 2).val) :
    k0_pay2 b0 b1 b2 b3 b4 b5 y = colSums A inv X Wl Wr bl i := by
  subst hb0 hb1 hb2 hb3 hb4 hb5
  exact (colSums_at _ _ _ _ _ _ i y t h0 h2).symm

theorem colSqSums_of_blocks (A : Vec F S100000x128 .f32) (inv : Vec F S100000x1 .f32) (X : Vec F S100000x128 .f32) (Wl Wr : Vec F S128x128 .f32)
    (bl : Vec F S1x128 .f32) (b0 : Vec F S5000x128 .f32) (b1 : Vec F S5000x1 .f32) (b2 : Vec F S5000x128 .f32) (b3 b4 : Vec F S128x128 .f32)
    (b5 : Vec F S1x128 .f32) (t : Nat) (hb0 : b0 = rowTile A t) (hb1 : b1 = rowTile inv t) (hb2 : b2 = rowTile X t) (hb3 : b3 = Wl)
    (hb4 : b4 = Wr) (hb5 : b5 = bl) (i : S20x1x128.Idx) (y : S1x1x128.Idx)
    (h0 : (i 0).val = t) (h2 : (i 2).val = (y 2).val) :
    k0_pay3 b0 b1 b2 b3 b4 b5 y = colSqSums A inv X Wl Wr bl i := by
  subst hb0 hb1 hb2 hb3 hb4 hb5
  exact (colSqSums_at _ _ _ _ _ _ i y t h0 h2).symm

variable (V : (c : Dev nD) → (b : Ref sig .tc) → Buf (Elt F) ((c : Thread nD τ).loc b))

/-- The index maps of the call's nine windows, decided over its 20 points: the three tiled inputs and the tiled output sit
    at block row `t`; the weights and the bias at block (0, 0); the two tables at block (t, 0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

theorem lt20 (t : Fin cfg0.N) : t.val < 20 := lt_of_lt_of_eq t.isLt N_0

/-- Window 0's block at point `t` is tile `t` of its array. -/
theorem blk_0 (c : Dev nD) (t : Fin cfg0.N) : iblk0 V c 0 t = rowTile (V c (Pipeline.arrRef spec0 0)) t.val := by
  obtain ⟨e00, e01, e10, e11, e20, e21, e30, e31, e40, e41, e50, e51, e60, e61, e70, e71, e72, e80, e81, e82⟩ := idx t
  have ht := lt20 t
  funext z
  show V c (Pipeline.arrRef spec0 0) (((cfg0.win 0).blk t).view.emb z) = V c (Pipeline.arrRef spec0 0) _
  congr 1
  funext a
  have hz : (z 0).val < 5000 := (z 0).isLt
  match a with
  | ⟨0, _⟩ => exact Fin.ext (by show win0_0.index t (0 : Fin 2) * 5000 + 1 * (z 0).val = (t.val * 5000 + (z 0).val) % 100000; rw [e00]; omega)
  | ⟨1, _⟩ => exact Fin.ext (by show win0_0.index t (1 : Fin 2) * 128 + 1 * (z 1).val = (z 1).val; rw [e01]; omega)

/-- Window 1's block at point `t` is tile `t` of its array. -/
theorem blk_1 (c : Dev nD) (t : Fin cfg0.N) : iblk0 V c 1 t = rowTile (V c (Pipeline.arrRef spec0 1)) t.val := by
  obtain ⟨e00, e01, e10, e11, e20, e21, e30, e31, e40, e41, e50, e51, e60, e61, e70, e71, e72, e80, e81, e82⟩ := idx t
  have ht := lt20 t
  funext z
  show V c (Pipeline.arrRef spec0 1) (((cfg0.win 1).blk t).view.emb z) = V c (Pipeline.arrRef spec0 1) _
  congr 1
  funext a
  have hz : (z 0).val < 5000 := (z 0).isLt
  match a with
  | ⟨0, _⟩ => exact Fin.ext (by show win0_1.index t (0 : Fin 2) * 5000 + 1 * (z 0).val = (t.val * 5000 + (z 0).val) % 100000; rw [e10]; omega)
  | ⟨1, _⟩ => exact Fin.ext (by show win0_1.index t (1 : Fin 2) * 1 + 1 * (z 1).val = (z 1).val; rw [e11]; omega)

/-- Window 2's block at point `t` is tile `t` of its array. -/
theorem blk_2 (c : Dev nD) (t : Fin cfg0.N) : iblk0 V c 2 t = rowTile (V c (Pipeline.arrRef spec0 2)) t.val := by
  obtain ⟨e00, e01, e10, e11, e20, e21, e30, e31, e40, e41, e50, e51, e60, e61, e70, e71, e72, e80, e81, e82⟩ := idx t
  have ht := lt20 t
  funext z
  show V c (Pipeline.arrRef spec0 2) (((cfg0.win 2).blk t).view.emb z) = V c (Pipeline.arrRef spec0 2) _
  congr 1
  funext a
  have hz : (z 0).val < 5000 := (z 0).isLt
  match a with
  | ⟨0, _⟩ => exact Fin.ext (by show win0_2.index t (0 : Fin 2) * 5000 + 1 * (z 0).val = (t.val * 5000 + (z 0).val) % 100000; rw [e20]; omega)
  | ⟨1, _⟩ => exact Fin.ext (by show win0_2.index t (1 : Fin 2) * 128 + 1 * (z 1).val = (z 1).val; rw [e21]; omega)

/-- Window 3 is resident: its block at every point is its whole array. -/
theorem blk_3 (c : Dev nD) (t : Fin cfg0.N) : iblk0 V c 3 t = V c (Pipeline.arrRef spec0 3) := by
  obtain ⟨e00, e01, e10, e11, e20, e21, e30, e31, e40, e41, e50, e51, e60, e61, e70, e71, e72, e80, e81, e82⟩ := idx t
  funext z
  show V c (Pipeline.arrRef spec0 3) (((cfg0.win 3).blk t).view.emb z) = V c (Pipeline.arrRef spec0 3) z
  congr 1
  funext a
  match a with
  | ⟨0, _⟩ => exact Fin.ext (by show win0_3.index t (0 : Fin 2) * 128 + 1 * (z 0).val = (z 0).val; rw [e30]; omega)
  | ⟨1, _⟩ => exact Fin.ext (by show win0_3.index t (1 : Fin 2) * 128 + 1 * (z 1).val = (z 1).val; rw [e31]; omega)

/-- Window 4 is resident: its block at every point is its whole array. -/
theorem blk_4 (c : Dev nD) (t : Fin cfg0.N) : iblk0 V c 4 t = V c (Pipeline.arrRef spec0 4) := by
  obtain ⟨e00, e01, e10, e11, e20, e21, e30, e31, e40, e41, e50, e51, e60, e61, e70, e71, e72, e80, e81, e82⟩ := idx t
  funext z
  show V c (Pipeline.arrRef spec0 4) (((cfg0.win 4).blk t).view.emb z) = V c (Pipeline.arrRef spec0 4) z
  congr 1
  funext a
  match a with
  | ⟨0, _⟩ => exact Fin.ext (by show win0_4.index t (0 : Fin 2) * 128 + 1 * (z 0).val = (z 0).val; rw [e40]; omega)
  | ⟨1, _⟩ => exact Fin.ext (by show win0_4.index t (1 : Fin 2) * 128 + 1 * (z 1).val = (z 1).val; rw [e41]; omega)

/-- Window 5 is resident: its block at every point is its whole array. -/
theorem blk_5 (c : Dev nD) (t : Fin cfg0.N) : iblk0 V c 5 t = V c (Pipeline.arrRef spec0 5) := by
  obtain ⟨e00, e01, e10, e11, e20, e21, e30, e31, e40, e41, e50, e51, e60, e61, e70, e71, e72, e80, e81, e82⟩ := idx t
  funext z
  show V c (Pipeline.arrRef spec0 5) (((cfg0.win 5).blk t).view.emb z) = V c (Pipeline.arrRef spec0 5) z
  congr 1
  funext a
  match a with
  | ⟨0, _⟩ => exact Fin.ext (by show win0_5.index t (0 : Fin 2) * 1 + 1 * (z 0).val = (z 0).val; rw [e50]; omega)
  | ⟨1, _⟩ => exact Fin.ext (by show win0_5.index t (1 : Fin 2) * 128 + 1 * (z 1).val = (z 1).val; rw [e51]; omega)

/-- What point `t` writes back through the first output window is block `t` of the linear layer's output. -/
theorem flushed6 (c : Dev nD) (t : Fin cfg0.N) :
    (dat0 V c).flushed 6 t = ((cfg0.win 6).blk t).view.read (Elt F) (lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  obtain ⟨e00, e01, e10, e11, e20, e21, e30, e31, e40, e41, e50, e51, e60, e61, e70, e71, e72, e80, e81, e82⟩ := idx t
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2, View.ld_unit_zero (S := S128x128) hz2, View.ld_unit_zero (S := S1x128) hz2]
  funext y
  exact lin_of_blocks (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (iblk0 V c 0 t) (iblk0 V c 1 t) (iblk0 V c 2 t) (iblk0 V c 3 t) (iblk0 V c 4 t) (iblk0 V c 5 t) t.val (blk_0 V c t) (blk_1 V c t) (blk_2 V c t) (blk_3 V c t) (blk_4 V c t) (blk_5 V c t) (((cfg0.win 6).blk t).view.emb y) y
    (by show win0_6.index t (0 : Fin 2) * 5000 + 1 * (y 0).val = t.val * 5000 + (y 0).val; rw [e60]; omega)
    (by show win0_6.index t (1 : Fin 2) * 128 + 1 * (y 1).val = (y 1).val; rw [e61]; omega)

/-- What point `t` writes back through the second output window is row `t` of the column-sum table. -/
theorem flushed7 (c : Dev nD) (t : Fin cfg0.N) :
    (dat0 V c).flushed 7 t = ((cfg0.win 7).blk t).view.read (Elt F) (colSums (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  obtain ⟨e00, e01, e10, e11, e20, e21, e30, e31, e40, e41, e50, e51, e60, e61, e70, e71, e72, e80, e81, e82⟩ := idx t
  show (cfg0.win 7).cut (grid0.coords t) ((dat0 V c).after 7 t) = _
  rw [after0_7]
  unfold out0_7
  rw [View.canon_unit_zero hz3]
  simp only [View.ld_unit_zero (S := S5000x128) hz2, View.ld_unit_zero (S := S5000x1) hz2, View.ld_unit_zero (S := S128x128) hz2, View.ld_unit_zero (S := S1x128) hz2]
  funext y
  exact colSums_of_blocks (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (iblk0 V c 0 t) (iblk0 V c 1 t) (iblk0 V c 2 t) (iblk0 V c 3 t) (iblk0 V c 4 t) (iblk0 V c 5 t) t.val (blk_0 V c t) (blk_1 V c t) (blk_2 V c t) (blk_3 V c t) (blk_4 V c t) (blk_5 V c t) (((cfg0.win 7).blk t).view.emb y) y
    (by show win0_7.index t (0 : Fin 3) * 1 + 1 * (y 0).val = t.val; have : (y 0).val < 1 := (y 0).isLt; rw [e70]; omega)
    (by show win0_7.index t (2 : Fin 3) * 128 + 1 * (y 2).val = (y 2).val; rw [e72]; omega)

/-- What point `t` writes back through the third output window is row `t` of the table of sums of squares. -/
theorem flushed8 (c : Dev nD) (t : Fin cfg0.N) :
    (dat0 V c).flushed 8 t = ((cfg0.win 8).blk t).view.read (Elt F) (colSqSums (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  obtain ⟨e00, e01, e10, e11, e20, e21, e30, e31, e40, e41, e50, e51, e60, e61, e70, e71, e72, e80, e81, e82⟩ := idx t
  show (cfg0.win 8).cut (grid0.coords t) ((dat0 V c).after 8 t) = _
  rw [after0_8]
  unfold out0_8
  rw [View.canon_unit_zero hz3]
  simp only [View.ld_unit_zero (S := S5000x128) hz2, View.ld_unit_zero (S := S5000x1) hz2, View.ld_unit_zero (S := S128x128) hz2, View.ld_unit_zero (S := S1x128) hz2]
  funext y
  exact colSqSums_of_blocks (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (iblk0 V c 0 t) (iblk0 V c 1 t) (iblk0 V c 2 t) (iblk0 V c 3 t) (iblk0 V c 4 t) (iblk0 V c 5 t) t.val (blk_0 V c t) (blk_1 V c t) (blk_2 V c t) (blk_3 V c t) (blk_4 V c t) (blk_5 V c t) (((cfg0.win 8).blk t).view.emb y) y
    (by show win0_8.index t (0 : Fin 3) * 1 + 1 * (y 0).val = t.val; have : (y 0).val < 1 := (y 0).isLt; rw [e80]; omega)
    (by show win0_8.index t (2 : Fin 3) * 128 + 1 * (y 2).val = (y 2).val; rw [e82]; omega)

/-- An index of the linear layer's output lies in point `t`'s block iff each coordinate is in the block's range. -/
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27_0).slice (win0_6.rect t)).set ↔ _
  rw [View.set_slice_whole, Rect.mem_set_unit]
  exact Iff.rfl

theorem mem_blk7 (t : Fin cfg0.N) (i : S20x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v27_1).slice (win0_7.rect t)).set ↔ _
  rw [View.set_slice_whole, Rect.mem_set_unit]
  exact Iff.rfl

theorem mem_blk8 (t : Fin cfg0.N) (i : S20x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v27_2).slice (win0_8.rect t)).set ↔ _
  rw [View.set_slice_whole, Rect.mem_set_unit]
  exact Iff.rfl

/-- Every row lies in the tile numbered by its quotient by 5000: the 20 blocks cover the output. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  refine ⟨t, flush0_6 t, ?_⟩
  rw [mem_blk6]
  obtain ⟨e00, e01, e10, e11, e20, e21, e30, e31, e40, e41, e50, e51, e60, e61, e70, e71, e72, e80, e81, e82⟩ := idx t
  intro a
  match a with
  | ⟨0, _⟩ =>
    show win0_6.index t (0 : Fin 2) * 5000 ≤ (i 0).val ∧ (i 0).val < win0_6.index t (0 : Fin 2) * 5000 + 5000
    rw [e60, htv]; omega
  | ⟨1, _⟩ =>
    show win0_6.index t (1 : Fin 2) * 128 ≤ (i 1).val ∧ (i 1).val < win0_6.index t (1 : Fin 2) * 128 + 128
    rw [e61]; omega

theorem cover7 (i : S20x1x128.Idx) : ∃ t : Fin cfg0.N, (cfg0.win 7).flush t = true ∧ i ∈ ((cfg0.win 7).blk t).view.set := by
  have hi0 : (i 0).val < 20 := (i 0).isLt
  have hi1 : (i 1).val < 1 := (i 1).isLt
  have hi2 : (i 2).val < 128 := (i 2).isLt
  have hN : cfg0.N = 20 := N_0
  let t : Fin cfg0.N := ⟨(i 0).val, by rw [hN]; omega⟩
  have htv : t.val = (i 0).val := rfl
  refine ⟨t, flush0_7 t, ?_⟩
  rw [mem_blk7]
  obtain ⟨e00, e01, e10, e11, e20, e21, e30, e31, e40, e41, e50, e51, e60, e61, e70, e71, e72, e80, e81, e82⟩ := idx t
  intro a
  match a with
  | ⟨0, _⟩ =>
    show win0_7.index t (0 : Fin 3) * 1 ≤ (i 0).val ∧ (i 0).val < win0_7.index t (0 : Fin 3) * 1 + 1
    rw [e70, htv]; omega
  | ⟨1, _⟩ =>
    show win0_7.index t (1 : Fin 3) * 1 ≤ (i 1).val ∧ (i 1).val < win0_7.index t (1 : Fin 3) * 1 + 1
    rw [e71]; omega
  | ⟨2, _⟩ =>
    show win0_7.index t (2 : Fin 3) * 128 ≤ (i 2).val ∧ (i 2).val < win0_7.index t (2 : Fin 3) * 128 + 128
    rw [e72]; omega

theorem cover8 (i : S20x1x128.Idx) : ∃ t : Fin cfg0.N, (cfg0.win 8).flush t = true ∧ i ∈ ((cfg0.win 8).blk t).view.set := by
  have hi0 : (i 0).val < 20 := (i 0).isLt
  have hi1 : (i 1).val < 1 := (i 1).isLt
  have hi2 : (i 2).val < 128 := (i 2).isLt
  have hN : cfg0.N = 20 := N_0
  let t : Fin cfg0.N := ⟨(i 0).val, by rw [hN]; omega⟩
  have htv : t.val = (i 0).val := rfl
  refine ⟨t, flush0_8 t, ?_⟩
  rw [mem_blk8]
  obtain ⟨e00, e01, e10, e11, e20, e21, e30, e31, e40, e41, e50, e51, e60, e61, e70, e71, e72, e80, e81, e82⟩ := idx t
  intro a
  match a with
  | ⟨0, _⟩ =>
    show win0_8.index t (0 : Fin 3) * 1 ≤ (i 0).val ∧ (i 0).val < win0_8.index t (0 : Fin 3) * 1 + 1
    rw [e80, htv]; omega
  | ⟨1, _⟩ =>
    show win0_8.index t (1 : Fin 3) * 1 ≤ (i 1).val ∧ (i 1).val < win0_8.index t (1 : Fin 3) * 1 + 1
    rw [e81]; omega
  | ⟨2, _⟩ =>
    show win0_8.index t (2 : Fin 3) * 128 ≤ (i 2).val ∧ (i 2).val < win0_8.index t (2 : Fin 3) * 128 + 128
    rw [e82]; omega

/-- After the call, its first output array is the linear layer's output of the arrays it found. -/
theorem final6 (c : Dev nD) : (dat0 V c).arrAt 6 cfg0.N = lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed6 V c t) cover6

/-- After the call, its second output array is the table of per-tile column sums. -/
theorem final7 (c : Dev nD) : (dat0 V c).arrAt 7 cfg0.N = colSums (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 7 _ (fun t _ => flushed7 V c t) cover7

/-- After the call, its third output array is the table of per-tile column sums of squares. -/
theorem final8 (c : Dev nD) : (dat0 V c).arrAt 8 cfg0.N = colSqSums (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 8 _ (fun t _ => flushed8 V c t) cover8

end Cert.KernelIdeal.R0

end
-- ==== Proof.R1Val.lean ====
import proofs.«168042_j17549236371683_2_alg».proof.Proof.Tiles

set_option maxRecDepth 16384

noncomputable section

namespace Cert.KernelIdeal.R1

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! # The second pallas_call, read as a whole array

Point `t` of its 20 reads tile `t` (5000 rows) of the linear layer's output and four resident rows — scale, shift, column
means and reciprocal standard deviations — and writes tile `t` of the normalized, rectified features. So the output array
is one function of the arrays the call finds: at an index, the body's value on the tile that holds the index. -/

/-- The normalized, rectified features: at an index, the body's stored value computed from the tile holding the row. The
    body takes its loads in the order scale, mean, reciprocal deviation, shift. -/
def bnRelu (H : Vec F S100000x128 .f32) (g b mu s : Vec F S1x128 .f32) : Vec F S100000x128 .f32 :=
  fun i => k1_pay1 (rowTile H ((i 0).val / 5000)) g mu s b (inTile i)

/-- At an index of tile `t`, position `y`, the features are the body's value on tile `t` at `y`. -/
theorem bnRelu_at (H : Vec F S100000x128 .f32) (g b mu s : Vec F S1x128 .f32) (i : S100000x128.Idx) (y : S5000x128.Idx) (t : Nat)
    (h0 : (i 0).val = t * 5000 + (y 0).val) (h1 : (i 1).val = (y 1).val) :
    bnRelu H g b mu s i = k1_pay1 (rowTile H t) g mu s b y := by
  obtain ⟨hq, hy⟩ := tile_of_index i y t h0 h1
  unfold bnRelu
  rw [hq, hy]

/-- The same with the five loaded blocks as variables, each known to be the tile or the whole row it is. -/
theorem bnRelu_of_blocks (H : Vec F S100000x128 .f32) (g b mu s : Vec F S1x128 .f32) (b0 : Vec F S5000x128 .f32) (b1 b2 b3 b4 : Vec F S1x128 .f32)
    (t : Nat) (hb0 : b0 = rowTile H t) (hb1 : b1 = g) (hb2 : b2 = b) (hb3 : b3 = mu) (hb4 : b4 = s) (i : S100000x128.Idx) (y : S5000x128.Idx)
    (h0 : (i 0).val = t * 5000 + (y 0).val) (h1 : (i 1).val = (y 1).val) :
    k1_pay1 b0 b1 b3 b4 b2 y = bnRelu H g b mu s i := by
  subst hb0 hb1 hb2 hb3 hb4
  exact (bnRelu_at _ _ _ _ _ i y t h0 h1).symm

variable (V : (c : Dev nD) → (b : Ref sig .tc) → Buf (Elt F) ((c : Thread nD τ).loc b))

/-- The index maps of the call's windows, decided over its 20 points: a tiled window sits at block row `t`, a resident one
    at block (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt20 (t : Fin cfg1.N) : t.val < 20 := lt_of_lt_of_eq t.isLt N_1

/-- Window 0's block at point `t` is tile `t` of its array. -/
theorem blk_0 (c : Dev nD) (t : Fin cfg1.N) : iblk1 V c 0 t = rowTile (V c (Pipeline.arrRef spec1 0)) t.val := by
  obtain ⟨e00, e01, e10, e11, e20, e21, e30, e31, e40, e41, e50, e51⟩ := idx t
  have ht := lt20 t
  funext z
  show V c (Pipeline.arrRef spec1 0) (((cfg1.win 0).blk t).view.emb z) = V c (Pipeline.arrRef spec1 0) _
  congr 1
  funext a
  have hz : (z 0).val < 5000 := (z 0).isLt
  match a with
  | ⟨0, _⟩ => exact Fin.ext (by show win1_0.index t (0 : Fin 2) * 5000 + 1 * (z 0).val = (t.val * 5000 + (z 0).val) % 100000; rw [e00]; omega)
  | ⟨1, _⟩ => exact Fin.ext (by show win1_0.index t (1 : Fin 2) * 128 + 1 * (z 1).val = (z 1).val; rw [e01]; omega)

/-- Window 1 is resident: its block at every point is its whole array. -/
theorem blk_1 (c : Dev nD) (t : Fin cfg1.N) : iblk1 V c 1 t = V c (Pipeline.arrRef spec1 1) := by
  obtain ⟨e00, e01, e10, e11, e20, e21, e30, e31, e40, e41, e50, e51⟩ := idx t
  funext z
  show V c (Pipeline.arrRef spec1 1) (((cfg1.win 1).blk t).view.emb z) = V c (Pipeline.arrRef spec1 1) z
  congr 1
  funext a
  match a with
  | ⟨0, _⟩ => exact Fin.ext (by show win1_1.index t (0 : Fin 2) * 1 + 1 * (z 0).val = (z 0).val; rw [e10]; omega)
  | ⟨1, _⟩ => exact Fin.ext (by show win1_1.index t (1 : Fin 2) * 128 + 1 * (z 1).val = (z 1).val; rw [e11]; omega)

/-- Window 2 is resident: its block at every point is its whole array. -/
theorem blk_2 (c : Dev nD) (t : Fin cfg1.N) : iblk1 V c 2 t = V c (Pipeline.arrRef spec1 2) := by
  obtain ⟨e00, e01, e10, e11, e20, e21, e30, e31, e40, e41, e50, e51⟩ := idx t
  funext z
  show V c (Pipeline.arrRef spec1 2) (((cfg1.win 2).blk t).view.emb z) = V c (Pipeline.arrRef spec1 2) z
  congr 1
  funext a
  match a with
  | ⟨0, _⟩ => exact Fin.ext (by show win1_2.index t (0 : Fin 2) * 1 + 1 * (z 0).val = (z 0).val; rw [e20]; omega)
  | ⟨1, _⟩ => exact Fin.ext (by show win1_2.index t (1 : Fin 2) * 128 + 1 * (z 1).val = (z 1).val; rw [e21]; omega)

/-- Window 3 is resident: its block at every point is its whole array. -/
theorem blk_3 (c : Dev nD) (t : Fin cfg1.N) : iblk1 V c 3 t = V c (Pipeline.arrRef spec1 3) := by
  obtain ⟨e00, e01, e10, e11, e20, e21, e30, e31, e40, e41, e50, e51⟩ := idx t
  funext z
  show V c (Pipeline.arrRef spec1 3) (((cfg1.win 3).blk t).view.emb z) = V c (Pipeline.arrRef spec1 3) z
  congr 1
  funext a
  match a with
  | ⟨0, _⟩ => exact Fin.ext (by show win1_3.index t (0 : Fin 2) * 1 + 1 * (z 0).val = (z 0).val; rw [e30]; omega)
  | ⟨1, _⟩ => exact Fin.ext (by show win1_3.index t (1 : Fin 2) * 128 + 1 * (z 1).val = (z 1).val; rw [e31]; omega)

/-- Window 4 is resident: its block at every point is its whole array. -/
theorem blk_4 (c : Dev nD) (t : Fin cfg1.N) : iblk1 V c 4 t = V c (Pipeline.arrRef spec1 4) := by
  obtain ⟨e00, e01, e10, e11, e20, e21, e30, e31, e40, e41, e50, e51⟩ := idx t
  funext z
  show V c (Pipeline.arrRef spec1 4) (((cfg1.win 4).blk t).view.emb z) = V c (Pipeline.arrRef spec1 4) z
  congr 1
  funext a
  match a with
  | ⟨0, _⟩ => exact Fin.ext (by show win1_4.index t (0 : Fin 2) * 1 + 1 * (z 0).val = (z 0).val; rw [e40]; omega)
  | ⟨1, _⟩ => exact Fin.ext (by show win1_4.index t (1 : Fin 2) * 128 + 1 * (z 1).val = (z 1).val; rw [e41]; omega)

/-- What point `t` writes back through output window 5 is block `t` of `bnRelu` of the arrays the call found. -/
theorem flushed5 (c : Dev nD) (t : Fin cfg1.N) :
    (dat1 V c).flushed 5 t = ((cfg1.win 5).blk t).view.read (Elt F) (bnRelu (V c (Pipeline.arrRef spec1 0)) (V c (Pipeline.arrRef spec1 1)) (V c (Pipeline.arrRef spec1 2)) (V c (Pipeline.arrRef spec1 3)) (V c (Pipeline.arrRef spec1 4))) := by
  obtain ⟨e00, e01, e10, e11, e20, e21, e30, e31, e40, e41, e50, e51⟩ := idx t
  show (cfg1.win 5).cut (grid1.coords t) ((dat1 V c).after 5 t) = _
  rw [after1_5]
  unfold out1_5
  rw [View.canon_unit_zero hz2]
  simp only [View.ld_unit_zero (S := S5000x128) hz2, View.ld_unit_zero (S := S1x128) hz2]
  funext y
  exact bnRelu_of_blocks (V c (Pipeline.arrRef spec1 0)) (V c (Pipeline.arrRef spec1 1)) (V c (Pipeline.arrRef spec1 2)) (V c (Pipeline.arrRef spec1 3)) (V c (Pipeline.arrRef spec1 4)) (iblk1 V c 0 t) (iblk1 V c 1 t) (iblk1 V c 2 t) (iblk1 V c 3 t) (iblk1 V c 4 t) t.val (blk_0 V c t) (blk_1 V c t) (blk_2 V c t) (blk_3 V c t) (blk_4 V c t) (((cfg1.win 5).blk t).view.emb y) y
    (by show win1_5.index t (0 : Fin 2) * 5000 + 1 * (y 0).val = t.val * 5000 + (y 0).val; rw [e50]; omega)
    (by show win1_5.index t (1 : Fin 2) * 128 + 1 * (y 1).val = (y 1).val; rw [e51]; omega)

/-- An index of the output lies in point `t`'s block iff each coordinate is in the block's range. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every row lies in the tile numbered by its quotient by 5000: the 20 blocks cover the output. -/
theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have htv : t.val = (i 0).val / 5000 := rfl
  refine ⟨t, flush1_5 t, ?_⟩
  rw [mem_blk5]
  obtain ⟨e00, e01, e10, e11, e20, e21, e30, e31, e40, e41, e50, e51⟩ := idx t
  intro a
  match a with
  | ⟨0, _⟩ =>
    show win1_5.index t (0 : Fin 2) * 5000 ≤ (i 0).val ∧ (i 0).val < win1_5.index t (0 : Fin 2) * 5000 + 5000
    rw [e50, htv]; omega
  | ⟨1, _⟩ =>
    show win1_5.index t (1 : Fin 2) * 128 ≤ (i 1).val ∧ (i 1).val < win1_5.index t (1 : Fin 2) * 128 + 128
    rw [e51]; omega

/-- After the call, output window 5's array is `bnRelu` of the arrays the call found. -/
theorem final5 (c : Dev nD) : (dat1 V c).arrAt 5 cfg1.N = bnRelu (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed5 V c t) cover5

end Cert.KernelIdeal.R1

end
-- ==== Proof.R2Val.lean ====
import proofs.«168042_j17549236371683_2_alg».proof.Proof.Tiles

set_option maxRecDepth 16384

noncomputable section

namespace Cert.KernelIdeal.R2

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! # The third pallas_call, read as whole arrays

Point `t` of its 20 reads tile `t` (5000 rows) of the second layer's aggregated messages, of the reciprocal in-degrees and of
the first layer's features, and, whole, the two weight matrices, the bias, the read-out matrix and its bias; it writes tile
`t` of the second linear layer's output and tile `t` of the projected read-out. Each output array is one function of the
arrays the call finds: at an index, the body's value on the tile that holds the index. -/

/-- The second linear layer's output: at an index, the body's first stored value computed from the tile holding the row.
    (It does not depend on the read-out matrix and bias; they are arguments so that both outputs take the same list.) -/
def lin (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32) : Vec F S100000x128 .f32 :=
  fun i => k2_pay1 (rowTile A ((i 0).val / 5000)) (rowTile inv ((i 0).val / 5000)) (rowTile X ((i 0).val / 5000)) Wl Wr bl (inTile i)

/-- The projected read-out: at an index, the body's second stored value computed from the tile holding the row. -/
def proj (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32) : Vec F S100000x64 .f32 :=
  fun i => k2_pay2 (rowTile A ((i 0).val / 5000)) (rowTile inv ((i 0).val / 5000)) (rowTile X ((i 0).val / 5000)) Wl Wr bl Wp bp (inTile i)

/-- At an index of tile `t`, position `y`, the layer's output is the body's value on tile `t` at `y`. -/
theorem lin_at (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32) (i : S100000x128.Idx) (y : S5000x128.Idx) (t : Nat)
    (h0 : (i 0).val = t * 5000 + (y 0).val) (h1 : (i 1).val = (y 1).val) :
    lin A inv X Wl Wr bl Wp bp i = k2_pay1 (rowTile A t) (rowTile inv t) (rowTile X t) Wl Wr bl y := by
  obtain ⟨hq, hy⟩ := tile_of_index i y t h0 h1
  unfold lin
  rw [hq, hy]

/-- At an index of tile `t`, position `y`, the read-out is the body's value on tile `t` at `y`. -/
theorem proj_at (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32) (i : S100000x64.Idx) (y : S5000x64.Idx) (t : Nat)
    (h0 : (i 0).val = t * 5000 + (y 0).val) (h1 : (i 1).val = (y 1).val) :
    proj A inv X Wl Wr bl Wp bp i = k2_pay2 (rowTile A t) (rowTile inv t) (rowTile X t) Wl Wr bl Wp bp y := by
  obtain ⟨hq, hy⟩ := tile_of_index i y t h0 h1
  unfold proj
  rw [hq, hy]

/-- The same two facts with the eight loaded blocks as variables, each known to be the tile or the whole array it is. -/
theorem lin_of_blocks (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32)
    (b0 : Vec F S5000x128 .f32) (b1 : Vec F S5000x1 .f32) (b2 : Vec F S5000x128 .f32) (b3 b4 : Vec F S128x128 .f32)
    (b5 : Vec F S1x128 .f32) (b6 : Vec F S128x64 .f32) (b7 : Vec F S1x64 .f32) (t : Nat) (hb0 : b0 = rowTile A t) (hb1 : b1 = rowTile inv t)
    (hb2 : b2 = rowTile X t) (hb3 : b3 = Wl) (hb4 : b4 = Wr) (hb5 : b5 = bl) (hb6 : b6 = Wp) (hb7 : b7 = bp)
    (i : S100000x128.Idx) (y : S5000x128.Idx) (h0 : (i 0).val = t * 5000 + (y 0).val) (h1 : (i 1).val = (y 1).val) :
    k2_pay1 b0 b1 b2 b3 b4 b5 y = lin A inv X Wl Wr bl Wp bp i := by
  subst hb0 hb1 hb2 hb3 hb4 hb5 hb6 hb7
  exact (lin_at _ _ _ _ _ _ _ _ i y t h0 h1).symm

theorem proj_of_blocks (A : Vec F S100000x128 .f32) (inv : Vec F S100000x1 .f32) (X : Vec F S100000x128 .f32) (Wl Wr : Vec F S128x128 .f32)
    (bl : Vec F S1x128 .f32) (Wp : Vec F S128x64 .f32) (bp : Vec F S1x64 .f32)
    (b0 : Vec F S5000x128 .f32) (b1 : Vec F S5000x1 .f32) (b2 : Vec F S5000x128 .f32) (b3 b4 : Vec F S128x128 .f32)
    (b5 : Vec F S1x128 .f32) (b6 : Vec F S128x64 .f32) (b7 : Vec F S1x64 .f32) (t : Nat) (hb0 : b0 = rowTile A t) (hb1 : b1 = rowTile inv t)
    (hb2 : b2 = rowTile X t) (hb3 : b3 = Wl) (hb4 : b4 = Wr) (hb5 : b5 = bl) (hb6 : b6 = Wp) (hb7 : b7 = bp)
    (i : S100000x64.Idx) (y : S5000x64.Idx) (h0 : (i 0).val = t * 5000 + (y 0).val) (h1 : (i 1).val = (y 1).val) :
    k2_pay2 b0 b1 b2 b3 b4 b5 b6 b7 y = proj A inv X Wl Wr bl Wp bp i := by
  subst hb0 hb1 hb2 hb3 hb4 hb5 hb6 hb7
  exact (proj_at _ _ _ _ _ _ _ _ i y t h0 h1).symm

variable (V : (c : Dev nD) → (b : Ref sig .tc) → Buf (Elt F) ((c : Thread nD τ).loc b))

/-- The index maps of the call's windows, decided over its 20 points: a tiled window sits at block row `t`, a resident one
    at block (0, 0). -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

theorem lt20 (t : Fin cfg2.N) : t.val < 20 := lt_of_lt_of_eq t.isLt N_2

/-- Window 0's block at point `t` is tile `t` of its array. -/
theorem blk_0 (c : Dev nD) (t : Fin cfg2.N) : iblk2 V c 0 t = rowTile (V c (Pipeline.arrRef spec2 0)) t.val := by
  obtain ⟨e00, e01, e10, e11, e20, e21, e30, e31, e40, e41, e50, e51, e60, e61, e70, e71, e80, e81, e90, e91⟩ := idx t
  have ht := lt20 t
  funext z
  show V c (Pipeline.arrRef spec2 0) (((cfg2.win 0).blk t).view.emb z) = V c (Pipeline.arrRef spec2 0) _
  congr 1
  funext a
  have hz : (z 0).val < 5000 := (z 0).isLt
  match a with
  | ⟨0, _⟩ => exact Fin.ext (by show win2_0.index t (0 : Fin 2) * 5000 + 1 * (z 0).val = (t.val * 5000 + (z 0).val) % 100000; rw [e00]; omega)
  | ⟨1, _⟩ => exact Fin.ext (by show win2_0.index t (1 : Fin 2) * 128 + 1 * (z 1).val = (z 1).val; rw [e01]; omega)

/-- Window 1's block at point `t` is tile `t` of its array. -/
theorem blk_1 (c : Dev nD) (t : Fin cfg2.N) : iblk2 V c 1 t = rowTile (V c (Pipeline.arrRef spec2 1)) t.val := by
  obtain ⟨e00, e01, e10, e11, e20, e21, e30, e31, e40, e41, e50, e51, e60, e61, e70, e71, e80, e81, e90, e91⟩ := idx t
  have ht := lt20 t
  funext z
  show V c (Pipeline.arrRef spec2 1) (((cfg2.win 1).blk t).view.emb z) = V c (Pipeline.arrRef spec2 1) _
  congr 1
  funext a
  have hz : (z 0).val < 5000 := (z 0).isLt
  match a with
  | ⟨0, _⟩ => exact Fin.ext (by show win2_1.index t (0 : Fin 2) * 5000 + 1 * (z 0).val = (t.val * 5000 + (z 0).val) % 100000; rw [e10]; omega)
  | ⟨1, _⟩ => exact Fin.ext (by show win2_1.index t (1 : Fin 2) * 1 + 1 * (z 1).val = (z 1).val; rw [e11]; omega)

/-- Window 2's block at point `t` is tile `t` of its array. -/
theorem blk_2 (c : Dev nD) (t : Fin cfg2.N) : iblk2 V c 2 t = rowTile (V c (Pipeline.arrRef spec2 2)) t.val := by
  obtain ⟨e00, e01, e10, e11, e20, e21, e30, e31, e40, e41, e50, e51, e60, e61, e70, e71, e80, e81, e90, e91⟩ := idx t
  have ht := lt20 t
  funext z
  show V c (Pipeline.arrRef spec2 2) (((cfg2.win 2).blk t).view.emb z) = V c (Pipeline.arrRef spec2 2) _
  congr 1
  funext a
  have hz : (z 0).val < 5000 := (z 0).isLt
  match a with
  | ⟨0, _⟩ => exact Fin.ext (by show win2_2.index t (0 : Fin 2) * 5000 + 1 * (z 0).val = (t.val * 5000 + (z 0).val) % 100000; rw [e20]; omega)
  | ⟨1, _⟩ => exact Fin.ext (by show win2_2.index t (1 : Fin 2) * 128 + 1 * (z 1).val = (z 1).val; rw [e21]; omega)

/-- Window 3 is resident: its block at every point is its whole array. -/
theorem blk_3 (c : Dev nD) (t : Fin cfg2.N) : iblk2 V c 3 t = V c (Pipeline.arrRef spec2 3) := by
  obtain ⟨e00, e01, e10, e11, e20, e21, e30, e31, e40, e41, e50, e51, e60, e61, e70, e71, e80, e81, e90, e91⟩ := idx t
  funext z
  show V c (Pipeline.arrRef spec2 3) (((cfg2.win 3).blk t).view.emb z) = V c (Pipeline.arrRef spec2 3) z
  congr 1
  funext a
  match a with
  | ⟨0, _⟩ => exact Fin.ext (by show win2_3.index t (0 : Fin 2) * 128 + 1 * (z 0).val = (z 0).val; rw [e30]; omega)
  | ⟨1, _⟩ => exact Fin.ext (by show win2_3.index t (1 : Fin 2) * 128 + 1 * (z 1).val = (z 1).val; rw [e31]; omega)

/-- Window 4 is resident: its block at every point is its whole array. -/
theorem blk_4 (c : Dev nD) (t : Fin cfg2.N) : iblk2 V c 4 t = V c (Pipeline.arrRef spec2 4) := by
  obtain ⟨e00, e01, e10, e11, e20, e21, e30, e31, e40, e41, e50, e51, e60, e61, e70, e71, e80, e81, e90, e91⟩ := idx t
  funext z
  show V c (Pipeline.arrRef spec2 4) (((cfg2.win 4).blk t).view.emb z) = V c (Pipeline.arrRef spec2 4) z
  congr 1
  funext a
  match a with
  | ⟨0, _⟩ => exact Fin.ext (by show win2_4.index t (0 : Fin 2) * 128 + 1 * (z 0).val = (z 0).val; rw [e40]; omega)
  | ⟨1, _⟩ => exact Fin.ext (by show win2_4.index t (1 : Fin 2) * 128 + 1 * (z 1).val = (z 1).val; rw [e41]; omega)

/-- Window 5 is resident: its block at every point is its whole array. -/
theorem blk_5 (c : Dev nD) (t : Fin cfg2.N) : iblk2 V c 5 t = V c (Pipeline.arrRef spec2 5) := by
  obtain ⟨e00, e01, e10, e11, e20, e21, e30, e31, e40, e41, e50, e51, e60, e61, e70, e71, e80, e81, e90, e91⟩ := idx t
  funext z
  show V c (Pipeline.arrRef spec2 5) (((cfg2.win 5).blk t).view.emb z) = V c (Pipeline.arrRef spec2 5) z
  congr 1
  funext a
  match a with
  | ⟨0, _⟩ => exact Fin.ext (by show win2_5.index t (0 : Fin 2) * 1 + 1 * (z 0).val = (z 0).val; rw [e50]; omega)
  | ⟨1, _⟩ => exact Fin.ext (by show win2_5.index t (1 : Fin 2) * 128 + 1 * (z 1).val = (z 1).val; rw [e51]; omega)

/-- Window 6 is resident: its block at every point is its whole array. -/
theorem blk_6 (c : Dev nD) (t : Fin cfg2.N) : iblk2 V c 6 t = V c (Pipeline.arrRef spec2 6) := by
  obtain ⟨e00, e01, e10, e11, e20, e21, e30, e31, e40, e41, e50, e51, e60, e61, e70, e71, e80, e81, e90, e91⟩ := idx t
  funext z
  show V c (Pipeline.arrRef spec2 6) (((cfg2.win 6).blk t).view.emb z) = V c (Pipeline.arrRef spec2 6) z
  congr 1
  funext a
  match a with
  | ⟨0, _⟩ => exact Fin.ext (by show win2_6.index t (0 : Fin 2) * 128 + 1 * (z 0).val = (z 0).val; rw [e60]; omega)
  | ⟨1, _⟩ => exact Fin.ext (by show win2_6.index t (1 : Fin 2) * 64 + 1 * (z 1).val = (z 1).val; rw [e61]; omega)

/-- Window 7 is resident: its block at every point is its whole array. -/
theorem blk_7 (c : Dev nD) (t : Fin cfg2.N) : iblk2 V c 7 t = V c (Pipeline.arrRef spec2 7) := by
  obtain ⟨e00, e01, e10, e11, e20, e21, e30, e31, e40, e41, e50, e51, e60, e61, e70, e71, e80, e81, e90, e91⟩ := idx t
  funext z
  show V c (Pipeline.arrRef spec2 7) (((cfg2.win 7).blk t).view.emb z) = V c (Pipeline.arrRef spec2 7) z
  congr 1
  funext a
  match a with
  | ⟨0, _⟩ => exact Fin.ext (by show win2_7.index t (0 : Fin 2) * 1 + 1 * (z 0).val = (z 0).val; rw [e70]; omega)
  | ⟨1, _⟩ => exact Fin.ext (by show win2_7.index t (1 : Fin 2) * 64 + 1 * (z 1).val = (z 1).val; rw [e71]; omega)

set_option maxHeartbeats 2000000 in
/-- What point `t` writes back through output window 8 is block `t` of `lin` of the arrays the call found. -/
theorem flushed8 (c : Dev nD) (t : Fin cfg2.N) :
    (dat2 V c).flushed 8 t = ((cfg2.win 8).blk t).view.read (Elt F) (lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  obtain ⟨e00, e01, e10, e11, e20, e21, e30, e31, e40, e41, e50, e51, e60, e61, e70, e71, e80, e81, e90, e91⟩ := idx t
  show (cfg2.win 8).cut (grid2.coords t) ((dat2 V c).after 8 t) = _
  rw [after2_8]
  unfold out2_8
  rw [View.canon_unit_zero hz2]
  simp only [View.ld_unit_zero (S := S5000x128) hz2, View.ld_unit_zero (S := S5000x1) hz2, View.ld_unit_zero (S := S128x128) hz2, View.ld_unit_zero (S := S1x128) hz2, View.ld_unit_zero (S := S128x64) hz2, View.ld_unit_zero (S := S1x64) hz2]
  funext y
  exact lin_of_blocks (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (iblk2 V c 0 t) (iblk2 V c 1 t) (iblk2 V c 2 t) (iblk2 V c 3 t) (iblk2 V c 4 t) (iblk2 V c 5 t) (iblk2 V c 6 t) (iblk2 V c 7 t) t.val (blk_0 V c t) (blk_1 V c t) (blk_2 V c t) (blk_3 V c t) (blk_4 V c t) (blk_5 V c t) (blk_6 V c t) (blk_7 V c t) (((cfg2.win 8).blk t).view.emb y) y
    (by show win2_8.index t (0 : Fin 2) * 5000 + 1 * (y 0).val = t.val * 5000 + (y 0).val; rw [e80]; omega)
    (by show win2_8.index t (1 : Fin 2) * 128 + 1 * (y 1).val = (y 1).val; rw [e81]; omega)

/-- An index of the output lies in point `t`'s block iff each coordinate is in the block's range. -/
theorem mem_blk8 (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v59_0).slice (win2_8.rect t)).set ↔ _
  rw [View.set_slice_whole, Rect.mem_set_unit]
  exact Iff.rfl

/-- Every row lies in the tile numbered by its quotient by 5000: the 20 blocks cover the output. -/
theorem cover8 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have htv : t.val = (i 0).val / 5000 := rfl
  refine ⟨t, flush2_8 t, ?_⟩
  rw [mem_blk8]
  obtain ⟨e00, e01, e10, e11, e20, e21, e30, e31, e40, e41, e50, e51, e60, e61, e70, e71, e80, e81, e90, e91⟩ := idx t
  intro a
  match a with
  | ⟨0, _⟩ =>
    show win2_8.index t (0 : Fin 2) * 5000 ≤ (i 0).val ∧ (i 0).val < win2_8.index t (0 : Fin 2) * 5000 + 5000
    rw [e80, htv]; omega
  | ⟨1, _⟩ =>
    show win2_8.index t (1 : Fin 2) * 128 ≤ (i 1).val ∧ (i 1).val < win2_8.index t (1 : Fin 2) * 128 + 128
    rw [e81]; omega

/-- After the call, output window 8's array is `lin` of the arrays the call found. -/
theorem final8 (c : Dev nD) : (dat2 V c).arrAt 8 cfg2.N = lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 V c).arrAt_eq_of_cover 8 _ (fun t _ => flushed8 V c t) cover8

set_option maxHeartbeats 2000000 in
/-- What point `t` writes back through output window 9 is block `t` of `proj` of the arrays the call found. -/
theorem flushed9 (c : Dev nD) (t : Fin cfg2.N) :
    (dat2 V c).flushed 9 t = ((cfg2.win 9).blk t).view.read (Elt F) (proj (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  obtain ⟨e00, e01, e10, e11, e20, e21, e30, e31, e40, e41, e50, e51, e60, e61, e70, e71, e80, e81, e90, e91⟩ := idx t
  show (cfg2.win 9).cut (grid2.coords t) ((dat2 V c).after 9 t) = _
  rw [after2_9]
  unfold out2_9
  rw [View.canon_unit_zero hz2]
  simp only [View.ld_unit_zero (S := S5000x128) hz2, View.ld_unit_zero (S := S5000x1) hz2, View.ld_unit_zero (S := S128x128) hz2, View.ld_unit_zero (S := S1x128) hz2, View.ld_unit_zero (S := S128x64) hz2, View.ld_unit_zero (S := S1x64) hz2]
  funext y
  exact proj_of_blocks (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (iblk2 V c 0 t) (iblk2 V c 1 t) (iblk2 V c 2 t) (iblk2 V c 3 t) (iblk2 V c 4 t) (iblk2 V c 5 t) (iblk2 V c 6 t) (iblk2 V c 7 t) t.val (blk_0 V c t) (blk_1 V c t) (blk_2 V c t) (blk_3 V c t) (blk_4 V c t) (blk_5 V c t) (blk_6 V c t) (blk_7 V c t) (((cfg2.win 9).blk t).view.emb y) y
    (by show win2_9.index t (0 : Fin 2) * 5000 + 1 * (y 0).val = t.val * 5000 + (y 0).val; rw [e90]; omega)
    (by show win2_9.index t (1 : Fin 2) * 64 + 1 * (y 1).val = (y 1).val; rw [e91]; omega)

/-- An index of the output lies in point `t`'s block iff each coordinate is in the block's range. -/
theorem mem_blk9 (t : Fin cfg2.N) (i : S100000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v59_1).slice (win2_9.rect t)).set ↔ _
  rw [View.set_slice_whole, Rect.mem_set_unit]
  exact Iff.rfl

/-- Every row lies in the tile numbered by its quotient by 5000: the 20 blocks cover the output. -/
theorem cover9 (i : S100000x64.Idx) : ∃ t : Fin cfg2.N, (cfg2.win 9).flush t = true ∧ i ∈ ((cfg2.win 9).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have htv : t.val = (i 0).val / 5000 := rfl
  refine ⟨t, flush2_9 t, ?_⟩
  rw [mem_blk9]
  obtain ⟨e00, e01, e10, e11, e20, e21, e30, e31, e40, e41, e50, e51, e60, e61, e70, e71, e80, e81, e90, e91⟩ := idx t
  intro a
  match a with
  | ⟨0, _⟩ =>
    show win2_9.index t (0 : Fin 2) * 5000 ≤ (i 0).val ∧ (i 0).val < win2_9.index t (0 : Fin 2) * 5000 + 5000
    rw [e90, htv]; omega
  | ⟨1, _⟩ =>
    show win2_9.index t (1 : Fin 2) * 64 ≤ (i 1).val ∧ (i 1).val < win2_9.index t (1 : Fin 2) * 64 + 64
    rw [e91]; omega

/-- After the call, output window 9's array is `proj` of the arrays the call found. -/
theorem final9 (c : Dev nD) : (dat2 V c).arrAt 9 cfg2.N = proj (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 V c).arrAt_eq_of_cover 9 _ (fun t _ => flushed9 V c t) cover9

end Cert.KernelIdeal.R2

end
-- ==== Proof.KVal.lean ====
/-
  The idealized kernel program's two results as functions of the arguments.

  The fold through @main (the contents at each segment boundary) is read backwards from the two result buffers:
  a stretch of host operations is the composition of its operations, a buffer a stretch does not write keeps its
  contents through it, a pallas_call leaves in each output array what its write-backs fold to (one function of the
  arrays it finds, by the three region modules) and leaves every other buffer as it found it. What is read at
  each boundary is stated over named stage functions: the host chains the program shares with its reference
  (the index columns, the messages, their sums and counts, the segment mean) under the same names, the
  kernel-only ones (the reciprocal counts, the statistics rows) beside them.
-/
import proofs.«168042_j17549236371683_2_alg».proof.Proof.KRun
import proofs.«168042_j17549236371683_2_alg».proof.Proof.R0Val
import proofs.«168042_j17549236371683_2_alg».proof.Proof.R1Val
import proofs.«168042_j17549236371683_2_alg».proof.Proof.R2Val
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]

/-! ## The stages, as compositions of the pure operations

Each definition applies the library's pure operations exactly as the printed statements do. The first eight are
the host chains this program shares with its reference, under the same names and of the same shapes; the
arguments are contents of the named shapes: `h` a node array, `xe` the edge features (`%arg1`), `ei` the edge
table (`%arg2`), `bt` the segment ids (`%arg3`). -/

/-- Row 0 of the edge table, flattened (`%1`: the slice `%0`, reshaped). -/
def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge table, flattened (`%3`: the slice `%2`, reshaped). -/
def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The gather's index column (`%17`, and again `%47`): row 0 with a negative index wrapped by the node count
    (`select (row0 < 0) (row0 + 100000) row0`), as a column. -/
def srcIx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (row0 ei) (broadcastInDim S1600000 ![] bcast_S_S1600000 (constantI S_ 32 0#32)))
      (addi (row0 ei) (broadcastInDim S1600000 ![] bcast_S_S1600000 (constantI S_ 32 100000#32)))
      (row0 ei))

/-- The scatters' index column (`%6`, `%22`, `%52`): row 1 as a column. -/
def dstIx (ei : (⟨S2x1600000, .i32⟩ : BufTy).Contents (Elt F)) : (⟨S1600000x1, .i32⟩ : BufTy).Contents (Elt F) :=
  broadcastInDim S1600000x1 ![0] bcast_S1600000_S1600000x1_0 (row1 ei)

/-- The messages (`%20`, `%50`): @relu of the gathered source rows plus the edge features. -/
def msg (h : (⟨S100000x128, .f32⟩ : BufTy).Contents (Elt F)) (xe : (⟨S1600000x128, .f32⟩ : BufTy).Contents (Elt F))
    (ei : (⟨S2x1600000, .i32⟩ : BufTy).Contents (Elt F)) : (⟨S1600000x128, .f32⟩ : BufTy).Contents (Elt F) :=
  maximumf (addf (Host.gather gather_S100000x128_S1600000x1_S1600000x128_1_0_n_n_0_1_1128 h (srcIx ei)) xe)
    (broadcastInDim S1600000x128 ![] bcast_S_S1600000x128 (constant S_ .f32 0x00000000#32))

/-- The messages summed at their destination rows (`%23`, `%53`): the scatter-add onto zeros. -/
def aggSum (h : (⟨S100000x128, .f32⟩ : BufTy).Contents (Elt F)) (xe : (⟨S1600000x128, .f32⟩ : BufTy).Contents (Elt F))
    (ei : (⟨S2x1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIx ei) (msg h xe ei)

/-- The number of messages at each destination (`%7`): the scatter-add of ones onto zeros. -/
def cnt (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstIx ei)
    (broadcastInDim S1600000 ![] bcast_S_S1600000 (constant S_ .f32 0x3F800000#32))

/-- That count clipped below at one (`%8`: @clip of it and `1.0`; the callee converts the bound to
    its own type, the identity, and broadcasts it). -/
def clipCnt (ei : (⟨S2x1600000, .i32⟩ : BufTy).Contents (Elt F)) : (⟨S100000, .f32⟩ : BufTy).Contents (Elt F) :=
  maximumf (broadcastInDim S100000 ![] bcast_S_S100000 (id (constant S_ .f32 0x3F800000#32))) (cnt ei)

/-- The reciprocal of the clipped count, as a column (`%11`). -/
def invCnt (ei : (⟨S2x1600000, .i32⟩ : BufTy).Contents (Elt F)) : (⟨S100000x1, .f32⟩ : BufTy).Contents (Elt F) :=
  shapeCast S100000x1
    (Host.divf (broadcastInDim S100000 ![] bcast_S_S100000 (constant S_ .f32 0x3F800000#32)) (clipCnt ei))
    shapeCasts_S100000_S100000x1

/-- The column means as a row (`%31`): the table of per-tile column sums summed over its 20 rows (`%28`), over `100000.0`. -/
def muRow (s0 : (⟨S20x1x128, .f32⟩ : BufTy).Contents (Elt F)) : (⟨S1x128, .f32⟩ : BufTy).Contents (Elt F) :=
  Host.divf (Host.reduceAdd s0 (constant S_ .f32 0x00000000#32) reducesTo_S20x1x128_S1x128_d0 h_S_)
    (broadcastInDim S1x128 ![] bcast_S_S1x128 (constant S_ .f32 0x47C35000#32))

/-- The column variances as a row (`%35`): the mean of the squares minus the square of the mean. -/
def varRow (s0 s1 : (⟨S20x1x128, .f32⟩ : BufTy).Contents (Elt F)) : (⟨S1x128, .f32⟩ : BufTy).Contents (Elt F) :=
  subf
    (Host.divf (Host.reduceAdd s1 (constant S_ .f32 0x00000000#32) reducesTo_S20x1x128_S1x128_d0 h_S_)
      (broadcastInDim S1x128 ![] bcast_S_S1x128 (constant S_ .f32 0x47C35000#32)))
    (mulf (muRow s0) (muRow s0))

/-- The reciprocal standard deviations as a row (`%38`). -/
def invStd (s0 s1 : (⟨S20x1x128, .f32⟩ : BufTy).Contents (Elt F)) : (⟨S1x128, .f32⟩ : BufTy).Contents (Elt F) :=
  Host.rsqrt (addf (varRow s0 s1) (broadcastInDim S1x128 ![] bcast_S_S1x128 (constant S_ .f32 0x3727C5AC#32)))

/-- The mean of the rows of each segment (`%70` from `%59#0` and `%arg3`): the rows summed at their segment ids over
    the segment sizes clipped below at one (@clip_0). -/
def segMean (h : (⟨S100000x128, .f32⟩ : BufTy).Contents (Elt F)) (bt : (⟨S100000, .i32⟩ : BufTy).Contents (Elt F)) :
    (⟨S128x128, .f32⟩ : BufTy).Contents (Elt F) :=
  Host.divf
    (Host.scatterAdd scatter_S128x128_S100000x1_S100000x128_1_0_0_1
      (broadcastInDim S128x128 ![] bcast_S_S128x128 (constant S_ .f32 0x00000000#32))
      (broadcastInDim S100000x1 ![0] bcast_S100000_S100000x1_0 bt) h)
    (broadcastInDim S128x128 ![0, 1] bcast_S128x1_S128x128_0_1
      (broadcastInDim S128x1 ![0] bcast_S128_S128x1_0
        (maximumf (broadcastInDim S128 ![] bcast_S_S128 (id (constant S_ .f32 0x3F800000#32)))
          (Host.scatterAdd scatter_S128_S100000x1_S100000_n_0_0_1
            (broadcastInDim S128 ![] bcast_S_S128 (constant S_ .f32 0x00000000#32))
            (broadcastInDim S100000x1 ![0] bcast_S100000_S100000x1_0 bt)
            (broadcastInDim S100000 ![] bcast_S_S100000 (constant S_ .f32 0x3F800000#32))))))

/-- The first pallas_call's first output (`%27#0`): the linear layer on the aggregated messages, the reciprocal
    counts, the node features and the transposed weights. -/
def lin0 (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F)) :
    (⟨S100000x128, .f32⟩ : BufTy).Contents (Elt F) :=
  R0.lin (aggSum x xe ei) (invCnt ei) x
    (transpose S128x128 [1, 0] Wl0 transposes_S128x128_S128x128_1_0) (transpose S128x128 [1, 0] Wr0 transposes_S128x128_S128x128_1_0)
    (shapeCast S1x128 bl0 shapeCasts_S128_S1x128)

/-- Its second output (`%27#1`): the per-tile column sums. -/
def sums0 (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F)) :
    (⟨S20x1x128, .f32⟩ : BufTy).Contents (Elt F) :=
  R0.colSums (aggSum x xe ei) (invCnt ei) x
    (transpose S128x128 [1, 0] Wl0 transposes_S128x128_S128x128_1_0) (transpose S128x128 [1, 0] Wr0 transposes_S128x128_S128x128_1_0)
    (shapeCast S1x128 bl0 shapeCasts_S128_S1x128)

/-- Its third output (`%27#2`): the per-tile column sums of squares. -/
def sqs0 (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F)) :
    (⟨S20x1x128, .f32⟩ : BufTy).Contents (Elt F) :=
  R0.colSqSums (aggSum x xe ei) (invCnt ei) x
    (transpose S128x128 [1, 0] Wl0 transposes_S128x128_S128x128_1_0) (transpose S128x128 [1, 0] Wr0 transposes_S128x128_S128x128_1_0)
    (shapeCast S1x128 bl0 shapeCasts_S128_S1x128)

/-- The second pallas_call's output (`%41`): the first layer normalized with the statistics rows, scaled, shifted
    and rectified. -/
def act0 (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F))
    (g b : (⟨S128, .f32⟩ : BufTy).Contents (Elt F)) : (⟨S100000x128, .f32⟩ : BufTy).Contents (Elt F) :=
  R1.bnRelu (lin0 x xe ei Wl0 bl0 Wr0) (shapeCast S1x128 g shapeCasts_S128_S1x128) (shapeCast S1x128 b shapeCasts_S128_S1x128)
    (muRow (sums0 x xe ei Wl0 bl0 Wr0)) (invStd (sums0 x xe ei Wl0 bl0 Wr0) (sqs0 x xe ei Wl0 bl0 Wr0))

/-- The third pallas_call's first output (`%59#0`): the second linear layer. -/
def lin1 (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F))
    (Wl1 : (⟨S128x128, .f32⟩ : BufTy).Contents (Elt F)) (bl1 : (⟨S128, .f32⟩ : BufTy).Contents (Elt F))
    (Wr1 : (⟨S128x128, .f32⟩ : BufTy).Contents (Elt F)) (g b : (⟨S128, .f32⟩ : BufTy).Contents (Elt F))
    (Wp : (⟨S64x128, .f32⟩ : BufTy).Contents (Elt F)) (bp : (⟨S64, .f32⟩ : BufTy).Contents (Elt F)) :
    (⟨S100000x128, .f32⟩ : BufTy).Contents (Elt F) :=
  R2.lin (aggSum (act0 x xe ei Wl0 bl0 Wr0 g b) xe ei) (invCnt ei) (act0 x xe ei Wl0 bl0 Wr0 g b)
    (transpose S128x128 [1, 0] Wl1 transposes_S128x128_S128x128_1_0) (transpose S128x128 [1, 0] Wr1 transposes_S128x128_S128x128_1_0)
    (shapeCast S1x128 bl1 shapeCasts_S128_S1x128)
    (transpose S128x64 [1, 0] Wp transposes_S64x128_S128x64_1_0) (shapeCast S1x64 bp shapeCasts_S64_S1x64)

/-- Its second output (`%59#1`), @main's first result: the projection. -/
def kOut (x : (⟨S100000x128, .f32⟩ : BufTy).Contents (Elt F)) (xe : (⟨S1600000x128, .f32⟩ : BufTy).Contents (Elt F))
    (ei : (⟨S2x1600000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F))
    (Wl1 : (⟨S128x128, .f32⟩ : BufTy).Contents (Elt F)) (bl1 : (⟨S128, .f32⟩ : BufTy).Contents (Elt F))
    (Wr1 : (⟨S128x128, .f32⟩ : BufTy).Contents (Elt F)) (g b : (⟨S128, .f32⟩ : BufTy).Contents (Elt F))
    (Wp : (⟨S64x128, .f32⟩ : BufTy).Contents (Elt F)) (bp : (⟨S64, .f32⟩ : BufTy).Contents (Elt F)) :
    (⟨S100000x64, .f32⟩ : BufTy).Contents (Elt F) :=
  R2.proj (aggSum (act0 x xe ei Wl0 bl0 Wr0 g b) xe ei) (invCnt ei) (act0 x xe ei Wl0 bl0 Wr0 g b)
    (transpose S128x128 [1, 0] Wl1 transposes_S128x128_S128x128_1_0) (transpose S128x128 [1, 0] Wr1 transposes_S128x128_S128x128_1_0)
    (shapeCast S1x128 bl1 shapeCasts_S128_S1x128)
    (transpose S128x64 [1, 0] Wp transposes_S64x128_S128x64_1_0) (shapeCast S1x64 bp shapeCasts_S64_S1x64)

/-- @main's second result (`%70`): the segment mean of the second linear layer. -/
def kG (x : (⟨S100000x128, .f32⟩ : BufTy).Contents (Elt F)) (xe : (⟨S1600000x128, .f32⟩ : BufTy).Contents (Elt F))
    (ei : (⟨S2x1600000, .i32⟩ : BufTy).Contents (Elt F)) (bt : (⟨S100000, .i32⟩ : BufTy).Contents (Elt F)) (Wl0 : (⟨S128x128, .f32⟩ : BufTy).Contents (Elt F))
    (bl0 : (⟨S128, .f32⟩ : BufTy).Contents (Elt F)) (Wr0 : (⟨S128x128, .f32⟩ : BufTy).Contents (Elt F))
    (Wl1 : (⟨S128x128, .f32⟩ : BufTy).Contents (Elt F)) (bl1 : (⟨S128, .f32⟩ : BufTy).Contents (Elt F))
    (Wr1 : (⟨S128x128, .f32⟩ : BufTy).Contents (Elt F)) (g b : (⟨S128, .f32⟩ : BufTy).Contents (Elt F))
    (Wp : (⟨S64x128, .f32⟩ : BufTy).Contents (Elt F)) (bp : (⟨S64, .f32⟩ : BufTy).Contents (Elt F)) :
    (⟨S128x128, .f32⟩ : BufTy).Contents (Elt F) :=
  segMean (lin1 x xe ei Wl0 bl0 Wr0 Wl1 bl1 Wr1 g b Wp bp) bt

/-! ## A stretch keeps what it does not write -/

/-- The buffers the operations of `hostOps0` write. -/
abbrev hostOps0_W : List (Ref sig .tc) := [main_v0, main_v1, main_v2, main_v3, main_cst, main_v4, main_cst_0, main_v5, main_v6, main_v7, main_cst_1]
theorem hostOps0_writes : (hostOps0 : List (HloOp τ sig (Elt F))).Forall fun op => op.writes ⊆ (hostOps0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps0 (V : Valuation τ sig (Elt F)) (r : Ref sig .tc) (h : r ∉ hostOps0_W) :
    after hostOps0 V (Proc.devRef .tc r) = V (Proc.devRef .tc r) :=
  after_of_writes_sub hostOps0 V hostOps0_writes h

/-- The buffers the operations of `hostOps0_1` write. -/
abbrev hostOps0_1_W : List (Ref sig .tc) := [main_call0_v0, main_call0_v1, main_v8]
theorem hostOps0_1_writes : (hostOps0_1 : List (HloOp τ sig (Elt F))).Forall fun op => op.writes ⊆ (hostOps0_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps0_1 (V : Valuation τ sig (Elt F)) (r : Ref sig .tc) (h : r ∉ hostOps0_1_W) :
    after hostOps0_1 V (Proc.devRef .tc r) = V (Proc.devRef .tc r) :=
  after_of_writes_sub hostOps0_1 V hostOps0_1_writes h

/-- The buffers the operations of `hostOps0_2` write. -/
abbrev hostOps0_2_W : List (Ref sig .tc) := [main_cst_2, main_v9, main_v10, main_v11, main_c, main_v12, main_v13, main_c_3, main_v14, main_v15, main_v16, main_v17, main_v18, main_v19]
theorem hostOps0_2_writes : (hostOps0_2 : List (HloOp τ sig (Elt F))).Forall fun op => op.writes ⊆ (hostOps0_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps0_2 (V : Valuation τ sig (Elt F)) (r : Ref sig .tc) (h : r ∉ hostOps0_2_W) :
    after hostOps0_2 V (Proc.devRef .tc r) = V (Proc.devRef .tc r) :=
  after_of_writes_sub hostOps0_2 V hostOps0_2_writes h

/-- The buffers the operations of `hostOps0_3` write. -/
abbrev hostOps0_3_W : List (Ref sig .tc) := [main_call1_cst, main_call1_v0, main_v20]
theorem hostOps0_3_writes : (hostOps0_3 : List (HloOp τ sig (Elt F))).Forall fun op => op.writes ⊆ (hostOps0_3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps0_3 (V : Valuation τ sig (Elt F)) (r : Ref sig .tc) (h : r ∉ hostOps0_3_W) :
    after hostOps0_3 V (Proc.devRef .tc r) = V (Proc.devRef .tc r) :=
  after_of_writes_sub hostOps0_3 V hostOps0_3_writes h

/-- The buffers the operations of `hostOps0_4` write. -/
abbrev hostOps0_4_W : List (Ref sig .tc) := [main_cst_4, main_v21, main_v22, main_v23, main_v24, main_v25, main_v26]
theorem hostOps0_4_writes : (hostOps0_4 : List (HloOp τ sig (Elt F))).Forall fun op => op.writes ⊆ (hostOps0_4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps0_4 (V : Valuation τ sig (Elt F)) (r : Ref sig .tc) (h : r ∉ hostOps0_4_W) :
    after hostOps0_4 V (Proc.devRef .tc r) = V (Proc.devRef .tc r) :=
  after_of_writes_sub hostOps0_4 V hostOps0_4_writes h

/-- The buffers the operations of `hostOps1` write. -/
abbrev hostOps1_W : List (Ref sig .tc) := [main_cst_5, main_v28, main_cst_6, main_v29, main_cst_7, main_v30, main_v31, main_cst_8, main_v32, main_v33, main_v34, main_v35, main_cst_9, main_v36, main_v37, main_v38, main_v39, main_v40]
theorem hostOps1_writes : (hostOps1 : List (HloOp τ sig (Elt F))).Forall fun op => op.writes ⊆ (hostOps1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps1 (V : Valuation τ sig (Elt F)) (r : Ref sig .tc) (h : r ∉ hostOps1_W) :
    after hostOps1 V (Proc.devRef .tc r) = V (Proc.devRef .tc r) :=
  after_of_writes_sub hostOps1 V hostOps1_writes h

/-- The buffers the operations of `hostOps2` write. -/
abbrev hostOps2_W : List (Ref sig .tc) := [main_c_10, main_v42, main_v43, main_c_11, main_v44, main_v45, main_v46, main_v47, main_v48, main_v49]
theorem hostOps2_writes : (hostOps2 : List (HloOp τ sig (Elt F))).Forall fun op => op.writes ⊆ (hostOps2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps2 (V : Valuation τ sig (Elt F)) (r : Ref sig .tc) (h : r ∉ hostOps2_W) :
    after hostOps2 V (Proc.devRef .tc r) = V (Proc.devRef .tc r) :=
  after_of_writes_sub hostOps2 V hostOps2_writes h

/-- The buffers the operations of `hostOps2_1` write. -/
abbrev hostOps2_1_W : List (Ref sig .tc) := [main_call2_cst, main_call2_v0, main_v50]
theorem hostOps2_1_writes : (hostOps2_1 : List (HloOp τ sig (Elt F))).Forall fun op => op.writes ⊆ (hostOps2_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps2_1 (V : Valuation τ sig (Elt F)) (r : Ref sig .tc) (h : r ∉ hostOps2_1_W) :
    after hostOps2_1 V (Proc.devRef .tc r) = V (Proc.devRef .tc r) :=
  after_of_writes_sub hostOps2_1 V hostOps2_1_writes h

/-- The buffers the operations of `hostOps2_2` write. -/
abbrev hostOps2_2_W : List (Ref sig .tc) := [main_cst_12, main_v51, main_v52, main_v53, main_v54, main_v55, main_v56, main_v57, main_v58]
theorem hostOps2_2_writes : (hostOps2_2 : List (HloOp τ sig (Elt F))).Forall fun op => op.writes ⊆ (hostOps2_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps2_2 (V : Valuation τ sig (Elt F)) (r : Ref sig .tc) (h : r ∉ hostOps2_2_W) :
    after hostOps2_2 V (Proc.devRef .tc r) = V (Proc.devRef .tc r) :=
  after_of_writes_sub hostOps2_2 V hostOps2_2_writes h

/-- The buffers the operations of `hostOps3` write. -/
abbrev hostOps3_W : List (Ref sig .tc) := [main_cst_13, main_v60, main_v61, main_v62, main_cst_14, main_v63, main_cst_15, main_v64, main_v65, main_v66, main_cst_16]
theorem hostOps3_writes : (hostOps3 : List (HloOp τ sig (Elt F))).Forall fun op => op.writes ⊆ (hostOps3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps3 (V : Valuation τ sig (Elt F)) (r : Ref sig .tc) (h : r ∉ hostOps3_W) :
    after hostOps3 V (Proc.devRef .tc r) = V (Proc.devRef .tc r) :=
  after_of_writes_sub hostOps3 V hostOps3_writes h

/-- The buffers the operations of `hostOps3_1` write. -/
abbrev hostOps3_1_W : List (Ref sig .tc) := [main_call3_v0, main_call3_v1, main_v67]
theorem hostOps3_1_writes : (hostOps3_1 : List (HloOp τ sig (Elt F))).Forall fun op => op.writes ⊆ (hostOps3_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps3_1 (V : Valuation τ sig (Elt F)) (r : Ref sig .tc) (h : r ∉ hostOps3_1_W) :
    after hostOps3_1 V (Proc.devRef .tc r) = V (Proc.devRef .tc r) :=
  after_of_writes_sub hostOps3_1 V hostOps3_1_writes h

/-- The buffers the operations of `hostOps3_2` write. -/
abbrev hostOps3_2_W : List (Ref sig .tc) := [main_v68, main_v69, main_v70]
theorem hostOps3_2_writes : (hostOps3_2 : List (HloOp τ sig (Elt F))).Forall fun op => op.writes ⊆ (hostOps3_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem keep_hostOps3_2 (V : Valuation τ sig (Elt F)) (r : Ref sig .tc) (h : r ∉ hostOps3_2_W) :
    after hostOps3_2 V (Proc.devRef .tc r) = V (Proc.devRef .tc r) :=
  after_of_writes_sub hostOps3_2 V hostOps3_2_writes h

/-! ## The fold, boundary by boundary -/

section Fold

variable (m : (ℓ : Loc nD τ sig) → Buf (Elt F) ℓ) (ρ : Dev nD → PrngReg) (c : Dev nD)

/-- A buffer the first five stretches do not write holds at the first pallas_call's entry what it held at launch. -/
theorem W5_pass (r : Ref sig .tc) (h0 : r ∉ hostOps0_W) (h1 : r ∉ hostOps0_1_W) (h2 : r ∉ hostOps0_2_W) (h3 : r ∉ hostOps0_3_W)
    (h4 : r ∉ hostOps0_4_W) : W5 m ρ c (Proc.devRef .tc r) = W0 m ρ c (Proc.devRef .tc r) :=
  (keep_hostOps0_4 (W4 m ρ c) r h4).trans <| (keep_hostOps0_3 (W3 m ρ c) r h3).trans <| (keep_hostOps0_2 (W2 m ρ c) r h2).trans <|
    (keep_hostOps0_1 (W1 m ρ c) r h1).trans (keep_hostOps0 (W0 m ρ c) r h0)

/-- An input array of the first pallas_call holds at its exit what it held at its entry. -/
theorem W6_in (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))

/-- A buffer the stretch between the first two pallas_calls does not write. -/
theorem W7_pass (r : Ref sig .tc) (h : r ∉ hostOps1_W) : W7 m ρ c (Proc.devRef .tc r) = W6 m ρ c (Proc.devRef .tc r) :=
  keep_hostOps1 (W6 m ρ c) r h

/-- A buffer the three stretches before the third pallas_call do not write. -/
theorem W11_pass (r : Ref sig .tc) (h0 : r ∉ hostOps2_W) (h1 : r ∉ hostOps2_1_W) (h2 : r ∉ hostOps2_2_W) :
    W11 m ρ c (Proc.devRef .tc r) = W8 m ρ c (Proc.devRef .tc r) :=
  (keep_hostOps2_2 (W10 m ρ c) r h2).trans <| (keep_hostOps2_1 (W9 m ρ c) r h1).trans (keep_hostOps2 (W8 m ρ c) r h0)

/-- A buffer the last three stretches do not write. -/
theorem W15_pass (r : Ref sig .tc) (h0 : r ∉ hostOps3_W) (h1 : r ∉ hostOps3_1_W) (h2 : r ∉ hostOps3_2_W) :
    W15 m ρ c (Proc.devRef .tc r) = W12 m ρ c (Proc.devRef .tc r) :=
  (keep_hostOps3_2 (W14 m ρ c) r h2).trans <| (keep_hostOps3_1 (W13 m ρ c) r h1).trans (keep_hostOps3 (W12 m ρ c) r h0)

/-! ### At the first pallas_call's entry -/

set_option maxHeartbeats 4000000 in
theorem W5_v23 : W5 m ρ c (Proc.devRef .tc main_v23) = aggSum (m ((c.tc : Thread nD τ).loc main_arg0)) (m ((c.tc : Thread nD τ).loc main_arg1)) (m ((c.tc : Thread nD τ).loc main_arg2)) := by
  after_results_simp
  all_goals rfl

set_option maxHeartbeats 4000000 in
theorem W5_v11 : W5 m ρ c (Proc.devRef .tc main_v11) = invCnt (m ((c.tc : Thread nD τ).loc main_arg2)) := by
  after_results_simp
  all_goals rfl

set_option maxHeartbeats 4000000 in
theorem W5_v24 : W5 m ρ c (Proc.devRef .tc main_v24) = transpose S128x128 [1, 0] (m ((c.tc : Thread nD τ).loc main_arg4)) transposes_S128x128_S128x128_1_0 := by
  after_results_simp
  all_goals rfl

set_option maxHeartbeats 4000000 in
theorem W5_v25 : W5 m ρ c (Proc.devRef .tc main_v25) = transpose S128x128 [1, 0] (m ((c.tc : Thread nD τ).loc main_arg6)) transposes_S128x128_S128x128_1_0 := by
  after_results_simp
  all_goals rfl

set_option maxHeartbeats 4000000 in
theorem W5_v26 : W5 m ρ c (Proc.devRef .tc main_v26) = shapeCast S1x128 (m ((c.tc : Thread nD τ).loc main_arg5)) shapeCasts_S128_S1x128 := by
  after_results_simp
  all_goals rfl

set_option maxHeartbeats 4000000 in
theorem W5_v1 : W5 m ρ c (Proc.devRef .tc main_v1) = row0 (m ((c.tc : Thread nD τ).loc main_arg2)) := by
  after_results_simp
  all_goals rfl

set_option maxHeartbeats 4000000 in
theorem W5_v3 : W5 m ρ c (Proc.devRef .tc main_v3) = row1 (m ((c.tc : Thread nD τ).loc main_arg2)) := by
  after_results_simp
  all_goals rfl

theorem W5_arg0 : W5 m ρ c (Proc.devRef .tc main_arg0) = m ((c.tc : Thread nD τ).loc main_arg0) :=
  W5_pass m ρ c main_arg0 (by decide) (by decide) (by decide) (by decide) (by decide)

theorem W5_arg1 : W5 m ρ c (Proc.devRef .tc main_arg1) = m ((c.tc : Thread nD τ).loc main_arg1) :=
  W5_pass m ρ c main_arg1 (by decide) (by decide) (by decide) (by decide) (by decide)

theorem W5_arg3 : W5 m ρ c (Proc.devRef .tc main_arg3) = m ((c.tc : Thread nD τ).loc main_arg3) :=
  W5_pass m ρ c main_arg3 (by decide) (by decide) (by decide) (by decide) (by decide)

theorem W5_arg7 : W5 m ρ c (Proc.devRef .tc main_arg7) = m ((c.tc : Thread nD τ).loc main_arg7) :=
  W5_pass m ρ c main_arg7 (by decide) (by decide) (by decide) (by decide) (by decide)

theorem W5_arg8 : W5 m ρ c (Proc.devRef .tc main_arg8) = m ((c.tc : Thread nD τ).loc main_arg8) :=
  W5_pass m ρ c main_arg8 (by decide) (by decide) (by decide) (by decide) (by decide)

theorem W5_arg9 : W5 m ρ c (Proc.devRef .tc main_arg9) = m ((c.tc : Thread nD τ).loc main_arg9) :=
  W5_pass m ρ c main_arg9 (by decide) (by decide) (by decide) (by decide) (by decide)

theorem W5_arg10 : W5 m ρ c (Proc.devRef .tc main_arg10) = m ((c.tc : Thread nD τ).loc main_arg10) :=
  W5_pass m ρ c main_arg10 (by decide) (by decide) (by decide) (by decide) (by decide)

theorem W5_arg11 : W5 m ρ c (Proc.devRef .tc main_arg11) = m ((c.tc : Thread nD τ).loc main_arg11) :=
  W5_pass m ρ c main_arg11 (by decide) (by decide) (by decide) (by decide) (by decide)

theorem W5_arg12 : W5 m ρ c (Proc.devRef .tc main_arg12) = m ((c.tc : Thread nD τ).loc main_arg12) :=
  W5_pass m ρ c main_arg12 (by decide) (by decide) (by decide) (by decide) (by decide)

theorem W5_arg13 : W5 m ρ c (Proc.devRef .tc main_arg13) = m ((c.tc : Thread nD τ).loc main_arg13) :=
  W5_pass m ρ c main_arg13 (by decide) (by decide) (by decide) (by decide) (by decide)

/-! ### At the first pallas_call's exit -/

set_option maxHeartbeats 4000000 in
theorem W6_v27_0 : W6 m ρ c (Proc.devRef .tc main_v27_0) = lin0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  have h := (W6_arr m ρ c 6).trans (R0.final6 (V5 m ρ) c)
  have e0 : V5 m ρ c (Pipeline.arrRef spec0 0) = aggSum (m ((c.tc : Thread nD τ).loc main_arg0)) (m ((c.tc : Thread nD τ).loc main_arg1)) (m ((c.tc : Thread nD τ).loc main_arg2)) := W5_v23 m ρ c
  have e1 : V5 m ρ c (Pipeline.arrRef spec0 1) = invCnt (m ((c.tc : Thread nD τ).loc main_arg2)) := W5_v11 m ρ c
  have e2 : V5 m ρ c (Pipeline.arrRef spec0 2) = m ((c.tc : Thread nD τ).loc main_arg0) := W5_arg0 m ρ c
  have e3 : V5 m ρ c (Pipeline.arrRef spec0 3) = transpose S128x128 [1, 0] (m ((c.tc : Thread nD τ).loc main_arg4)) transposes_S128x128_S128x128_1_0 := W5_v24 m ρ c
  have e4 : V5 m ρ c (Pipeline.arrRef spec0 4) = transpose S128x128 [1, 0] (m ((c.tc : Thread nD τ).loc main_arg6)) transposes_S128x128_S128x128_1_0 := W5_v25 m ρ c
  have e5 : V5 m ρ c (Pipeline.arrRef spec0 5) = shapeCast S1x128 (m ((c.tc : Thread nD τ).loc main_arg5)) shapeCasts_S128_S1x128 := W5_v26 m ρ c
  rw [e0, e1, e2, e3, e4, e5] at h
  exact h

set_option maxHeartbeats 4000000 in
theorem W6_v27_1 : W6 m ρ c (Proc.devRef .tc main_v27_1) = sums0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  have h := (W6_arr m ρ c 7).trans (R0.final7 (V5 m ρ) c)
  have e0 : V5 m ρ c (Pipeline.arrRef spec0 0) = aggSum (m ((c.tc : Thread nD τ).loc main_arg0)) (m ((c.tc : Thread nD τ).loc main_arg1)) (m ((c.tc : Thread nD τ).loc main_arg2)) := W5_v23 m ρ c
  have e1 : V5 m ρ c (Pipeline.arrRef spec0 1) = invCnt (m ((c.tc : Thread nD τ).loc main_arg2)) := W5_v11 m ρ c
  have e2 : V5 m ρ c (Pipeline.arrRef spec0 2) = m ((c.tc : Thread nD τ).loc main_arg0) := W5_arg0 m ρ c
  have e3 : V5 m ρ c (Pipeline.arrRef spec0 3) = transpose S128x128 [1, 0] (m ((c.tc : Thread nD τ).loc main_arg4)) transposes_S128x128_S128x128_1_0 := W5_v24 m ρ c
  have e4 : V5 m ρ c (Pipeline.arrRef spec0 4) = transpose S128x128 [1, 0] (m ((c.tc : Thread nD τ).loc main_arg6)) transposes_S128x128_S128x128_1_0 := W5_v25 m ρ c
  have e5 : V5 m ρ c (Pipeline.arrRef spec0 5) = shapeCast S1x128 (m ((c.tc : Thread nD τ).loc main_arg5)) shapeCasts_S128_S1x128 := W5_v26 m ρ c
  rw [e0, e1, e2, e3, e4, e5] at h
  exact h

set_option maxHeartbeats 4000000 in
theorem W6_v27_2 : W6 m ρ c (Proc.devRef .tc main_v27_2) = sqs0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  have h := (W6_arr m ρ c 8).trans (R0.final8 (V5 m ρ) c)
  have e0 : V5 m ρ c (Pipeline.arrRef spec0 0) = aggSum (m ((c.tc : Thread nD τ).loc main_arg0)) (m ((c.tc : Thread nD τ).loc main_arg1)) (m ((c.tc : Thread nD τ).loc main_arg2)) := W5_v23 m ρ c
  have e1 : V5 m ρ c (Pipeline.arrRef spec0 1) = invCnt (m ((c.tc : Thread nD τ).loc main_arg2)) := W5_v11 m ρ c
  have e2 : V5 m ρ c (Pipeline.arrRef spec0 2) = m ((c.tc : Thread nD τ).loc main_arg0) := W5_arg0 m ρ c
  have e3 : V5 m ρ c (Pipeline.arrRef spec0 3) = transpose S128x128 [1, 0] (m ((c.tc : Thread nD τ).loc main_arg4)) transposes_S128x128_S128x128_1_0 := W5_v24 m ρ c
  have e4 : V5 m ρ c (Pipeline.arrRef spec0 4) = transpose S128x128 [1, 0] (m ((c.tc : Thread nD τ).loc main_arg6)) transposes_S128x128_S128x128_1_0 := W5_v25 m ρ c
  have e5 : V5 m ρ c (Pipeline.arrRef spec0 5) = shapeCast S1x128 (m ((c.tc : Thread nD τ).loc main_arg5)) shapeCasts_S128_S1x128 := W5_v26 m ρ c
  rw [e0, e1, e2, e3, e4, e5] at h
  exact h

theorem W6_v1 : W6 m ρ c (Proc.devRef .tc main_v1) = row0 (m ((c.tc : Thread nD τ).loc main_arg2)) :=
  (W6_of_ne m ρ c main_v1 (by decide)).trans (W5_v1 m ρ c)

theorem W6_v3 : W6 m ρ c (Proc.devRef .tc main_v3) = row1 (m ((c.tc : Thread nD τ).loc main_arg2)) :=
  (W6_of_ne m ρ c main_v3 (by decide)).trans (W5_v3 m ρ c)

theorem W6_v11 : W6 m ρ c (Proc.devRef .tc main_v11) = invCnt (m ((c.tc : Thread nD τ).loc main_arg2)) :=
  (W6_in m ρ c 1 rfl).trans (W5_v11 m ρ c)

theorem W6_arg1 : W6 m ρ c (Proc.devRef .tc main_arg1) = m ((c.tc : Thread nD τ).loc main_arg1) :=
  (W6_of_ne m ρ c main_arg1 (by decide)).trans (W5_arg1 m ρ c)

theorem W6_arg3 : W6 m ρ c (Proc.devRef .tc main_arg3) = m ((c.tc : Thread nD τ).loc main_arg3) :=
  (W6_of_ne m ρ c main_arg3 (by decide)).trans (W5_arg3 m ρ c)

theorem W6_arg7 : W6 m ρ c (Proc.devRef .tc main_arg7) = m ((c.tc : Thread nD τ).loc main_arg7) :=
  (W6_of_ne m ρ c main_arg7 (by decide)).trans (W5_arg7 m ρ c)

theorem W6_arg8 : W6 m ρ c (Proc.devRef .tc main_arg8) = m ((c.tc : Thread nD τ).loc main_arg8) :=
  (W6_of_ne m ρ c main_arg8 (by decide)).trans (W5_arg8 m ρ c)

theorem W6_arg9 : W6 m ρ c (Proc.devRef .tc main_arg9) = m ((c.tc : Thread nD τ).loc main_arg9) :=
  (W6_of_ne m ρ c main_arg9 (by decide)).trans (W5_arg9 m ρ c)

theorem W6_arg10 : W6 m ρ c (Proc.devRef .tc main_arg10) = m ((c.tc : Thread nD τ).loc main_arg10) :=
  (W6_of_ne m ρ c main_arg10 (by decide)).trans (W5_arg10 m ρ c)

theorem W6_arg11 : W6 m ρ c (Proc.devRef .tc main_arg11) = m ((c.tc : Thread nD τ).loc main_arg11) :=
  (W6_of_ne m ρ c main_arg11 (by decide)).trans (W5_arg11 m ρ c)

theorem W6_arg12 : W6 m ρ c (Proc.devRef .tc main_arg12) = m ((c.tc : Thread nD τ).loc main_arg12) :=
  (W6_of_ne m ρ c main_arg12 (by decide)).trans (W5_arg12 m ρ c)

theorem W6_arg13 : W6 m ρ c (Proc.devRef .tc main_arg13) = m ((c.tc : Thread nD τ).loc main_arg13) :=
  (W6_of_ne m ρ c main_arg13 (by decide)).trans (W5_arg13 m ρ c)

/-! ### At the second pallas_call's entry -/

set_option maxHeartbeats 4000000 in
theorem W7_v31 : W7 m ρ c (Proc.devRef .tc main_v31) = muRow (sums0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) := by
  after_results_simp
  all_goals simp only [W6_v27_1 m ρ c]
  all_goals rfl

set_option maxHeartbeats 4000000 in
theorem W7_v38 : W7 m ρ c (Proc.devRef .tc main_v38) = invStd (sums0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) (sqs0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) := by
  after_results_simp
  all_goals simp only [W6_v27_1 m ρ c, W6_v27_2 m ρ c]
  all_goals rfl

set_option maxHeartbeats 4000000 in
theorem W7_v39 : W7 m ρ c (Proc.devRef .tc main_v39) = shapeCast S1x128 (m ((c.tc : Thread nD τ).loc main_arg10)) shapeCasts_S128_S1x128 := by
  after_results_simp
  all_goals simp only [W6_arg10 m ρ c]
  all_goals rfl

set_option maxHeartbeats 4000000 in
theorem W7_v40 : W7 m ρ c (Proc.devRef .tc main_v40) = shapeCast S1x128 (m ((c.tc : Thread nD τ).loc main_arg11)) shapeCasts_S128_S1x128 := by
  after_results_simp
  all_goals simp only [W6_arg11 m ρ c]
  all_goals rfl

theorem W7_v27_0 : W7 m ρ c (Proc.devRef .tc main_v27_0) = lin0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) :=
  (W7_pass m ρ c main_v27_0 (by decide)).trans (W6_v27_0 m ρ c)

theorem W7_v1 : W7 m ρ c (Proc.devRef .tc main_v1) = row0 (m ((c.tc : Thread nD τ).loc main_arg2)) :=
  (W7_pass m ρ c main_v1 (by decide)).trans (W6_v1 m ρ c)

theorem W7_v3 : W7 m ρ c (Proc.devRef .tc main_v3) = row1 (m ((c.tc : Thread nD τ).loc main_arg2)) :=
  (W7_pass m ρ c main_v3 (by decide)).trans (W6_v3 m ρ c)

theorem W7_v11 : W7 m ρ c (Proc.devRef .tc main_v11) = invCnt (m ((c.tc : Thread nD τ).loc main_arg2)) :=
  (W7_pass m ρ c main_v11 (by decide)).trans (W6_v11 m ρ c)

theorem W7_arg1 : W7 m ρ c (Proc.devRef .tc main_arg1) = m ((c.tc : Thread nD τ).loc main_arg1) :=
  (W7_pass m ρ c main_arg1 (by decide)).trans (W6_arg1 m ρ c)

theorem W7_arg3 : W7 m ρ c (Proc.devRef .tc main_arg3) = m ((c.tc : Thread nD τ).loc main_arg3) :=
  (W7_pass m ρ c main_arg3 (by decide)).trans (W6_arg3 m ρ c)

theorem W7_arg7 : W7 m ρ c (Proc.devRef .tc main_arg7) = m ((c.tc : Thread nD τ).loc main_arg7) :=
  (W7_pass m ρ c main_arg7 (by decide)).trans (W6_arg7 m ρ c)

theorem W7_arg8 : W7 m ρ c (Proc.devRef .tc main_arg8) = m ((c.tc : Thread nD τ).loc main_arg8) :=
  (W7_pass m ρ c main_arg8 (by decide)).trans (W6_arg8 m ρ c)

theorem W7_arg9 : W7 m ρ c (Proc.devRef .tc main_arg9) = m ((c.tc : Thread nD τ).loc main_arg9) :=
  (W7_pass m ρ c main_arg9 (by decide)).trans (W6_arg9 m ρ c)

theorem W7_arg12 : W7 m ρ c (Proc.devRef .tc main_arg12) = m ((c.tc : Thread nD τ).loc main_arg12) :=
  (W7_pass m ρ c main_arg12 (by decide)).trans (W6_arg12 m ρ c)

theorem W7_arg13 : W7 m ρ c (Proc.devRef .tc main_arg13) = m ((c.tc : Thread nD τ).loc main_arg13) :=
  (W7_pass m ρ c main_arg13 (by decide)).trans (W6_arg13 m ρ c)

/-! ### At the second pallas_call's exit -/

set_option maxHeartbeats 4000000 in
theorem W8_v41 : W8 m ρ c (Proc.devRef .tc main_v41) = act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) := by
  have h := (W8_arr m ρ c 5).trans (R1.final5 (V7 m ρ) c)
  have e0 : V7 m ρ c (Pipeline.arrRef spec1 0) = lin0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := W7_v27_0 m ρ c
  have e1 : V7 m ρ c (Pipeline.arrRef spec1 1) = shapeCast S1x128 (m ((c.tc : Thread nD τ).loc main_arg10)) shapeCasts_S128_S1x128 := W7_v39 m ρ c
  have e2 : V7 m ρ c (Pipeline.arrRef spec1 2) = shapeCast S1x128 (m ((c.tc : Thread nD τ).loc main_arg11)) shapeCasts_S128_S1x128 := W7_v40 m ρ c
  have e3 : V7 m ρ c (Pipeline.arrRef spec1 3) = muRow (sums0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) := W7_v31 m ρ c
  have e4 : V7 m ρ c (Pipeline.arrRef spec1 4) = invStd (sums0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) (sqs0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) := W7_v38 m ρ c
  rw [e0, e1, e2, e3, e4] at h
  exact h

theorem W8_v1 : W8 m ρ c (Proc.devRef .tc main_v1) = row0 (m ((c.tc : Thread nD τ).loc main_arg2)) :=
  (W8_of_ne m ρ c main_v1 (by decide)).trans (W7_v1 m ρ c)

theorem W8_v3 : W8 m ρ c (Proc.devRef .tc main_v3) = row1 (m ((c.tc : Thread nD τ).loc main_arg2)) :=
  (W8_of_ne m ρ c main_v3 (by decide)).trans (W7_v3 m ρ c)

theorem W8_v11 : W8 m ρ c (Proc.devRef .tc main_v11) = invCnt (m ((c.tc : Thread nD τ).loc main_arg2)) :=
  (W8_of_ne m ρ c main_v11 (by decide)).trans (W7_v11 m ρ c)

theorem W8_arg1 : W8 m ρ c (Proc.devRef .tc main_arg1) = m ((c.tc : Thread nD τ).loc main_arg1) :=
  (W8_of_ne m ρ c main_arg1 (by decide)).trans (W7_arg1 m ρ c)

theorem W8_arg3 : W8 m ρ c (Proc.devRef .tc main_arg3) = m ((c.tc : Thread nD τ).loc main_arg3) :=
  (W8_of_ne m ρ c main_arg3 (by decide)).trans (W7_arg3 m ρ c)

theorem W8_arg7 : W8 m ρ c (Proc.devRef .tc main_arg7) = m ((c.tc : Thread nD τ).loc main_arg7) :=
  (W8_of_ne m ρ c main_arg7 (by decide)).trans (W7_arg7 m ρ c)

theorem W8_arg8 : W8 m ρ c (Proc.devRef .tc main_arg8) = m ((c.tc : Thread nD τ).loc main_arg8) :=
  (W8_of_ne m ρ c main_arg8 (by decide)).trans (W7_arg8 m ρ c)

theorem W8_arg9 : W8 m ρ c (Proc.devRef .tc main_arg9) = m ((c.tc : Thread nD τ).loc main_arg9) :=
  (W8_of_ne m ρ c main_arg9 (by decide)).trans (W7_arg9 m ρ c)

theorem W8_arg12 : W8 m ρ c (Proc.devRef .tc main_arg12) = m ((c.tc : Thread nD τ).loc main_arg12) :=
  (W8_of_ne m ρ c main_arg12 (by decide)).trans (W7_arg12 m ρ c)

theorem W8_arg13 : W8 m ρ c (Proc.devRef .tc main_arg13) = m ((c.tc : Thread nD τ).loc main_arg13) :=
  (W8_of_ne m ρ c main_arg13 (by decide)).trans (W7_arg13 m ρ c)

/-! ### At the third pallas_call's entry -/

set_option maxHeartbeats 4000000 in
theorem W11_v53 : W11 m ρ c (Proc.devRef .tc main_v53) = aggSum (act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11))) (m ((c.tc : Thread nD τ).loc main_arg1)) (m ((c.tc : Thread nD τ).loc main_arg2)) := by
  after_results_simp
  all_goals simp only [W8_v41 m ρ c, W8_v1 m ρ c, W8_v3 m ρ c, W8_arg1 m ρ c]
  all_goals rfl

set_option maxHeartbeats 4000000 in
theorem W11_v54 : W11 m ρ c (Proc.devRef .tc main_v54) = transpose S128x128 [1, 0] (m ((c.tc : Thread nD τ).loc main_arg7)) transposes_S128x128_S128x128_1_0 := by
  after_results_simp
  all_goals simp only [W8_arg7 m ρ c]
  all_goals rfl

set_option maxHeartbeats 4000000 in
theorem W11_v55 : W11 m ρ c (Proc.devRef .tc main_v55) = transpose S128x128 [1, 0] (m ((c.tc : Thread nD τ).loc main_arg9)) transposes_S128x128_S128x128_1_0 := by
  after_results_simp
  all_goals simp only [W8_arg9 m ρ c]
  all_goals rfl

set_option maxHeartbeats 4000000 in
theorem W11_v56 : W11 m ρ c (Proc.devRef .tc main_v56) = shapeCast S1x128 (m ((c.tc : Thread nD τ).loc main_arg8)) shapeCasts_S128_S1x128 := by
  after_results_simp
  all_goals simp only [W8_arg8 m ρ c]
  all_goals rfl

set_option maxHeartbeats 4000000 in
theorem W11_v57 : W11 m ρ c (Proc.devRef .tc main_v57) = transpose S128x64 [1, 0] (m ((c.tc : Thread nD τ).loc main_arg12)) transposes_S64x128_S128x64_1_0 := by
  after_results_simp
  all_goals simp only [W8_arg12 m ρ c]
  all_goals rfl

set_option maxHeartbeats 4000000 in
theorem W11_v58 : W11 m ρ c (Proc.devRef .tc main_v58) = shapeCast S1x64 (m ((c.tc : Thread nD τ).loc main_arg13)) shapeCasts_S64_S1x64 := by
  after_results_simp
  all_goals simp only [W8_arg13 m ρ c]
  all_goals rfl

theorem W11_v11 : W11 m ρ c (Proc.devRef .tc main_v11) = invCnt (m ((c.tc : Thread nD τ).loc main_arg2)) :=
  (W11_pass m ρ c main_v11 (by decide) (by decide) (by decide)).trans (W8_v11 m ρ c)

theorem W11_v41 : W11 m ρ c (Proc.devRef .tc main_v41) = act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) :=
  (W11_pass m ρ c main_v41 (by decide) (by decide) (by decide)).trans (W8_v41 m ρ c)

theorem W11_arg3 : W11 m ρ c (Proc.devRef .tc main_arg3) = m ((c.tc : Thread nD τ).loc main_arg3) :=
  (W11_pass m ρ c main_arg3 (by decide) (by decide) (by decide)).trans (W8_arg3 m ρ c)

/-! ### At the third pallas_call's exit -/

set_option maxHeartbeats 4000000 in
theorem W12_v59_0 : W12 m ρ c (Proc.devRef .tc main_v59_0) = lin1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h := (W12_arr m ρ c 8).trans (R2.final8 (V11 m ρ) c)
  have e0 : V11 m ρ c (Pipeline.arrRef spec2 0) = aggSum (act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11))) (m ((c.tc : Thread nD τ).loc main_arg1)) (m ((c.tc : Thread nD τ).loc main_arg2)) := W11_v53 m ρ c
  have e1 : V11 m ρ c (Pipeline.arrRef spec2 1) = invCnt (m ((c.tc : Thread nD τ).loc main_arg2)) := W11_v11 m ρ c
  have e2 : V11 m ρ c (Pipeline.arrRef spec2 2) = act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) := W11_v41 m ρ c
  have e3 : V11 m ρ c (Pipeline.arrRef spec2 3) = transpose S128x128 [1, 0] (m ((c.tc : Thread nD τ).loc main_arg7)) transposes_S128x128_S128x128_1_0 := W11_v54 m ρ c
  have e4 : V11 m ρ c (Pipeline.arrRef spec2 4) = transpose S128x128 [1, 0] (m ((c.tc : Thread nD τ).loc main_arg9)) transposes_S128x128_S128x128_1_0 := W11_v55 m ρ c
  have e5 : V11 m ρ c (Pipeline.arrRef spec2 5) = shapeCast S1x128 (m ((c.tc : Thread nD τ).loc main_arg8)) shapeCasts_S128_S1x128 := W11_v56 m ρ c
  have e6 : V11 m ρ c (Pipeline.arrRef spec2 6) = transpose S128x64 [1, 0] (m ((c.tc : Thread nD τ).loc main_arg12)) transposes_S64x128_S128x64_1_0 := W11_v57 m ρ c
  have e7 : V11 m ρ c (Pipeline.arrRef spec2 7) = shapeCast S1x64 (m ((c.tc : Thread nD τ).loc main_arg13)) shapeCasts_S64_S1x64 := W11_v58 m ρ c
  rw [e0, e1, e2, e3, e4, e5, e6, e7] at h
  exact h

set_option maxHeartbeats 4000000 in
theorem W12_v59_1 : W12 m ρ c (Proc.devRef .tc main_v59_1) = kOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h := (W12_arr m ρ c 9).trans (R2.final9 (V11 m ρ) c)
  have e0 : V11 m ρ c (Pipeline.arrRef spec2 0) = aggSum (act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11))) (m ((c.tc : Thread nD τ).loc main_arg1)) (m ((c.tc : Thread nD τ).loc main_arg2)) := W11_v53 m ρ c
  have e1 : V11 m ρ c (Pipeline.arrRef spec2 1) = invCnt (m ((c.tc : Thread nD τ).loc main_arg2)) := W11_v11 m ρ c
  have e2 : V11 m ρ c (Pipeline.arrRef spec2 2) = act0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) := W11_v41 m ρ c
  have e3 : V11 m ρ c (Pipeline.arrRef spec2 3) = transpose S128x128 [1, 0] (m ((c.tc : Thread nD τ).loc main_arg7)) transposes_S128x128_S128x128_1_0 := W11_v54 m ρ c
  have e4 : V11 m ρ c (Pipeline.arrRef spec2 4) = transpose S128x128 [1, 0] (m ((c.tc : Thread nD τ).loc main_arg9)) transposes_S128x128_S128x128_1_0 := W11_v55 m ρ c
  have e5 : V11 m ρ c (Pipeline.arrRef spec2 5) = shapeCast S1x128 (m ((c.tc : Thread nD τ).loc main_arg8)) shapeCasts_S128_S1x128 := W11_v56 m ρ c
  have e6 : V11 m ρ c (Pipeline.arrRef spec2 6) = transpose S128x64 [1, 0] (m ((c.tc : Thread nD τ).loc main_arg12)) transposes_S64x128_S128x64_1_0 := W11_v57 m ρ c
  have e7 : V11 m ρ c (Pipeline.arrRef spec2 7) = shapeCast S1x64 (m ((c.tc : Thread nD τ).loc main_arg13)) shapeCasts_S64_S1x64 := W11_v58 m ρ c
  rw [e0, e1, e2, e3, e4, e5, e6, e7] at h
  exact h

theorem W12_arg3 : W12 m ρ c (Proc.devRef .tc main_arg3) = m ((c.tc : Thread nD τ).loc main_arg3) :=
  (W12_of_ne m ρ c main_arg3 (by decide)).trans (W11_arg3 m ρ c)

/-! ### At the return -/

set_option maxHeartbeats 4000000 in
theorem W15_v70 : W15 m ρ c (Proc.devRef .tc main_v70) = kG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  after_results_simp
  all_goals simp only [W12_v59_0 m ρ c, W12_arg3 m ρ c]
  all_goals rfl

theorem W15_v59_1 : W15 m ρ c (Proc.devRef .tc main_v59_1) = kOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W15_pass m ρ c main_v59_1 (by decide) (by decide) (by decide)).trans (W12_v59_1 m ρ c)

end Fold

/-! ## The run -/

/-- From any memory with zero counters every weakly fair execution of the idealized kernel program terminates with
    the projection at `kOut` and the pooled features at `kG` of the arguments' launch contents, and the fourteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59_1) = kOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v70) = kG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (W15_v59_1 m ρ c), (h c).2.1.trans (W15_v70 m ρ c), (h c).2.2⟩)
    (KRun.run_named m ρ)

end Cert.KernelIdeal.KVal

end
-- ==== Proof.PayAt.lean ====
/-
  The arithmetic of the kernel bodies read at one index, at the ideal float values, over plain vector
  variables: each stored value of a body is an expression in the entries of the vectors the body
  loaded — a row of a matrix product is a sum over the contracted coordinate, a broadcast row or
  column reads its one row or column, a format change and a shape cast to the same shape are the
  identity, a sum over the rows of a tile is a sum over the row coordinate.
-/
import proofs.«168042_j17549236371683_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Idealize.ShloMosaic Idealize.ShloMosaic.ValueIdx
open scoped BigOperators

/-! ## Layout: one column broadcast over many -/

section Layout
variable {α : Type}

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix products at an index -/

/-- The product of a `5000 × 128` by a `128 × 128` matrix onto a zero accumulator, read at `(r, j)`:
    the sum over the contracted coordinate of the products of the entries. -/
theorem matmul_128_apply {φ₁ φ₂ : FTy} (A : FVec Ideal S5000x128 φ₁) (B : FVec Ideal S128x128 φ₂)
    (r : Fin 5000) (j : Fin 128) :
    matmul (F := Ideal) dot_S5000x128_S128x128_S5000x128_1_0_0_1_n_n none A B
        (constant (F := Ideal) S5000x128 .f32 0x00000000#32) (ix2 r j)
      = ∑ k : Fin 128, A (ix2 r k) * B (ix2 k j) := by
  show FloatOps.matmul _ none A B (constant (F := Ideal) S5000x128 .f32 0x00000000#32) (ix2 r j) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 r j)
      ((contrEquiv1 _ 128 rfl rfl).symm c) = ix2 r c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 r j)
      ((contrEquiv1 _ 128 rfl rfl).symm c) = ix2 c j := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-! ## The first body: the two products, the bias, and the tile's column sums -/

/-- The first body's stored tile at `(r, j)`: the row of the scaled aggregate times the first weight
    matrix, plus the row of the features times the second, plus the bias. -/
theorem k0_pay1_apply (x0 : FVec Ideal S5000x128 .f32) (x1 : FVec Ideal S5000x1 .f32)
    (x2 : FVec Ideal S5000x128 .f32) (x3 x4 : FVec Ideal S128x128 .f32) (x5 : FVec Ideal S1x128 .f32)
    (r : Fin 5000) (j : Fin 128) :
    Gen.k0_pay1 (F := Ideal) x0 x1 x2 x3 x4 x5 (ix2 r j)
      = ((∑ k : Fin 128, (x0 (ix2 r k) * x1 (ix2 r (0 : Fin 1))) * x3 (ix2 k j))
          + (∑ k : Fin 128, x2 (ix2 r k) * x4 (ix2 k j))) + x5 (ix2 (0 : Fin 1) j) := by
  unfold Gen.k0_pay1
  simp only [shapeCast_self]
  rw [addf_apply, addf_apply, matmul_128_apply, matmul_128_apply, broadcastTo_1b_ab_apply]
  simp only [truncf_apply, mulf_apply, broadcastTo_a1_ab_apply]

/-- The sum over the rows of a `5000 × 128` tile, read at column `j`: the sum over the row coordinate of
    the tile's entries in that column (no initial term: a sum of the tile's entries only). -/
theorem colsum_apply (src : FVec Ideal S5000x128 .f32) (h : S5000x128.Reduces [0] S128)
    (hφ : FKind.Formats .f32) (hacc : (0x00000000#32 : BitVec FTy.f32.bits) = FKind.add.neutral .f32 hφ)
    (j : Fin 128) :
    multiReduction (F := Ideal) .add [0] S128 src 0x00000000#32 h hφ hacc (ix1 j)
      = ∑ r : Fin 5000, src (ix2 r j) := by
  refine (Ideal.multiReduction_add_single src 0x00000000#32 h hφ hacc (ix1 j)).trans ?_
  show ∑ k : Fin 5000, src (h.lift (ix1 j) k) = _
  refine Finset.sum_congr rfl fun k _ => congrArg src ?_
  funext ax; apply Fin.ext
  match ax with
  | ⟨0, _⟩ => rfl
  | ⟨1, _⟩ => rfl

/-- The first body's stored column sums at column `j`: the sum over the tile's rows of the stored tile. -/
theorem k0_pay2_apply (x0 : FVec Ideal S5000x128 .f32) (x1 : FVec Ideal S5000x1 .f32)
    (x2 : FVec Ideal S5000x128 .f32) (x3 x4 : FVec Ideal S128x128 .f32) (x5 : FVec Ideal S1x128 .f32)
    (j : Fin 128) :
    Gen.k0_pay2 (F := Ideal) x0 x1 x2 x3 x4 x5 (ix3 (0 : Fin 1) (0 : Fin 1) j)
      = ∑ r : Fin 5000, Gen.k0_pay1 (F := Ideal) x0 x1 x2 x3 x4 x5 (ix2 r j) := by
  unfold Gen.k0_pay2
  refine (shapeCast_ab_1ab_apply _ _ (0 : Fin 1) (0 : Fin 1) j).trans ?_
  refine (shapeCast_a_1a_apply _ _ (0 : Fin 1) j).trans ?_
  exact colsum_apply _ _ _ _ j

/-- The first body's stored column sums of squares at column `j`: the sum over the tile's rows of the
    squares of the stored tile. -/
theorem k0_pay3_apply (x0 : FVec Ideal S5000x128 .f32) (x1 : FVec Ideal S5000x1 .f32)
    (x2 : FVec Ideal S5000x128 .f32) (x3 x4 : FVec Ideal S128x128 .f32) (x5 : FVec Ideal S1x128 .f32)
    (j : Fin 128) :
    Gen.k0_pay3 (F := Ideal) x0 x1 x2 x3 x4 x5 (ix3 (0 : Fin 1) (0 : Fin 1) j)
      = ∑ r : Fin 5000, Gen.k0_pay1 (F := Ideal) x0 x1 x2 x3 x4 x5 (ix2 r j)
          * Gen.k0_pay1 (F := Ideal) x0 x1 x2 x3 x4 x5 (ix2 r j) := by
  unfold Gen.k0_pay3
  refine (shapeCast_ab_1ab_apply _ _ (0 : Fin 1) (0 : Fin 1) j).trans ?_
  refine (shapeCast_a_1a_apply _ _ (0 : Fin 1) j).trans ?_
  exact colsum_apply _ _ _ _ j

/-! ## The second body: the normalisation and the positive part -/

/-- The scalar zero of the bodies' `max (·) 0` is the extended real zero. -/
theorem scalar_zero_f32 : Scalar.ofBits (F := Ideal) .f32 0x00000000#32 = (0 : EReal) :=
  Ideal.ofBits_zero_f32

/-- The second body's stored tile at `(r, j)`: the positive part of the scale times the centred entry
    times the inverse deviation, plus the shift. -/
theorem k1_pay1_apply (v0 : FVec Ideal S5000x128 .f32) (v2 v4 v10 v14 : FVec Ideal S1x128 .f32)
    (r : Fin 5000) (j : Fin 128) :
    Gen.k1_pay1 (F := Ideal) v0 v2 v4 v10 v14 (ix2 r j)
      = max (((v2 (ix2 (0 : Fin 1) j) * (v0 (ix2 r j) - v4 (ix2 (0 : Fin 1) j))) * v10 (ix2 (0 : Fin 1) j))
          + v14 (ix2 (0 : Fin 1) j)) 0 := by
  unfold Gen.k1_pay1
  simp only [shapeCast_self]
  rw [maximumf_apply, addf_apply, mulf_apply, mulf_apply, subf_apply]
  simp only [broadcastTo_1b_ab_apply, broadcast_apply, scalar_zero_f32]

/-! ## The third body: the two products, the bias, and the projection of the positive part -/

/-- The third body's stored tile at `(r, j)`: the same expression as the first body's. -/
theorem k2_pay1_apply (x0 : FVec Ideal S5000x128 .f32) (x1 : FVec Ideal S5000x1 .f32)
    (x2 : FVec Ideal S5000x128 .f32) (x3 x4 : FVec Ideal S128x128 .f32) (x5 : FVec Ideal S1x128 .f32)
    (r : Fin 5000) (j : Fin 128) :
    Gen.k2_pay1 (F := Ideal) x0 x1 x2 x3 x4 x5 (ix2 r j)
      = ((∑ k : Fin 128, (x0 (ix2 r k) * x1 (ix2 r (0 : Fin 1))) * x3 (ix2 k j))
          + (∑ k : Fin 128, x2 (ix2 r k) * x4 (ix2 k j))) + x5 (ix2 (0 : Fin 1) j) := by
  unfold Gen.k2_pay1
  simp only [shapeCast_self]
  rw [addf_apply, addf_apply, matmul_128_apply, matmul_128_apply, broadcastTo_1b_ab_apply]
  simp only [truncf_apply, mulf_apply, broadcastTo_a1_ab_apply]

/-- The product of a `5000 × 128` by a `128 × 64` matrix onto a zero accumulator, read at `(r, q)`:
    the sum over the contracted coordinate of the products of the entries. -/
theorem matmul_64_apply {φ₁ φ₂ : FTy} (A : FVec Ideal S5000x128 φ₁) (B : FVec Ideal S128x64 φ₂)
    (r : Fin 5000) (q : Fin 64) :
    matmul (F := Ideal) dot_S5000x128_S128x64_S5000x64_1_0_0_1_n_n none A B
        (constant (F := Ideal) S5000x64 .f32 0x00000000#32) (ix2 r q)
      = ∑ k : Fin 128, A (ix2 r k) * B (ix2 k q) := by
  show FloatOps.matmul _ none A B (constant (F := Ideal) S5000x64 .f32 0x00000000#32) (ix2 r q) = _
  rw [Ideal.matmul_constant_zero_apply,
    ← Equiv.sum_comp (contrEquiv1 dot_S5000x128_S128x64_S5000x64_1_0_0_1_n_n 128 rfl rfl).symm]
  refine Finset.sum_congr rfl fun c _ => ?_
  have c2 := contrEquiv1_symm_val dot_S5000x128_S128x64_S5000x64_1_0_0_1_n_n 128 rfl rfl c
  have l2 : dot_S5000x128_S128x64_S5000x64_1_0_0_1_n_n.lhsIdx (ix2 r q)
      ((contrEquiv1 _ 128 rfl rfl).symm c) = ix2 r c := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : dot_S5000x128_S128x64_S5000x64_1_0_0_1_n_n.rhsIdx (ix2 r q)
      ((contrEquiv1 _ 128 rfl rfl).symm c) = ix2 c q := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]

/-- The third body's projected tile at `(r, q)`: the row of the positive part of the stored tile times
    the projection matrix, plus the projection's bias. -/
theorem k2_pay2_apply (v0 : FVec Ideal S5000x128 .f32) (v2 : FVec Ideal S5000x1 .f32)
    (v7 : FVec Ideal S5000x128 .f32) (v10 v13 : FVec Ideal S128x128 .f32) (v19 : FVec Ideal S1x128 .f32)
    (v27 : FVec Ideal S128x64 .f32) (v31 : FVec Ideal S1x64 .f32) (r : Fin 5000) (q : Fin 64) :
    Gen.k2_pay2 (F := Ideal) v0 v2 v7 v10 v13 v19 v27 v31 (ix2 r q)
      = (∑ k : Fin 128, max (Gen.k2_pay1 (F := Ideal) v0 v2 v7 v10 v13 v19 (ix2 r k)) 0 * v27 (ix2 k q))
          + v31 (ix2 (0 : Fin 1) q) := by
  unfold Gen.k2_pay2
  simp only [shapeCast_self]
  rw [addf_apply, matmul_64_apply, broadcastTo_1b_ab_apply]
  simp only [truncf_apply, maximumf_apply, broadcast_apply, scalar_zero_f32]

end Cert.KernelIdeal.PayAt

end
-- ==== Proof.KAt.lean ====
/-
  The three pallas_calls' whole-array functions read at an index, at the ideal instance. A row `i` of a 100000-row matrix
  lies in tile `i / 5000` at position `i % 5000`; the body's value on that tile at that position is a sum over the 128
  features of the row itself — the tile disappears from the formula.
-/
import proofs.«168042_j17549236371683_2_alg».proof.Proof.R0Val
import proofs.«168042_j17549236371683_2_alg».proof.Proof.R1Val
import proofs.«168042_j17549236371683_2_alg».proof.Proof.R2Val
import proofs.«168042_j17549236371683_2_alg».proof.Proof.PayAt

noncomputable section

namespace Cert.KernelIdeal.KAt

open Cert.KernelIdeal Cert.KernelIdeal.Gen Cert.KernelIdeal.Tiles Cert.KernelIdeal.PayAt
open Idealize.ShloMosaic Idealize.ShloMosaic.ValueIdx

/-- Position `i % 5000` of tile `i / 5000` is row `i`. -/
theorem rowTile_at {α : Type} {n : Nat} (A : (⟨2, ![100000, n]⟩ : Shape).Idx → α) (i : Fin 100000) (k : Fin n) :
    rowTile A (i.val / 5000) (ix2 ⟨i.val % 5000, Nat.mod_lt _ (by norm_num)⟩ k) = A (ix2 i k) := by
  have hi := i.isLt
  rw [rowTile_apply A (i.val / 5000) (by omega) ⟨i.val % 5000, Nat.mod_lt _ (by norm_num)⟩ k]
  congr 1
  funext a
  match a with
  | ⟨0, _⟩ => exact Fin.ext (by show i.val / 5000 * 5000 + i.val % 5000 = i.val; omega)
  | ⟨1, _⟩ => rfl

/-- Position `r` of tile `t` is row `5000·t + r`. -/
theorem rowTile_tile {α : Type} {n : Nat} (A : (⟨2, ![100000, n]⟩ : Shape).Idx → α) (t : Fin 20) (r : Fin 5000) (k : Fin n) :
    rowTile A t.val (ix2 r k) = A (ix2 ⟨t.val * 5000 + r.val, by have := t.isLt; have := r.isLt; omega⟩ k) :=
  rowTile_apply A t.val t.isLt r k

/-- The index `(i, j)` of a 100000-row matrix sits at position `(i % 5000, j)` of its tile. -/
theorem inTile_ix2 {n : Nat} (i : Fin 100000) (j : Fin n) :
    inTile (ix2 i j : (⟨2, ![100000, n]⟩ : Shape).Idx) = ix2 ⟨i.val % 5000, Nat.mod_lt _ (by norm_num)⟩ j := rfl

/-- The first linear layer's output at `(i, j)`: the row's aggregated features, each scaled by the row's reciprocal
    in-degree, against column `j` of the first weight matrix; plus the row's own features against column `j` of the second;
    plus the bias. -/
theorem lin0_apply (A : FVec Ideal S100000x128 .f32) (inv : FVec Ideal S100000x1 .f32) (X : FVec Ideal S100000x128 .f32)
    (Wl Wr : FVec Ideal S128x128 .f32) (bl : FVec Ideal S1x128 .f32) (i : Fin 100000) (j : Fin 128) :
    R0.lin (F := Ideal) A inv X Wl Wr bl (ix2 i j)
      = ((∑ k : Fin 128, (A (ix2 i k) * inv (ix2 i (0 : Fin 1))) * Wl (ix2 k j)) + (∑ k : Fin 128, X (ix2 i k) * Wr (ix2 k j)))
        + bl (ix2 (0 : Fin 1) j) := by
  show k0_pay1 (F := Ideal) (rowTile A (i.val / 5000)) (rowTile inv (i.val / 5000)) (rowTile X (i.val / 5000)) Wl Wr bl
      (ix2 ⟨i.val % 5000, Nat.mod_lt _ (by norm_num)⟩ j) = _
  rw [k0_pay1_apply]
  simp only [rowTile_at]

/-- Row `t` of the column-sum table at column `j`: the sum over tile `t`'s 5000 rows of the layer's output. -/
theorem colSums_apply (A : FVec Ideal S100000x128 .f32) (inv : FVec Ideal S100000x1 .f32) (X : FVec Ideal S100000x128 .f32)
    (Wl Wr : FVec Ideal S128x128 .f32) (bl : FVec Ideal S1x128 .f32) (t : Fin 20) (j : Fin 128) :
    R0.colSums (F := Ideal) A inv X Wl Wr bl (ix3 t (0 : Fin 1) j)
      = ∑ r : Fin 5000, R0.lin (F := Ideal) A inv X Wl Wr bl (ix2 ⟨t.val * 5000 + r.val, by have := t.isLt; have := r.isLt; omega⟩ j) := by
  refine (R0.colSums_at (F := Ideal) A inv X Wl Wr bl (ix3 t (0 : Fin 1) j) (ix3 (0 : Fin 1) (0 : Fin 1) j) t.val rfl rfl).trans ?_
  refine (k0_pay2_apply _ _ _ _ _ _ j).trans ?_
  refine Finset.sum_congr rfl fun r _ => ?_
  have ht := t.isLt
  have hr := r.isLt
  exact (R0.lin_at (F := Ideal) A inv X Wl Wr bl (ix2 ⟨t.val * 5000 + r.val, by omega⟩ j) (ix2 r j) t.val rfl rfl).symm

/-- Row `t` of the table of sums of squares at column `j`. -/
theorem colSqSums_apply (A : FVec Ideal S100000x128 .f32) (inv : FVec Ideal S100000x1 .f32) (X : FVec Ideal S100000x128 .f32)
    (Wl Wr : FVec Ideal S128x128 .f32) (bl : FVec Ideal S1x128 .f32) (t : Fin 20) (j : Fin 128) :
    R0.colSqSums (F := Ideal) A inv X Wl Wr bl (ix3 t (0 : Fin 1) j)
      = ∑ r : Fin 5000, R0.lin (F := Ideal) A inv X Wl Wr bl (ix2 ⟨t.val * 5000 + r.val, by have := t.isLt; have := r.isLt; omega⟩ j)
          * R0.lin (F := Ideal) A inv X Wl Wr bl (ix2 ⟨t.val * 5000 + r.val, by have := t.isLt; have := r.isLt; omega⟩ j) := by
  refine (R0.colSqSums_at (F := Ideal) A inv X Wl Wr bl (ix3 t (0 : Fin 1) j) (ix3 (0 : Fin 1) (0 : Fin 1) j) t.val rfl rfl).trans ?_
  refine (k0_pay3_apply _ _ _ _ _ _ j).trans ?_
  refine Finset.sum_congr rfl fun r _ => ?_
  have ht := t.isLt
  have hr := r.isLt
  have e := R0.lin_at (F := Ideal) A inv X Wl Wr bl (ix2 ⟨t.val * 5000 + r.val, by omega⟩ j) (ix2 r j) t.val rfl rfl
  rw [e]

/-- The normalized, rectified features at `(i, j)`. -/
theorem bnRelu_apply (H : FVec Ideal S100000x128 .f32) (g b mu s : FVec Ideal S1x128 .f32) (i : Fin 100000) (j : Fin 128) :
    R1.bnRelu (F := Ideal) H g b mu s (ix2 i j)
      = max (((g (ix2 (0 : Fin 1) j) * (H (ix2 i j) - mu (ix2 (0 : Fin 1) j))) * s (ix2 (0 : Fin 1) j)) + b (ix2 (0 : Fin 1) j)) 0 := by
  show k1_pay1 (F := Ideal) (rowTile H (i.val / 5000)) g mu s b (ix2 ⟨i.val % 5000, Nat.mod_lt _ (by norm_num)⟩ j) = _
  rw [k1_pay1_apply]
  simp only [rowTile_at]

/-- The second linear layer's output at `(i, j)`: the same formula as the first layer's. -/
theorem lin1_apply (A : FVec Ideal S100000x128 .f32) (inv : FVec Ideal S100000x1 .f32) (X : FVec Ideal S100000x128 .f32)
    (Wl Wr : FVec Ideal S128x128 .f32) (bl : FVec Ideal S1x128 .f32) (Wp : FVec Ideal S128x64 .f32) (bp : FVec Ideal S1x64 .f32)
    (i : Fin 100000) (j : Fin 128) :
    R2.lin (F := Ideal) A inv X Wl Wr bl Wp bp (ix2 i j)
      = ((∑ k : Fin 128, (A (ix2 i k) * inv (ix2 i (0 : Fin 1))) * Wl (ix2 k j)) + (∑ k : Fin 128, X (ix2 i k) * Wr (ix2 k j)))
        + bl (ix2 (0 : Fin 1) j) := by
  show k2_pay1 (F := Ideal) (rowTile A (i.val / 5000)) (rowTile inv (i.val / 5000)) (rowTile X (i.val / 5000)) Wl Wr bl
      (ix2 ⟨i.val % 5000, Nat.mod_lt _ (by norm_num)⟩ j) = _
  rw [k2_pay1_apply]
  simp only [rowTile_at]

/-- The projected read-out at `(i, q)`: the rectified second-layer row against column `q` of the read-out matrix, plus its bias. -/
theorem proj_apply (A : FVec Ideal S100000x128 .f32) (inv : FVec Ideal S100000x1 .f32) (X : FVec Ideal S100000x128 .f32)
    (Wl Wr : FVec Ideal S128x128 .f32) (bl : FVec Ideal S1x128 .f32) (Wp : FVec Ideal S128x64 .f32) (bp : FVec Ideal S1x64 .f32)
    (i : Fin 100000) (q : Fin 64) :
    R2.proj (F := Ideal) A inv X Wl Wr bl Wp bp (ix2 i q)
      = (∑ k : Fin 128, max (R2.lin (F := Ideal) A inv X Wl Wr bl Wp bp (ix2 i k)) 0 * Wp (ix2 k q)) + bp (ix2 (0 : Fin 1) q) := by
  show k2_pay2 (F := Ideal) (rowTile A (i.val / 5000)) (rowTile inv (i.val / 5000)) (rowTile X (i.val / 5000)) Wl Wr bl Wp bp
      (ix2 ⟨i.val % 5000, Nat.mod_lt _ (by norm_num)⟩ q) = _
  rw [k2_pay2_apply]
  rfl

end Cert.KernelIdeal.KAt

end
-- ==== Proof.Layout.lean ====
/-
  The host-side re-layouts of the kernel program read at an index: a transposed weight matrix, a bias row, the
  reciprocal in-degrees as a column, and the sum of a 20-row table over its rows.
-/
import proofs.«168042_j17549236371683_2_alg».proof.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Layout

open Cert.KernelIdeal Idealize.ShloMosaic Idealize.ShloMosaic.ValueIdx

variable {α : Type}

/-- Entry (k, j) of the transpose of a 128 × 128 matrix is its entry (j, k). -/
theorem tr128 (W : S128x128.Idx → α) (h : S128x128.Transposes [1, 0] S128x128) (k j : Fin 128) :
    transpose S128x128 [1, 0] W h (ix2 k j) = W (ix2 j k) :=
  transpose_apply [1, 0] W h (ix2 k j) (ix2 j k) (fun b => by
    match b with
    | ⟨0, _⟩ => rfl
    | ⟨1, _⟩ => rfl)

/-- Entry (k, q) of the transpose of a 64 × 128 matrix is its entry (q, k). -/
theorem tr64 (W : S64x128.Idx → α) (h : S64x128.Transposes [1, 0] S128x64) (k : Fin 128) (q : Fin 64) :
    transpose S128x64 [1, 0] W h (ix2 k q) = W (ix2 q k) :=
  transpose_apply [1, 0] W h (ix2 k q) (ix2 q k) (fun b => by
    match b with
    | ⟨0, _⟩ => rfl
    | ⟨1, _⟩ => rfl)

/-- A vector of 128 entries stored as one row: entry (0, j) is entry j. -/
theorem row128 (b : S128.Idx → α) (h : S128.ShapeCasts S1x128) (j : Fin 128) :
    shapeCast S1x128 b h (ix2 (0 : Fin 1) j) = b (ix1 j) :=
  shapeCast_apply b h (ix2 (0 : Fin 1) j) (ix1 j) (by
    rw [Shape.rowMajor_val_one, Shape.rowMajor_val_two]; show j.val = 0 * 128 + j.val; omega)

/-- A vector of 64 entries stored as one row: entry (0, q) is entry q. -/
theorem row64 (b : S64.Idx → α) (h : S64.ShapeCasts S1x64) (q : Fin 64) :
    shapeCast S1x64 b h (ix2 (0 : Fin 1) q) = b (ix1 q) :=
  shapeCast_apply b h (ix2 (0 : Fin 1) q) (ix1 q) (by
    rw [Shape.rowMajor_val_one, Shape.rowMajor_val_two]; show q.val = 0 * 64 + q.val; omega)

/-- A vector of 100000 entries stored as one column: entry (i, 0) is entry i. -/
theorem col100000 (v : S100000.Idx → α) (h : S100000.ShapeCasts S100000x1) (i : Fin 100000) :
    shapeCast S100000x1 v h (ix2 i (0 : Fin 1)) = v (ix1 i) :=
  shapeCast_apply v h (ix2 i (0 : Fin 1)) (ix1 i) (by
    rw [Shape.rowMajor_val_one, Shape.rowMajor_val_two]; show i.val = i.val * 1 + 0; omega)

/-- The host's sum of a 20-row table over its rows, read at column `j`: the initial value plus the sum over the 20 rows of the
    table's entries in that column. -/
theorem red20 (s : FVec Ideal S20x1x128 .f32) (init : S_.Idx → Ideal .f32) (h' : S20x1x128.ReducesTo [0] S1x128) (hu : 0 < S_.numel)
    (hR : S20x1x128.Reduces [0] S1x128) (j : Fin 128) :
    Host.reduceAdd (F := Ideal) s init h' hu (ix2 (0 : Fin 1) j)
      = init ix0 + ∑ t : Fin 20, s (ix3 t (0 : Fin 1) j) := by
  show Ideal.hostReduceAdd h' s (init (Shape.Idx.first hu)) (ix2 (0 : Fin 1) j) = _
  refine (Ideal.hostReduceAdd_single h' hR s _ (ix2 (0 : Fin 1) j)).trans ?_
  show init (Shape.Idx.first hu) + ∑ k : Fin 20, s (hR.lift (ix2 (0 : Fin 1) j) k) = _
  rw [eq_ix0 (Shape.Idx.first hu)]
  refine congrArg (init ix0 + ·) (Finset.sum_congr rfl fun k _ => congrArg s ?_)
  funext ax; apply Fin.ext
  match ax with
  | ⟨0, _⟩ => rfl
  | ⟨1, _⟩ => rfl
  | ⟨2, _⟩ => rfl

end Cert.KernelIdeal.Layout

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.RefAt.lean ====
/-
  The reference's stage functions read at one index, at the ideal float values: each entry of a stage's
  result is an expression in the entries of its arguments — a row of a matrix product is a sum over the
  contracted coordinate (against a transposed matrix: over its second coordinate), a broadcast row,
  column or scalar reads its one row, column or value, a column sum is the initial zero plus the sum over
  the row coordinate, and the literals denote the reals they spell.
-/
import proofs.«168042_j17549236371683_2_alg».proof.Proof.RefRun
import proofs.«168042_j17549236371683_2_alg».proof.Proof.LibERealStats
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.RefAt

open Cert.ReferenceIdeal Cert.ReferenceIdeal.Gen Cert.ReferenceIdeal.RefRun
open Idealize.ShloMosaic Idealize.ShloMosaic.ValueIdx
open Cert.LibERealStats
open scoped BigOperators

/-! ## The literals -/

/-- The word of `0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `100000.0` denotes the real `100000`. -/
theorem ofBits_100000 : Ideal.ofBits .f32 0x47C35000#32 = ((100000 : ℝ) : EReal) := by
  simp [Ideal.ofBits, Ideal.ieee, -EReal.coe_mul]; norm_num

/-! ## Layout: a vector as a column or as a row, one column broadcast over many -/

section Layout
variable {α : Type}

/-- A vector of `a` entries as an `[a, 1]` column reads, at `(i, u)`, the vector's entry `i`. -/
theorem broadcastInDim_asCol_apply {a : ℕ} (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) := by
  refine broadcastInDim_apply ![0] h v (ix2 i u) (ix1 i) fun ax => ?_
  match ax with
  | ⟨0, _⟩ =>
    show i.val = if a = 1 then 0 else i.val
    split
    · have := i.isLt; omega
    · rfl

/-- A vector of `b` entries as a `[1, b]` row reads, at `(u, j)`, the vector's entry `j`. -/
theorem broadcastInDim_asRow_apply {b : ℕ} (h : (⟨1, ![b]⟩ : Shape).BroadcastsInDim ⟨2, ![1, b]⟩ ![1])
    (v : (⟨1, ![b]⟩ : Shape).Idx → α) (u : Fin 1) (j : Fin b) :
    broadcastInDim ⟨2, ![1, b]⟩ ![1] h v (ix2 u j) = v (ix1 j) := by
  refine broadcastInDim_apply ![1] h v (ix2 u j) (ix1 j) fun ax => ?_
  match ax with
  | ⟨0, _⟩ =>
    show j.val = if b = 1 then 0 else j.val
    split
    · have := j.isLt; omega
    · rfl

/-- An `[a, 1]` column broadcast over `b` columns reads, at `(i, k)`, the column's entry at row `i`. -/
theorem broadcastInDim_oneCol_apply {a b : ℕ} (h : (⟨2, ![a, 1]⟩ : Shape).BroadcastsInDim ⟨2, ![a, b]⟩ ![0, 1])
    (w : (⟨2, ![a, 1]⟩ : Shape).Idx → α) (i : Fin a) (k : Fin b) :
    broadcastInDim ⟨2, ![a, b]⟩ ![0, 1] h w (ix2 i k) = w (ix2 i (0 : Fin 1)) := by
  refine broadcastInDim_apply ![0, 1] h w (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    simp

end Layout

/-- A row vector repeated down the rows reads, at `(i, j)`, the vector's entry `j`. -/
theorem rowB_apply (v : FVec Ideal S128 .f32) (i : Fin 100000) (j : Fin 128) :
    rowB (F := Ideal) v (ix2 i j) = v (ix1 j) := by
  unfold rowB
  rw [broadcastInDim_oneRow_apply, broadcastInDim_asRow_apply]

/-! ## The matrix products at an index -/

/-- The host's product of a `100000 × 128` by a `128 × 128` matrix read at `(i, j)`: the sum over the
    contracted coordinate of the products of the entries. -/
theorem dotGeneral_128_apply {φ₁ φ₂ : FTy} (A : FVec Ideal S100000x128 φ₁) (B : FVec Ideal S128x128 φ₂)
    (i : Fin 100000) (j : Fin 128) :
    Host.dotGeneral (F := Ideal) dot_S100000x128_S128x128_S100000x128_1_0_0_1_n_n none A B (ix2 i j)
      = ∑ k : Fin 128, A (ix2 i k) * B (ix2 k j) := by
  show FloatOps.dotGeneral _ none _ A B (ix2 i j) = _
  rw [Ideal.dotGeneral_apply, ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : dot_S100000x128_S128x128_S100000x128_1_0_0_1_n_n.lhsIdx (ix2 i j)
      ((contrEquiv1 _ 128 rfl rfl).symm c) = ix2 i c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : dot_S100000x128_S128x128_S100000x128_1_0_0_1_n_n.rhsIdx (ix2 i j)
      ((contrEquiv1 _ 128 rfl rfl).symm c) = ix2 c j := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

/-- The host's product of a `100000 × 128` by a `128 × 64` matrix read at `(i, q)`: the sum over the
    contracted coordinate of the products of the entries. -/
theorem dotGeneral_64_apply {φ₁ φ₂ : FTy} (A : FVec Ideal S100000x128 φ₁) (B : FVec Ideal S128x64 φ₂)
    (i : Fin 100000) (q : Fin 64) :
    Host.dotGeneral (F := Ideal) dot_S100000x128_S128x64_S100000x64_1_0_0_1_n_n none A B (ix2 i q)
      = ∑ k : Fin 128, A (ix2 i k) * B (ix2 k q) := by
  show FloatOps.dotGeneral _ none _ A B (ix2 i q) = _
  rw [Ideal.dotGeneral_apply, ← Equiv.sum_comp (contrEquiv1 dot_S100000x128_S128x64_S100000x64_1_0_0_1_n_n 128 rfl rfl).symm]
  refine Finset.sum_congr rfl fun c _ => ?_
  have c2 := contrEquiv1_symm_val dot_S100000x128_S128x64_S100000x64_1_0_0_1_n_n 128 rfl rfl c
  have l2 : dot_S100000x128_S128x64_S100000x64_1_0_0_1_n_n.lhsIdx (ix2 i q)
      ((contrEquiv1 _ 128 rfl rfl).symm c) = ix2 i c := by
    funext ax; apply Fin.ext
    match ax with
    | ⟨0, _⟩ => simp [DotDims.lhsIdx, dot_S100000x128_S128x64_S100000x64_1_0_0_1_n_n]; rfl
    | ⟨1, _⟩ => simp [DotDims.lhsIdx, dot_S100000x128_S128x64_S100000x64_1_0_0_1_n_n]; exact c2
  have r2 : dot_S100000x128_S128x64_S100000x64_1_0_0_1_n_n.rhsIdx (ix2 i q)
      ((contrEquiv1 _ 128 rfl rfl).symm c) = ix2 c q := by
    funext ax; apply Fin.ext
    match ax with
    | ⟨0, _⟩ => simp [DotDims.rhsIdx, dot_S100000x128_S128x64_S100000x64_1_0_0_1_n_n]; exact c2
    | ⟨1, _⟩ => simp [DotDims.rhsIdx, dot_S100000x128_S128x64_S100000x64_1_0_0_1_n_n]; rfl
  rw [l2, r2]

/-! ## One convolution at an index -/

/-- One convolution at `(i, j)`: the row of the mean message (the summed messages over the clipped count)
    against row `j` of the first weight matrix, plus the bias, plus the row of the features against row
    `j` of the second weight matrix. -/
theorem conv_apply (h : FVec Ideal S100000x128 .f32) (xe : FVec Ideal S1600000x128 .f32)
    (ei : IVec S2x1600000 32) (Wl : FVec Ideal S128x128 .f32) (bl : FVec Ideal S128 .f32)
    (Wr : FVec Ideal S128x128 .f32) (i : Fin 100000) (j : Fin 128) :
    conv (F := Ideal) h xe ei Wl bl Wr (ix2 i j)
      = ((∑ k : Fin 128, Ideal.div (aggSum (F := Ideal) h xe ei (ix2 i k)) (clipCnt (F := Ideal) ei (ix1 i))
              * Wl (ix2 j k)) + bl (ix1 j))
        + ∑ k : Fin 128, h (ix2 i k) * Wr (ix2 j k) := by
  unfold conv
  rw [addf_apply, addf_apply, dotGeneral_128_apply, dotGeneral_128_apply, rowB_apply]
  refine congrArg₂ (· + ·) (congrArg (· + bl (ix1 j)) (Finset.sum_congr rfl fun k _ => ?_))
    (Finset.sum_congr rfl fun k _ => ?_)
  · rw [hostDivf_apply, transpose_ix2_apply, broadcastInDim_oneCol_apply, broadcastInDim_asCol_apply]
  · rw [transpose_ix2_apply]

/-! ## The column sums and means -/

/-- The rows of a `100000 × 128` array reduce to its columns. -/
theorem reduces_rows : S100000x128.Reduces [0] S128 := by decide

/-- The column sum at column `j`: the initial zero plus the sum over the rows of the entries in that column. -/
theorem colSum_apply (h : FVec Ideal S100000x128 .f32) (j : Fin 128) :
    colSum (F := Ideal) h (ix1 j) = 0 + ∑ i : Fin 100000, h (ix2 i j) := by
  unfold colSum
  rw [hostReduceAdd_apply]
  refine (Ideal.hostReduceAdd_single reducesTo_S100000x128_S128_d0 reduces_rows h _ (ix1 j)).trans ?_
  show Ideal.ofBits .f32 0x00000000#32 + ∑ k : Fin 100000, h (reduces_rows.lift (ix1 j) k) = _
  rw [ofBits_zero]
  refine congrArg (0 + ·) (Finset.sum_congr rfl fun k _ => congrArg h ?_)
  funext ax; apply Fin.ext
  match ax with
  | ⟨0, _⟩ => rfl
  | ⟨1, _⟩ => rfl

/-- The column mean at column `j`: the column sum over the literal `100000.0`. -/
theorem meanCol_apply (h : FVec Ideal S100000x128 .f32) (j : Fin 128) :
    meanCol (F := Ideal) h (ix1 j)
      = Ideal.div (colSum (F := Ideal) h (ix1 j)) (Ideal.ofBits .f32 0x47C35000#32) := by
  unfold meanCol
  rw [hostDivf_apply, broadcastInDim_scalar_apply, constant_apply]

/-- The variance's divisor: `100000.0` minus the converted integer zero is the real `100000`. -/
theorem ddofDen_eq : ddofDen (F := Ideal) ix0 = ((100000 : ℝ) : EReal) := by
  unfold ddofDen
  rw [subf_apply, constant_apply, ofBits_100000]
  show ((100000 : ℝ) : EReal) - ((((0#32 : BitVec 32).toInt : ℤ) : ℝ) : EReal) = _
  simp

/-! ## The message count and its clip -/

/-- The host's accumulating scatter at an index is the operand's entry there plus the sum of the updates
    over a finite set of update indices (those that land on it). -/
theorem scatterAdd_eq_add_sum {s si su : Shape} {φ : FTy} {w : ℕ} (d : ScatterDims s si su)
    (x : FVec Ideal s φ) (idx : IVec si w) (upd : FVec Ideal su φ) (i : s.Idx) :
    ∃ S : Finset su.Idx, Host.scatterAdd d x idx upd i = x i + ∑ j ∈ S, upd j :=
  ⟨_, rfl⟩

/-- An accumulating scatter of ones onto a zero is a natural number: the number of updates that land. -/
theorem scatterAdd_ones_natCast {s si su : Shape} {φ : FTy} {w : ℕ} (d : ScatterDims s si su)
    (x : FVec Ideal s φ) (idx : IVec si w) (upd : FVec Ideal su φ) (i : s.Idx)
    (hx : x i = (0 : EReal)) (hu : ∀ j, upd j = (1 : EReal)) :
    ∃ k : ℕ, Host.scatterAdd d x idx upd i = ((k : ℝ) : EReal) := by
  obtain ⟨S, hS⟩ := scatterAdd_eq_add_sum d x idx upd i
  have h1 : ∑ j ∈ S, upd j = ∑ _j ∈ S, (1 : EReal) := Finset.sum_congr rfl fun j _ => hu j
  exact ⟨S.card, by rw [hS, hx, h1]; exact zero_add_sum_one_eq_card S⟩

/-- An accumulating scatter of finite updates onto a finite entry is finite. -/
theorem scatterAdd_isReal {s si su : Shape} {φ : FTy} {w : ℕ} (d : ScatterDims s si su)
    (x : FVec Ideal s φ) (idx : IVec si w) (upd : FVec Ideal su φ) (i : s.Idx)
    (hx : IsReal (x i : EReal)) (hu : ∀ j, IsReal (upd j : EReal)) :
    IsReal (Host.scatterAdd d x idx upd i : EReal) := by
  obtain ⟨S, hS⟩ := scatterAdd_eq_add_sum d x idx upd i
  rw [hS]; exact hx.add_sum fun j _ => hu j

/-- The number of messages at a destination is a natural number (zero plus a sum of ones). -/
theorem cnt_natCast (ei : IVec S2x1600000 32) (i : Fin 100000) :
    ∃ k : ℕ, cnt (F := Ideal) ei (ix1 i) = ((k : ℝ) : EReal) := by
  unfold cnt
  refine scatterAdd_ones_natCast _ _ _ _ _ ?_ fun e => ?_
  · rw [broadcastInDim_scalar_apply, constant_apply, ofBits_zero]
  · rw [broadcastInDim_scalar_apply, constant_apply, ofBits_one]

/-- The clipped count at a destination is the maximum of one and the count. -/
theorem clipCnt_apply (ei : IVec S2x1600000 32) (i : Fin 100000) :
    clipCnt (F := Ideal) ei (ix1 i) = max 1 (cnt (F := Ideal) ei (ix1 i)) := by
  unfold clipCnt
  rw [maximumf_apply, broadcastInDim_scalar_apply]
  show max (Ideal.ofBits .f32 0x3F800000#32) _ = _
  rw [ofBits_one]

/-- The clipped count at a destination is a nonzero real. -/
theorem clipCnt_real (ei : IVec S2x1600000 32) (i : Fin 100000) :
    ∃ r : ℝ, r ≠ 0 ∧ clipCnt (F := Ideal) ei (ix1 i) = (r : EReal) := by
  obtain ⟨k, hk⟩ := cnt_natCast ei i
  rw [clipCnt_apply, hk]
  exact max_one_natCast k

/-! ## The column variances -/

/-- The centred array at `(i, j)`: the entry minus its column's mean. -/
theorem centered_apply (h : FVec Ideal S100000x128 .f32) (i : Fin 100000) (j : Fin 128) :
    centered (F := Ideal) h (ix2 i j) = h (ix2 i j) - meanCol (F := Ideal) h (ix1 j) := by
  rw [meanCol_apply]
  unfold centered
  rw [subf_apply, broadcastInDim_oneRow_apply, hostDivf_apply, broadcastInDim_asRow_apply,
    broadcastInDim_scalar_apply, constant_apply]

/-- The variance's divisor is positive: the comparison `100000 > 0` answers the bit one. -/
theorem ddofDen_pos_bit :
    FloatOps.cmpf (F := Ideal) .ogt (ddofDen (F := Ideal) ix0) (constant (F := Ideal) S_ .f32 0x00000000#32 ix0)
      = 1#1 := by
  rw [ddofDen_eq, constant_apply, ofBits_zero]
  have hpos : (0 : EReal) < ((100000 : ℝ) : EReal) := by exact_mod_cast (by norm_num : (0 : ℝ) < 100000)
  show Ideal.cmp .ogt _ _ = 1#1
  simp [Ideal.cmp, hpos]

/-- The column variance at column `j`: the initial zero plus the sum over the rows of the squared deviations
    from the column's mean, over the real `100000`. -/
theorem varCol_apply (h : FVec Ideal S100000x128 .f32) (j : Fin 128) :
    varCol (F := Ideal) h (ix1 j)
      = Ideal.div
          (0 + ∑ i : Fin 100000, (h (ix2 i j) - meanCol (F := Ideal) h (ix1 j))
            * (h (ix2 i j) - meanCol (F := Ideal) h (ix1 j)))
          ((100000 : ℝ) : EReal) := by
  unfold varCol
  rw [select_apply, broadcastInDim_scalar_apply, cmpf_apply, ddofDen_pos_bit, select_one, hostDivf_apply,
    broadcastInDim_scalar_apply, ddofDen_eq, colSum_apply]
  refine congrArg (fun z => Ideal.div (0 + z) ((100000 : ℝ) : EReal)) (Finset.sum_congr rfl fun i _ => ?_)
  rw [mulf_apply, centered_apply]

/-! ## The normalisation and the positive part -/

/-- The host's reciprocal square root at an index is the ideal one of the entry. -/
theorem hostRsqrt_apply {s : Shape} {φ : FTy} (x : FVec Ideal s φ) (i : s.Idx) :
    Host.rsqrt x i = Ideal.rsqrt (x i) := rfl

/-- The normalised, rectified array at `(i, j)`: the positive part of the scale times the centred entry
    times the reciprocal square root of the column's variance plus the literal, plus the shift. -/
theorem bnRelu_apply (h : FVec Ideal S100000x128 .f32) (g b : FVec Ideal S128 .f32) (i : Fin 100000)
    (j : Fin 128) :
    bnRelu (F := Ideal) h g b (ix2 i j)
      = max (((g (ix1 j) * (h (ix2 i j) - meanCol (F := Ideal) h (ix1 j)))
              * Ideal.rsqrt (varCol (F := Ideal) h (ix1 j) + Ideal.ofBits .f32 0x3727C5AC#32))
            + b (ix1 j)) 0 := by
  unfold bnRelu
  rw [maximumf_apply, addf_apply, mulf_apply, mulf_apply, subf_apply, rowB_apply, rowB_apply, rowB_apply,
    rowB_apply, broadcastInDim_scalar_apply, constant_apply, ofBits_zero]
  rw [hostRsqrt_apply, addf_apply, broadcastInDim_scalar_apply, constant_apply]

/-! ## The projection -/

/-- The projection at `(i, q)`: the row of the positive part against row `q` of the projection matrix, plus
    the projection's bias. -/
theorem proj_apply (h : FVec Ideal S100000x128 .f32) (Wp : FVec Ideal S64x128 .f32) (bp : FVec Ideal S64 .f32)
    (i : Fin 100000) (q : Fin 64) :
    proj (F := Ideal) h Wp bp (ix2 i q)
      = (∑ k : Fin 128, max (h (ix2 i k)) 0 * Wp (ix2 q k)) + bp (ix1 q) := by
  unfold proj
  rw [addf_apply, dotGeneral_64_apply, broadcastInDim_oneRow_apply, broadcastInDim_asRow_apply]
  refine congrArg (· + bp (ix1 q)) (Finset.sum_congr rfl fun k _ => ?_)
  rw [maximumf_apply, broadcastInDim_scalar_apply, constant_apply, ofBits_zero, transpose_ix2_apply]

/-! ## Finiteness through one convolution -/

/-- Every message is finite when the node features and the edge features are. -/
theorem msg_isReal (h : FVec Ideal S100000x128 .f32) (xe : FVec Ideal S1600000x128 .f32)
    (ei : IVec S2x1600000 32) (hh : ∀ y, IsReal (h y : EReal)) (hxe : ∀ y, IsReal (xe y : EReal))
    (y : S1600000x128.Idx) : IsReal (msg (F := Ideal) h xe ei y : EReal) := by
  unfold msg
  rw [maximumf_apply, addf_apply, broadcastInDim_scalar_apply, constant_apply, ofBits_zero]
  exact ((hh _).add (hxe y)).max IsReal.zero

/-- Every summed message is finite when the node features and the edge features are. -/
theorem aggSum_isReal (h : FVec Ideal S100000x128 .f32) (xe : FVec Ideal S1600000x128 .f32)
    (ei : IVec S2x1600000 32) (hh : ∀ y, IsReal (h y : EReal)) (hxe : ∀ y, IsReal (xe y : EReal))
    (y : S100000x128.Idx) : IsReal (aggSum (F := Ideal) h xe ei y : EReal) := by
  unfold aggSum
  refine scatterAdd_isReal _ _ _ _ _ ?_ fun e => msg_isReal h xe ei hh hxe e
  rw [broadcastInDim_scalar_apply, constant_apply, ofBits_zero]
  exact IsReal.zero

/-- Every entry of one convolution is finite when the node features, the edge features, the two weight
    matrices and the bias are. -/
theorem conv_isReal (h : FVec Ideal S100000x128 .f32) (xe : FVec Ideal S1600000x128 .f32)
    (ei : IVec S2x1600000 32) (Wl : FVec Ideal S128x128 .f32) (bl : FVec Ideal S128 .f32)
    (Wr : FVec Ideal S128x128 .f32) (hh : ∀ y, IsReal (h y : EReal)) (hxe : ∀ y, IsReal (xe y : EReal))
    (hWl : ∀ y, IsReal (Wl y : EReal)) (hbl : ∀ y, IsReal (bl y : EReal)) (hWr : ∀ y, IsReal (Wr y : EReal))
    (y : S100000x128.Idx) : IsReal (conv (F := Ideal) h xe ei Wl bl Wr y : EReal) := by
  obtain ⟨i, j, rfl⟩ : ∃ (i : Fin 100000) (j : Fin 128), y = ix2 i j := ⟨y 0, y 1, eq_ix2 y⟩
  rw [conv_apply]
  exact ((IsReal.sum fun k _ =>
      ((aggSum_isReal h xe ei hh hxe _).div_of_real (clipCnt_real ei i)).mul (hWl _)).add (hbl _)).add
    (IsReal.sum fun k _ => (hh _).mul (hWr _))

end Cert.ReferenceIdeal.RefAt

end
-- ==== Proof.BridgeAlg.lean ====
/-
  The two pieces of algebra that join the kernel's arithmetic to the reference's, over plain extended-real functions.
  (1) One entry of a linear layer: scaling each aggregated feature by the reciprocal of a nonzero real count and adding the
  bias last is dividing each by the count and adding the bias second. (2) The batch statistics of one column of 100000 real
  entries: the mean and the variance from 20 tiles of 5000 partial sums — Σh/N and Σh²/N − mean² — are the mean and the
  centred variance Σ(h − mean)²/N over the whole column.
-/
import proofs.«168042_j17549236371683_2_alg».proof.Proof.LibERealStats

noncomputable section

namespace Cert.BridgeAlg

open Idealize.ShloMosaic Cert.LibERealStats

/-- One entry of a linear layer, the two ways: `(Σ (A k · (1/c)) · wl k + Σ X k · wr k) + b = ((Σ (A k / c) · wl k) + b) + Σ X k · wr k`
    for a nonzero real `c` and arbitrary extended reals otherwise. -/
theorem linear_entry {n : ℕ} (A X wl wr : Fin n → EReal) (b c : EReal) (hc : ∃ r : ℝ, r ≠ 0 ∧ c = (r : EReal)) :
    ((∑ k, (A k * Ideal.div 1 c) * wl k) + ∑ k, X k * wr k) + b
      = ((∑ k, Ideal.div (A k) c * wl k) + b) + ∑ k, X k * wr k := by
  have h : ∀ k, Ideal.div (A k) c = A k * Ideal.div 1 c := fun k => div_eq_mul_one_div_of_real hc (A k)
  simp only [h]
  exact add_right_comm _ _ _

/-- A column indexed by `Fin 100000`, extended by zero to all naturals. -/
def ext (f : Fin 100000 → EReal) (n : ℕ) : EReal := if h : n < 100000 then f ⟨n, h⟩ else 0

theorem ext_val (f : Fin 100000 → EReal) (i : Fin 100000) : ext f i.val = f i := by
  unfold ext; rw [dif_pos i.isLt]

theorem ext_tile (f : Fin 100000 → EReal) (t : Fin 20) (r : Fin 5000) :
    ext f (t.val * 5000 + r.val) = f ⟨t.val * 5000 + r.val, by have := t.isLt; have := r.isLt; omega⟩ := by
  unfold ext; rw [dif_pos]

/-- The column mean from 20 tiles of 5000 is the column mean. -/
theorem mean_tiles (f : Fin 100000 → EReal) (c : EReal) :
    Ideal.div (0 + ∑ t : Fin 20, ∑ r : Fin 5000, f ⟨t.val * 5000 + r.val, by have := t.isLt; have := r.isLt; omega⟩) c
      = Ideal.div (0 + ∑ i : Fin 100000, f i) c := by
  have h := tiled_mean_eq_of_eq 20 5000 100000 (by norm_num) (ext f) c
  simp only [ext_tile, ext_val] at h
  exact h

/-- The column variance from 20 tiles of 5000 — mean of squares minus squared mean — is the centred variance, for a
    column of real entries. -/
theorem var_tiles (f : Fin 100000 → EReal) (hf : ∀ i, IsReal (f i)) :
    Ideal.div (0 + ∑ t : Fin 20, ∑ r : Fin 5000,
        f ⟨t.val * 5000 + r.val, by have := t.isLt; have := r.isLt; omega⟩ * f ⟨t.val * 5000 + r.val, by have := t.isLt; have := r.isLt; omega⟩)
        ((100000 : ℝ) : EReal)
      - Ideal.div (0 + ∑ t : Fin 20, ∑ r : Fin 5000, f ⟨t.val * 5000 + r.val, by have := t.isLt; have := r.isLt; omega⟩) ((100000 : ℝ) : EReal)
        * Ideal.div (0 + ∑ t : Fin 20, ∑ r : Fin 5000, f ⟨t.val * 5000 + r.val, by have := t.isLt; have := r.isLt; omega⟩) ((100000 : ℝ) : EReal)
      = Ideal.div (0 + ∑ i : Fin 100000, (f i - Ideal.div (0 + ∑ j : Fin 100000, f j) ((100000 : ℝ) : EReal))
          * (f i - Ideal.div (0 + ∑ j : Fin 100000, f j) ((100000 : ℝ) : EReal))) ((100000 : ℝ) : EReal) := by
  have h := tiled_variance_eq_of_eq 20 5000 100000 (by norm_num) (ext f) (fun i => by rw [ext_val]; exact hf i) 100000 (by norm_num) (by norm_num)
  simp only [ext_tile, ext_val] at h
  exact h

end Cert.BridgeAlg

end
-- ==== Proof.Bridge1.lean ====
/-
  The two linear layers, kernel against reference, entry by entry at the ideal instance.

  Both programs gather the source rows, add the edge features, rectify, and scatter-add at the destination rows; both
  count the in-degrees by a scatter-add of ones and clip the count below at one. Those host chains are the same operations
  on both sides, so they are the same functions. On top of them the reference divides the aggregated sum by the clipped
  count, multiplies by the first weight matrix transposed, adds the bias, and adds the node features times the second
  weight matrix transposed; the kernel multiplies the aggregated sum by the reciprocal of the clipped count, forms both
  products tile by tile, adds them, and adds the bias last. At an entry `(i, j)` both are
  Σₖ (agg(i,k) / cnt(i)) · Wl(j,k) + bl(j) + Σₖ h(i,k) · Wr(j,k): dividing by the count is multiplying by its reciprocal because
  the clipped count is a nonzero real, and the three summands commute.
-/
import proofs.«168042_j17549236371683_2_alg».proof.Proof.KVal
import proofs.«168042_j17549236371683_2_alg».proof.Proof.KAt
import proofs.«168042_j17549236371683_2_alg».proof.Proof.Layout
import proofs.«168042_j17549236371683_2_alg».proof.Proof.RefAt
import proofs.«168042_j17549236371683_2_alg».proof.Proof.BridgeAlg
import Idealize.ShloMosaic.Lib.IdealHost

set_option maxRecDepth 16384

noncomputable section

namespace Cert.KernelIdeal.Bridge

open Cert.KernelIdeal Idealize.ShloMosaic Idealize.ShloMosaic.ValueIdx Cert.LibERealStats
open Cert.ReferenceIdeal.RefRun renaming aggSum → rAggSum, clipCnt → rClipCnt, conv → rConv, segMean → rSegMean

variable [Cert.KernelIdeal.Facts] [Cert.ReferenceIdeal.Facts]

/-- The aggregated messages are one function in both programs: the same gather, addition, rectification and scatter-add. -/
theorem aggSum_eq (h : FVec Ideal S100000x128 .f32) (xe : FVec Ideal S1600000x128 .f32) (ei : IVec S2x1600000 32) :
    KVal.aggSum (F := Ideal) h xe ei = rAggSum (F := Ideal) h xe ei := rfl

/-- The clipped in-degrees are one function in both programs. -/
theorem clipCnt_eq (ei : IVec S2x1600000 32) : KVal.clipCnt (F := Ideal) ei = rClipCnt (F := Ideal) ei := rfl

/-- The segment mean is one function in both programs. -/
theorem segMean_eq (h : FVec Ideal S100000x128 .f32) (bt : IVec S100000 32) :
    KVal.segMean (F := Ideal) h bt = rSegMean (F := Ideal) h bt := rfl

/-- The reciprocal in-degree column at row `i` is one over the clipped in-degree of `i`. -/
theorem invCnt_apply (ei : IVec S2x1600000 32) (i : Fin 100000) :
    KVal.invCnt (F := Ideal) ei (ix2 i (0 : Fin 1)) = Ideal.div 1 (rClipCnt (F := Ideal) ei (ix1 i)) := by
  unfold KVal.invCnt
  rw [Layout.col100000, hostDivf_apply, broadcastInDim_scalar_apply, constant_apply, Cert.ReferenceIdeal.RefAt.ofBits_one, clipCnt_eq]

/-- One entry of a linear layer: the kernel's formula over the shared host chains is the reference's layer. -/
theorem linear_eq_conv (h : FVec Ideal S100000x128 .f32) (xe : FVec Ideal S1600000x128 .f32) (ei : IVec S2x1600000 32)
    (Wl : FVec Ideal S128x128 .f32) (bl : FVec Ideal S128 .f32) (Wr : FVec Ideal S128x128 .f32) (i : Fin 100000) (j : Fin 128) :
    ((∑ k : Fin 128, (KVal.aggSum (F := Ideal) h xe ei (ix2 i k) * KVal.invCnt (F := Ideal) ei (ix2 i (0 : Fin 1)))
          * transpose S128x128 [1, 0] Wl Facts₀.transposes_S128x128_S128x128_1_0 (ix2 k j))
        + (∑ k : Fin 128, h (ix2 i k) * transpose S128x128 [1, 0] Wr Facts₀.transposes_S128x128_S128x128_1_0 (ix2 k j)))
      + shapeCast S1x128 bl Facts₀.shapeCasts_S128_S1x128 (ix2 (0 : Fin 1) j)
      = rConv (F := Ideal) h xe ei Wl bl Wr (ix2 i j) := by
  have s1 : (∑ k : Fin 128, (KVal.aggSum (F := Ideal) h xe ei (ix2 i k) * KVal.invCnt (F := Ideal) ei (ix2 i (0 : Fin 1)))
          * transpose S128x128 [1, 0] Wl Facts₀.transposes_S128x128_S128x128_1_0 (ix2 k j))
      = ∑ k : Fin 128, (rAggSum (F := Ideal) h xe ei (ix2 i k) * Ideal.div 1 (rClipCnt (F := Ideal) ei (ix1 i))) * Wl (ix2 j k) :=
    Finset.sum_congr rfl fun k _ => by rw [Layout.tr128, invCnt_apply, aggSum_eq]
  have s2 : (∑ k : Fin 128, h (ix2 i k) * transpose S128x128 [1, 0] Wr Facts₀.transposes_S128x128_S128x128_1_0 (ix2 k j))
      = ∑ k : Fin 128, h (ix2 i k) * Wr (ix2 j k) :=
    Finset.sum_congr rfl fun k _ => by rw [Layout.tr128]
  rw [s1, s2, Layout.row128, Cert.ReferenceIdeal.RefAt.conv_apply]
  exact Cert.BridgeAlg.linear_entry (n := 128) _ _ _ _ _ _ (Cert.ReferenceIdeal.RefAt.clipCnt_real ei i)

end Cert.KernelIdeal.Bridge

end
-- ==== Proof.KStats.lean ====
/-
  The statistics rows of the kernel program read at a column, at the ideal float values: the mean row is the
  sum over the 20 tiles of the per-tile column sums, over 100000; the variance row is the same quotient of
  the per-tile sums of squares, minus the square of the mean; the reciprocal deviation is the reciprocal square
  root of the variance plus the literal 1e-5 (kept as its word).
-/
import proofs.«168042_j17549236371683_2_alg».proof.Proof.KVal
import proofs.«168042_j17549236371683_2_alg».proof.Proof.Layout
import Idealize.ShloMosaic.Lib.Pipeline.Value
import Idealize.ShloMosaic.Lib.IdealHost

noncomputable section

namespace Cert.KernelIdeal.KStats

open Cert.KernelIdeal Cert.KernelIdeal.Gen
open Idealize.ShloMosaic Idealize.ShloMosaic.ValueIdx
open scoped BigOperators

variable [Cert.KernelIdeal.Facts]

/-- The word of `100000.0` denotes the real `100000`. -/
theorem ofBits_100000 : Ideal.ofBits .f32 0x47C35000#32 = ((100000 : ℝ) : EReal) := by
  simp [Ideal.ofBits, Ideal.ieee, -EReal.coe_mul]; norm_num

/-- The host's reciprocal square root at an index is the ideal instance's of the element. -/
theorem hostRsqrt_apply {s : Shape} {φ : FTy} (a : FVec Ideal s φ) (i : s.Idx) : Host.rsqrt a i = Ideal.rsqrt (a i) := rfl

/-- The mean row at column `j`: zero plus the sum over the 20 tiles of the per-tile column sums, over `100000`. -/
theorem muRow_apply (s0 : FVec Ideal S20x1x128 .f32) (j : Fin 128) :
    KVal.muRow (F := Ideal) s0 (ix2 (0 : Fin 1) j)
      = Ideal.div (0 + ∑ t : Fin 20, s0 (ix3 t (0 : Fin 1) j)) ((100000 : ℝ) : EReal) := by
  unfold KVal.muRow
  rw [hostDivf_apply, Layout.red20 s0 _ _ _ (by decide) j, broadcastInDim_scalar_apply, constant_apply, constant_apply,
    Ideal.ofBits_zero_f32, ofBits_100000]

/-- The variance row at column `j`: the mean of the squares minus the square of the mean. -/
theorem varRow_apply (s0 s1 : FVec Ideal S20x1x128 .f32) (j : Fin 128) :
    KVal.varRow (F := Ideal) s0 s1 (ix2 (0 : Fin 1) j)
      = Ideal.div (0 + ∑ t : Fin 20, s1 (ix3 t (0 : Fin 1) j)) ((100000 : ℝ) : EReal)
        - KVal.muRow (F := Ideal) s0 (ix2 (0 : Fin 1) j) * KVal.muRow (F := Ideal) s0 (ix2 (0 : Fin 1) j) := by
  unfold KVal.varRow
  rw [subf_apply, mulf_apply, hostDivf_apply, Layout.red20 s1 _ _ _ (by decide) j, broadcastInDim_scalar_apply, constant_apply,
    constant_apply, Ideal.ofBits_zero_f32, ofBits_100000]

/-- The reciprocal deviation at column `j`: the reciprocal square root of the variance plus the literal `1e-5`. -/
theorem invStd_apply (s0 s1 : FVec Ideal S20x1x128 .f32) (j : Fin 128) :
    KVal.invStd (F := Ideal) s0 s1 (ix2 (0 : Fin 1) j)
      = Ideal.rsqrt (KVal.varRow (F := Ideal) s0 s1 (ix2 (0 : Fin 1) j) + Ideal.ofBits .f32 0x3727C5AC#32) := by
  unfold KVal.invStd
  rw [hostRsqrt_apply, addf_apply, broadcastInDim_scalar_apply, constant_apply]

end Cert.KernelIdeal.KStats

end
-- ==== Proof.FinIn.lean ====
/-
  From the precondition to finiteness. The stated precondition is one conjunction, argument by argument, of "every entry has
  absolute value below +∞". At the ideal instance an entry is an extended real, its absolute value is max x (−x), and the
  pattern 0x7F800000 denotes +∞; so the precondition says of every float entry that it is neither +∞ nor −∞: a real number.
  Only the five arrays the first linear layer reads are needed later — the node features, the edge features, and that layer's
  two weight matrices and bias — because only the variance of that layer's output is computed in two different ways.
-/
import proofs.«168042_j17549236371683_2_alg».proof.Pre_finite_inputs
import proofs.«168042_j17549236371683_2_alg».proof.Proof.LibERealStats
import Idealize.ShloMosaic.Lib.ReduceAll
import Idealize.ShloMosaic.Lib.ValueIdx
import Idealize.ShloMosaic.Lib.Pipeline.Value
import Idealize.ShloMosaic.PureOps.Ideal

noncomputable section

namespace Cert.FinIn

open Idealize.ShloMosaic Idealize.ShloMosaic.ValueIdx Cert.Pre_finite_inputs Cert.LibERealStats

/-- The shape of a scalar has exactly one index. -/
instance : Subsingleton S_.Idx := ⟨fun a b => funext fun d => d.elim0⟩

/-- The pattern of +∞. -/
theorem ofBits_inf : Ideal.ofBits .f32 0x7F800000#32 = (⊤ : EReal) := by simp [Ideal.ofBits, Ideal.ieee]

/-- A comparison bit that is 1 was a true comparison. -/
theorem lt_of_cmp_olt {x y : EReal} (h : Ideal.cmp .olt x y = 1#1) : x < y := by
  by_contra hn
  have : Ideal.cmp .olt x y = 0#1 := by
    show BitVec.ofBool (decide (x < y)) = 0#1
    rw [decide_eq_false hn]; rfl
  rw [this] at h
  exact absurd h (by decide)

/-- One entry: if the printed test "|a i| < +∞" is 1 at the index `i`, the entry is a real number. -/
theorem isReal_of_test {s : Shape} (a : FVec Ideal s .f32) (hb : S_.BroadcastsInDim s ![]) (i : s.Idx)
    (h : cmpf (F := Ideal) .olt (Host.absf a) (broadcastInDim s ![] hb (constant S_ .f32 0x7F800000#32)) i = 1#1) :
    IsReal (a i) := by
  have hb' : broadcastInDim s ![] hb (constant (F := Ideal) S_ .f32 0x7F800000#32) i = Ideal.ofBits .f32 0x7F800000#32 :=
    broadcastInDim_apply _ hb _ i ix0 (fun a => a.elim0)
  have h1 : Ideal.cmp .olt (max (a i) (-(a i))) (broadcastInDim s ![] hb (constant (F := Ideal) S_ .f32 0x7F800000#32) i) = 1#1 := h
  rw [hb', ofBits_inf] at h1
  exact isReal_of_abs_lt_top (lt_of_cmp_olt h1)

/-- One argument: if its printed "all entries finite" bit is 1, every entry is a real number. -/
theorem isReal_of_all {s : Shape} {axes : List (Fin s.rank)} (a : FVec Ideal s .f32) (hb : S_.BroadcastsInDim s ![])
    (hr : s.ReducesTo axes S_) (hu : 0 < S_.numel)
    (h : Host.reduce IntOp.andi (cmpf (F := Ideal) .olt (Host.absf a) (broadcastInDim s ![] hb (constant S_ .f32 0x7F800000#32)))
      (constantI S_ 1 1#1) hr hu ix0 = 1#1) (i : s.Idx) : IsReal (a i) :=
  isReal_of_test a hb i (Host.reduce_andi_all _ _ hr hu ix0 h i)

/-- Under the precondition, every entry of the node features, of the edge features, and of the first layer's two weight
    matrices and bias is a real number. -/
theorem finite_of_pre [Cert.Pre_finite_inputs.Facts] (a0 : FVec Ideal S100000x128 .f32) (a1 : FVec Ideal S1600000x128 .f32) (a2 : IVec S2x1600000 32) (a3 : IVec S100000 32)
    (a4 : FVec Ideal S128x128 .f32) (a5 : FVec Ideal S128 .f32) (a6 : FVec Ideal S128x128 .f32) (a7 : FVec Ideal S128x128 .f32)
    (a8 : FVec Ideal S128 .f32) (a9 : FVec Ideal S128x128 .f32) (a10 : FVec Ideal S128 .f32) (a11 : FVec Ideal S128 .f32)
    (a12 : FVec Ideal S64x128 .f32) (a13 : FVec Ideal S64 .f32)
    (h : Cert.Pre_finite_inputs.fn (F := Ideal) a0 a1 a2 a3 a4 a5 a6 a7 a8 a9 a10 a11 a12 a13 = fun _ => 1#1) :
    (∀ i, IsReal (a0 i)) ∧ (∀ i, IsReal (a1 i)) ∧ (∀ i, IsReal (a4 i)) ∧ (∀ i, IsReal (a5 i)) ∧ (∀ i, IsReal (a6 i)) := by
  have h0 := congrFun h ix0
  dsimp only [Cert.Pre_finite_inputs.fn, fn_part1, fn_part2, fn_part3] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, g6⟩ := IntOp.andi_eq_one.1 h0
  obtain ⟨h0, g5⟩ := IntOp.andi_eq_one.1 h0
  obtain ⟨h0, g4⟩ := IntOp.andi_eq_one.1 h0
  obtain ⟨g0, g1⟩ := IntOp.andi_eq_one.1 h0
  exact ⟨isReal_of_all a0 _ _ _ g0, isReal_of_all a1 _ _ _ g1, isReal_of_all a4 _ _ _ g4, isReal_of_all a5 _ _ _ g5,
    isReal_of_all a6 _ _ _ g6⟩

end Cert.FinIn

end
-- ==== Proof.Bridge2.lean ====
/-
  From the first linear layer to the two results, kernel against reference, at the ideal instance.

  The first layer's outputs agree entry by entry (the previous module). Its batch statistics: the kernel's column mean is
  the sum over 20 tiles of per-tile column sums over N = 100000, the reference's the column sum over N: one sum, regrouped.
  The kernel's column variance is the mean of squares minus the squared mean, the reference's the mean of squared deviations:
  equal because every entry of the layer's output is a real number (finite inputs; gathers, sums and products of reals are
  real). Hence the normalized, rectified features agree; the second layer is the first layer's identity again on those
  features; the projected read-out is the same sum over the rectified second layer against the transposed read-out matrix;
  and the pooled read-out is one segment mean applied to equal arrays.
-/
import proofs.«168042_j17549236371683_2_alg».proof.Proof.Bridge1
import proofs.«168042_j17549236371683_2_alg».proof.Proof.KStats
import proofs.«168042_j17549236371683_2_alg».proof.Proof.FinIn

set_option maxRecDepth 16384

noncomputable section

namespace Cert.KernelIdeal.Bridge

open Cert.KernelIdeal Idealize.ShloMosaic Idealize.ShloMosaic.ValueIdx Cert.LibERealStats
open Cert.ReferenceIdeal.RefRun renaming aggSum → rAggSum, clipCnt → rClipCnt, conv → rConv, segMean → rSegMean,
  meanCol → rMeanCol, varCol → rVarCol, bnRelu → rBnRelu, proj → rProj, colSum → rColSum, layer1 → rLayer1, act1 → rAct1,
  layer2 → rLayer2, out96 → rOut96, out90 → rOut90

variable [Cert.KernelIdeal.Facts] [Cert.ReferenceIdeal.Facts]

section Layer1

variable (x : FVec Ideal S100000x128 .f32) (xe : FVec Ideal S1600000x128 .f32) (ei : IVec S2x1600000 32)
  (Wl0 : FVec Ideal S128x128 .f32) (bl0 : FVec Ideal S128 .f32) (Wr0 : FVec Ideal S128x128 .f32)

/-- The first linear layer: the kernel's array is the reference's. -/
theorem lin0_eq : KVal.lin0 (F := Ideal) x xe ei Wl0 bl0 Wr0 = rConv (F := Ideal) x xe ei Wl0 bl0 Wr0 := by
  funext idx
  obtain ⟨p, q, rfl⟩ : ∃ (p : Fin 100000) (q : Fin 128), idx = ix2 p q := ⟨idx 0, idx 1, eq_ix2 idx⟩
  exact (KAt.lin0_apply _ _ _ _ _ _ p q).trans (linear_eq_conv x xe ei Wl0 bl0 Wr0 p q)

/-- Row `t` of the kernel's column-sum table is the sum of the layer's output over tile `t`. -/
theorem sums0_row (t : Fin 20) (j : Fin 128) :
    KVal.sums0 (F := Ideal) x xe ei Wl0 bl0 Wr0 (ix3 t (0 : Fin 1) j)
      = ∑ r : Fin 5000, KVal.lin0 (F := Ideal) x xe ei Wl0 bl0 Wr0
          (ix2 ⟨t.val * 5000 + r.val, by have := t.isLt; have := r.isLt; omega⟩ j) :=
  KAt.colSums_apply _ _ _ _ _ _ t j

/-- Row `t` of the kernel's table of sums of squares. -/
theorem sqs0_row (t : Fin 20) (j : Fin 128) :
    KVal.sqs0 (F := Ideal) x xe ei Wl0 bl0 Wr0 (ix3 t (0 : Fin 1) j)
      = ∑ r : Fin 5000, KVal.lin0 (F := Ideal) x xe ei Wl0 bl0 Wr0
            (ix2 ⟨t.val * 5000 + r.val, by have := t.isLt; have := r.isLt; omega⟩ j)
          * KVal.lin0 (F := Ideal) x xe ei Wl0 bl0 Wr0
            (ix2 ⟨t.val * 5000 + r.val, by have := t.isLt; have := r.isLt; omega⟩ j) :=
  KAt.colSqSums_apply _ _ _ _ _ _ t j

/-- The column means agree: a sum over 20 tiles of 5000 rows is the sum over the 100000 rows. -/
theorem mu_eq (j : Fin 128) :
    KVal.muRow (F := Ideal) (KVal.sums0 (F := Ideal) x xe ei Wl0 bl0 Wr0) (ix2 (0 : Fin 1) j)
      = rMeanCol (F := Ideal) (rConv (F := Ideal) x xe ei Wl0 bl0 Wr0) (ix1 j) := by
  rw [KStats.muRow_apply, Cert.ReferenceIdeal.RefAt.meanCol_apply, Cert.ReferenceIdeal.RefAt.colSum_apply,
    Cert.ReferenceIdeal.RefAt.ofBits_100000, ← lin0_eq]
  simp only [sums0_row]
  exact Cert.BridgeAlg.mean_tiles (fun i => KVal.lin0 (F := Ideal) x xe ei Wl0 bl0 Wr0 (ix2 i j)) _

/-- The column variances agree when the layer's output is real: mean of squares minus squared mean is the mean of squared
    deviations. -/
theorem var_eq (j : Fin 128) (hf : ∀ i : Fin 100000, IsReal (rConv (F := Ideal) x xe ei Wl0 bl0 Wr0 (ix2 i j))) :
    KVal.varRow (F := Ideal) (KVal.sums0 (F := Ideal) x xe ei Wl0 bl0 Wr0) (KVal.sqs0 (F := Ideal) x xe ei Wl0 bl0 Wr0)
        (ix2 (0 : Fin 1) j)
      = rVarCol (F := Ideal) (rConv (F := Ideal) x xe ei Wl0 bl0 Wr0) (ix1 j) := by
  rw [KStats.varRow_apply, KStats.muRow_apply, Cert.ReferenceIdeal.RefAt.varCol_apply,
    Cert.ReferenceIdeal.RefAt.meanCol_apply, Cert.ReferenceIdeal.RefAt.colSum_apply,
    Cert.ReferenceIdeal.RefAt.ofBits_100000, ← lin0_eq]
  simp only [sums0_row, sqs0_row]
  exact Cert.BridgeAlg.var_tiles (fun i => KVal.lin0 (F := Ideal) x xe ei Wl0 bl0 Wr0 (ix2 i j))
    (fun i => by rw [lin0_eq]; exact hf i)

variable (g b : FVec Ideal S128 .f32)

/-- The normalized, rectified features agree. -/
theorem act_eq (hf : ∀ y, IsReal (rConv (F := Ideal) x xe ei Wl0 bl0 Wr0 y)) :
    KVal.act0 (F := Ideal) x xe ei Wl0 bl0 Wr0 g b
      = rBnRelu (F := Ideal) (rConv (F := Ideal) x xe ei Wl0 bl0 Wr0) g b := by
  funext idx
  obtain ⟨p, q, rfl⟩ : ∃ (p : Fin 100000) (q : Fin 128), idx = ix2 p q := ⟨idx 0, idx 1, eq_ix2 idx⟩
  refine (KAt.bnRelu_apply _ _ _ _ _ p q).trans ?_
  rw [Cert.ReferenceIdeal.RefAt.bnRelu_apply, Layout.row128, Layout.row128, mu_eq, KStats.invStd_apply,
    var_eq x xe ei Wl0 bl0 Wr0 q (fun i => hf _), lin0_eq]

end Layer1

/-- The second linear layer agrees: the first layer's identity again, on equal features. -/
theorem lin1_eq [Cert.Pre_finite_inputs.Facts] (a0 : FVec Ideal S100000x128 .f32) (a1 : FVec Ideal S1600000x128 .f32) (a2 : IVec S2x1600000 32) (a3 : IVec S100000 32)
    (a4 : FVec Ideal S128x128 .f32) (a5 : FVec Ideal S128 .f32) (a6 a7 : FVec Ideal S128x128 .f32) (a8 : FVec Ideal S128 .f32)
    (a9 : FVec Ideal S128x128 .f32) (a10 a11 : FVec Ideal S128 .f32) (a12 : FVec Ideal S64x128 .f32) (a13 : FVec Ideal S64 .f32)
    (hpre : Cert.Pre_finite_inputs.fn (F := Ideal) a0 a1 a2 a3 a4 a5 a6 a7 a8 a9 a10 a11 a12 a13 = fun _ => 1#1) :
    KVal.lin1 (F := Ideal) a0 a1 a2 a4 a5 a6 a7 a8 a9 a10 a11 a12 a13
      = rLayer2 (F := Ideal) a0 a1 a2 a4 a5 a6 a7 a8 a9 a10 a11 := by
  obtain ⟨h0, h1, h4, h5, h6⟩ := Cert.FinIn.finite_of_pre a0 a1 a2 a3 a4 a5 a6 a7 a8 a9 a10 a11 a12 a13 hpre
  have hf := Cert.ReferenceIdeal.RefAt.conv_isReal a0 a1 a2 a4 a5 a6 h0 h1 h4 h5 h6
  have hact := act_eq a0 a1 a2 a4 a5 a6 a10 a11 hf
  funext idx
  obtain ⟨p, q, rfl⟩ : ∃ (p : Fin 100000) (q : Fin 128), idx = ix2 p q := ⟨idx 0, idx 1, eq_ix2 idx⟩
  refine (KAt.lin1_apply _ _ _ _ _ _ _ _ p q).trans ?_
  refine (linear_eq_conv (KVal.act0 (F := Ideal) a0 a1 a2 a4 a5 a6 a10 a11) a1 a2 a7 a8 a9 p q).trans ?_
  rw [hact]
  rfl

/-- The first result agrees: the projected read-out. -/
theorem out_eq [Cert.Pre_finite_inputs.Facts] (a0 : FVec Ideal S100000x128 .f32) (a1 : FVec Ideal S1600000x128 .f32) (a2 : IVec S2x1600000 32) (a3 : IVec S100000 32)
    (a4 : FVec Ideal S128x128 .f32) (a5 : FVec Ideal S128 .f32) (a6 a7 : FVec Ideal S128x128 .f32) (a8 : FVec Ideal S128 .f32)
    (a9 : FVec Ideal S128x128 .f32) (a10 a11 : FVec Ideal S128 .f32) (a12 : FVec Ideal S64x128 .f32) (a13 : FVec Ideal S64 .f32)
    (hpre : Cert.Pre_finite_inputs.fn (F := Ideal) a0 a1 a2 a3 a4 a5 a6 a7 a8 a9 a10 a11 a12 a13 = fun _ => 1#1) :
    rOut96 (F := Ideal) a0 a1 a2 a4 a5 a6 a7 a8 a9 a10 a11 a12 a13
      = KVal.kOut (F := Ideal) a0 a1 a2 a4 a5 a6 a7 a8 a9 a10 a11 a12 a13 := by
  have hlin1 := lin1_eq a0 a1 a2 a3 a4 a5 a6 a7 a8 a9 a10 a11 a12 a13 hpre
  symm
  funext idx
  obtain ⟨p, q, rfl⟩ : ∃ (p : Fin 100000) (q : Fin 64), idx = ix2 p q := ⟨idx 0, idx 1, eq_ix2 idx⟩
  refine (KAt.proj_apply _ _ _ _ _ _ _ _ p q).trans ?_
  have s : (∑ k : Fin 128, max (KVal.lin1 (F := Ideal) a0 a1 a2 a4 a5 a6 a7 a8 a9 a10 a11 a12 a13 (ix2 p k)) 0
        * transpose S128x64 [1, 0] a12 Facts₀.transposes_S64x128_S128x64_1_0 (ix2 k q))
      = ∑ k : Fin 128, max (rLayer2 (F := Ideal) a0 a1 a2 a4 a5 a6 a7 a8 a9 a10 a11 (ix2 p k)) 0 * a12 (ix2 q k) :=
    Finset.sum_congr rfl fun k _ => by rw [Layout.tr64, hlin1]
  refine (congrArg₂ (· + ·) s (Layout.row64 a13 _ q)).trans ?_
  exact (Cert.ReferenceIdeal.RefAt.proj_apply _ a12 a13 p q).symm

/-- The second result agrees: one segment mean applied to equal arrays. -/
theorem g_eq [Cert.Pre_finite_inputs.Facts] (a0 : FVec Ideal S100000x128 .f32) (a1 : FVec Ideal S1600000x128 .f32) (a2 : IVec S2x1600000 32) (a3 : IVec S100000 32)
    (a4 : FVec Ideal S128x128 .f32) (a5 : FVec Ideal S128 .f32) (a6 a7 : FVec Ideal S128x128 .f32) (a8 : FVec Ideal S128 .f32)
    (a9 : FVec Ideal S128x128 .f32) (a10 a11 : FVec Ideal S128 .f32) (a12 : FVec Ideal S64x128 .f32) (a13 : FVec Ideal S64 .f32)
    (hpre : Cert.Pre_finite_inputs.fn (F := Ideal) a0 a1 a2 a3 a4 a5 a6 a7 a8 a9 a10 a11 a12 a13 = fun _ => 1#1) :
    rOut90 (F := Ideal) a0 a1 a2 a3 a4 a5 a6 a7 a8 a9 a10 a11
      = KVal.kG (F := Ideal) a0 a1 a2 a3 a4 a5 a6 a7 a8 a9 a10 a11 a12 a13 := by
  have hlin1 := lin1_eq a0 a1 a2 a3 a4 a5 a6 a7 a8 a9 a10 a11 a12 a13 hpre
  show rSegMean (F := Ideal) (rLayer2 (F := Ideal) a0 a1 a2 a4 a5 a6 a7 a8 a9 a10 a11) a3
    = KVal.segMean (F := Ideal) (KVal.lin1 (F := Ideal) a0 a1 a2 a4 a5 a6 a7 a8 a9 a10 a11 a12 a13) a3
  rw [hlin1, segMean_eq]

end Cert.KernelIdeal.Bridge

end
-- ==== Proof.lean ====
/-
  The certificate of a two-layer message-passing network with batch normalization, a projected read-out and a pooled
  graph read-out: three pallas_calls among host gathers and scatter-adds, against a plain jnp reference.

  The three frames: the word-level kernel program and its idealization run, fault-free, with their arguments unchanged — the
  generated frames of a program of three regions; the reference is a host program, and its frame is its run with the
  results dropped. The idealization rewrote nothing, so there is nothing to preserve.

  The algebraic claim, at the ideal instance (floats are extended reals, operations exact). Both programs compute, per
  layer, a mean over incoming edges of relu(h[src] + xe) followed by two linear maps and a bias. The kernel multiplies the
  scatter-added sum by the reciprocal of the clipped in-degree where the reference divides by it (one value for every
  extended real, the divisor being a nonzero real), adds the bias last instead of second (addition is commutative and
  associative), and forms the matrix products tile by tile (5000 rows at a time) with the weights transposed on the host
  (the same sums). After the first layer the kernel's batch-norm statistics come from per-tile column sums and sums of
  squares — mean = Σh / N, variance = Σh² / N − mean² — where the reference centres first: Σ(h − mean)² / N. These agree
  because every entry of the first layer's output is a real number: the precondition makes every input finite, and gather,
  relu, scatter-add, scaling and matrix products of reals are real. Everything downstream is the same function applied to
  equal arrays.
-/
import proofs.«168042_j17549236371683_2_alg».proof.Defs
import proofs.«168042_j17549236371683_2_alg».proof.Proof.Gen.Kernel
import proofs.«168042_j17549236371683_2_alg».proof.Proof.Gen.Kernel.Frame
import proofs.«168042_j17549236371683_2_alg».proof.Proof.Gen.KernelIdeal
import proofs.«168042_j17549236371683_2_alg».proof.Proof.Gen.KernelIdeal.Frame
import proofs.«168042_j17549236371683_2_alg».proof.Proof.Gen.ReferenceIdeal
import proofs.«168042_j17549236371683_2_alg».proof.Proof.Gen.Pre_finite_inputs
import proofs.«168042_j17549236371683_2_alg».proof.Proof.RefRun
import proofs.«168042_j17549236371683_2_alg».proof.Proof.KVal
import proofs.«168042_j17549236371683_2_alg».proof.Proof.Bridge2
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

theorem frame_ri [Cert.ReferenceIdeal.Facts] [Cert.Pre_finite_inputs.Facts] : Cert.frame_ReferenceIdeal := fun m ρ _ =>
  Cert.ReferenceIdeal.RefRun.frame_only (F := Ideal) m ρ

/-- At the ideal instance the kernel program's two results are the projected read-out and the pooled read-out as functions
    of its arguments, and the reference's two results are the same two functions of arguments that agree: the two runs side
    by side, the reference's arguments rewritten to the kernel's, and the two arrays identified entry by entry. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, _, Cert.KernelIdeal.KVal.run (F := Ideal) m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨h0, h1, h2, h3, h4, h5, h6, h7, h8, h9, h10, h11, h12, h13⟩ := hagree c
    rw [h0, h1, h2, h4, h5, h6, h7, h8, h9, h10, h11, h12, h13]
    exact Cert.KernelIdeal.Bridge.out_eq _ _ _ _ _ _ _ _ _ _ _ _ _ _ (hpre c)
  · obtain ⟨h0, h1, h2, h3, h4, h5, h6, h7, h8, h9, h10, h11, h12, h13⟩ := hagree c
    rw [h0, h1, h2, h3, h4, h5, h6, h7, h8, h9, h10, h11]
    exact Cert.KernelIdeal.Bridge.g_eq _ _ _ _ _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
